-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v3)) (v4 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_v147) = v3 c
          ∧ r.2.mem ((c.tc : Thread Cert.ReferenceIdeal.nD Cert.ReferenceIdeal.τ).loc Cert.ReferenceIdeal.main_v184) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x80x160x160 : Shape := ⟨4, ![8, 80, 160, 160]⟩
abbrev S8x4x160x160 : Shape := ⟨4, ![8, 4, 160, 160]⟩
abbrev S8x1x160x160 : Shape := ⟨4, ![8, 1, 160, 160]⟩
abbrev S8x80x80x80 : Shape := ⟨4, ![8, 80, 80, 80]⟩
abbrev S8x4x80x80 : Shape := ⟨4, ![8, 4, 80, 80]⟩
abbrev S8x1x80x80 : Shape := ⟨4, ![8, 1, 80, 80]⟩
abbrev S8x80x40x40 : Shape := ⟨4, ![8, 80, 40, 40]⟩
abbrev S8x4x40x40 : Shape := ⟨4, ![8, 4, 40, 40]⟩
abbrev S8x1x40x40 : Shape := ⟨4, ![8, 1, 40, 40]⟩
abbrev S8x80x20x20 : Shape := ⟨4, ![8, 80, 20, 20]⟩
abbrev S8x4x20x20 : Shape := ⟨4, ![8, 4, 20, 20]⟩
abbrev S8x1x20x20 : Shape := ⟨4, ![8, 1, 20, 20]⟩
abbrev S8x80x10x10 : Shape := ⟨4, ![8, 80, 10, 10]⟩
abbrev S8x4x10x10 : Shape := ⟨4, ![8, 4, 10, 10]⟩
abbrev S8x1x10x10 : Shape := ⟨4, ![8, 1, 10, 10]⟩
abbrev S_ : Shape := ⟨0, ![]⟩

class Facts : Prop where
  bcast_S_S8x80x160x160 : S_.BroadcastsInDim S8x80x160x160 (![] : Fin 0 → Fin S8x80x160x160.rank)
  reducesTo_S8x80x160x160_S_d0_1_2_3 : S8x80x160x160.ReducesTo [0, 1, 2, 3] S_
  h_S_ : 0 < S_.numel
  bcast_S_S8x4x160x160 : S_.BroadcastsInDim S8x4x160x160 (![] : Fin 0 → Fin S8x4x160x160.rank)
  reducesTo_S8x4x160x160_S_d0_1_2_3 : S8x4x160x160.ReducesTo [0, 1, 2, 3] S_
  bcast_S_S8x1x160x160 : S_.BroadcastsInDim S8x1x160x160 (![] : Fin 0 → Fin S8x1x160x160.rank)
  reducesTo_S8x1x160x160_S_d0_1_2_3 : S8x1x160x160.ReducesTo [0, 1, 2, 3] S_
  bcast_S_S8x80x80x80 : S_.BroadcastsInDim S8x80x80x80 (![] : Fin 0 → Fin S8x80x80x80.rank)
  reducesTo_S8x80x80x80_S_d0_1_2_3 : S8x80x80x80.ReducesTo [0, 1, 2, 3] S_
  bcast_S_S8x4x80x80 : S_.BroadcastsInDim S8x4x80x80 (![] : Fin 0 → Fin S8x4x80x80.rank)
  reducesTo_S8x4x80x80_S_d0_1_2_3 : S8x4x80x80.ReducesTo [0, 1, 2, 3] S_
  bcast_S_S8x1x80x80 : S_.BroadcastsInDim S8x1x80x80 (![] : Fin 0 → Fin S8x1x80x80.rank)
  reducesTo_S8x1x80x80_S_d0_1_2_3 : S8x1x80x80.ReducesTo [0, 1, 2, 3] S_
  bcast_S_S8x80x40x40 : S_.BroadcastsInDim S8x80x40x40 (![] : Fin 0 → Fin S8x80x40x40.rank)
  reducesTo_S8x80x40x40_S_d0_1_2_3 : S8x80x40x40.ReducesTo [0, 1, 2, 3] S_
  bcast_S_S8x4x40x40 : S_.BroadcastsInDim S8x4x40x40 (![] : Fin 0 → Fin S8x4x40x40.rank)
  reducesTo_S8x4x40x40_S_d0_1_2_3 : S8x4x40x40.ReducesTo [0, 1, 2, 3] S_
  bcast_S_S8x1x40x40 : S_.BroadcastsInDim S8x1x40x40 (![] : Fin 0 → Fin S8x1x40x40.rank)
  reducesTo_S8x1x40x40_S_d0_1_2_3 : S8x1x40x40.ReducesTo [0, 1, 2, 3] S_
  bcast_S_S8x80x20x20 : S_.BroadcastsInDim S8x80x20x20 (![] : Fin 0 → Fin S8x80x20x20.rank)
  reducesTo_S8x80x20x20_S_d0_1_2_3 : S8x80x20x20.ReducesTo [0, 1, 2, 3] S_
  bcast_S_S8x4x20x20 : S_.BroadcastsInDim S8x4x20x20 (![] : Fin 0 → Fin S8x4x20x20.rank)
  reducesTo_S8x4x20x20_S_d0_1_2_3 : S8x4x20x20.ReducesTo [0, 1, 2, 3] S_
  bcast_S_S8x1x20x20 : S_.BroadcastsInDim S8x1x20x20 (![] : Fin 0 → Fin S8x1x20x20.rank)
  reducesTo_S8x1x20x20_S_d0_1_2_3 : S8x1x20x20.ReducesTo [0, 1, 2, 3] S_
  bcast_S_S8x80x10x10 : S_.BroadcastsInDim S8x80x10x10 (![] : Fin 0 → Fin S8x80x10x10.rank)
  reducesTo_S8x80x10x10_S_d0_1_2_3 : S8x80x10x10.ReducesTo [0, 1, 2, 3] S_
  bcast_S_S8x4x10x10 : S_.BroadcastsInDim S8x4x10x10 (![] : Fin 0 → Fin S8x4x10x10.rank)
  reducesTo_S8x4x10x10_S_d0_1_2_3 : S8x4x10x10.ReducesTo [0, 1, 2, 3] S_
  bcast_S_S8x1x10x10 : S_.BroadcastsInDim S8x1x10x10 (![] : Fin 0 → Fin S8x1x10x10.rank)
  reducesTo_S8x1x10x10_S_d0_1_2_3 : S8x1x10x10.ReducesTo [0, 1, 2, 3] S_

variable [Facts]

def fn_part4 {F : FTy → Type} [FloatOps F] (main_arg14 : FVec F S8x1x10x10 .f32) (main_v63 : IVec S_ 1) (main_v67 : IVec S_ 1) : IVec S_ 1 :=
  let main_v68 : IVec S_ 1 := andi main_v63 main_v67
  let main_v69 : FVec F S8x1x10x10 .f32 := Host.absf main_arg14
  let main_cst_26 : FVec F S_ .f32 := constant S_ .f32 0x7F800000#32
  let main_v70 : FVec F S8x1x10x10 .f32 := broadcastInDim S8x1x10x10 ![] bcast_S_S8x1x10x10 main_cst_26
  let main_v71 : IVec S8x1x10x10 1 := cmpf .olt main_v69 main_v70
  let main_c_27 : IVec S_ 1 := constantI S_ 1 1#1
  let main_v72 : IVec S_ 1 := (fun x v => Host.reduce IntOp.andi x v reducesTo_S8x1x10x10_S_d0_1_2_3 h_S_) main_v71 main_c_27
  let main_v73 : IVec S_ 1 := andi main_v68 main_v72
  main_v73

def fn_part3 {F : FTy → Type} [FloatOps F] (main_arg11 : FVec F S8x1x20x20 .f32) (main_arg12 : FVec F S8x80x10x10 .f32) (main_arg13 : FVec F S8x4x10x10 .f32) (main_arg14 : FVec F S8x1x10x10 .f32) (main_v48 : IVec S_ 1) (main_v49 : FVec F S8x4x20x20 .f32) (main_v50 : FVec F S8x4x20x20 .f32) : IVec S_ 1 :=
  let main_v51 : IVec S8x4x20x20 1 := cmpf .olt main_v49 main_v50
  let main_c_19 : IVec S_ 1 := constantI S_ 1 1#1
  let main_v52 : IVec S_ 1 := (fun x v => Host.reduce IntOp.andi x v reducesTo_S8x4x20x20_S_d0_1_2_3 h_S_) main_v51 main_c_19
  let main_v53 : IVec S_ 1 := andi main_v48 main_v52
  let main_v54 : FVec F S8x1x20x20 .f32 := Host.absf main_arg11
  let main_cst_20 : FVec F S_ .f32 := constant S_ .f32 0x7F800000#32
  let main_v55 : FVec F S8x1x20x20 .f32 := broadcastInDim S8x1x20x20 ![] bcast_S_S8x1x20x20 main_cst_20
  let main_v56 : IVec S8x1x20x20 1 := cmpf .olt main_v54 main_v55
  let main_c_21 : IVec S_ 1 := constantI S_ 1 1#1
  let main_v57 : IVec S_ 1 := (fun x v => Host.reduce IntOp.andi x v reducesTo_S8x1x20x20_S_d0_1_2_3 h_S_) main_v56 main_c_21
  let main_v58 : IVec S_ 1 := andi main_v53 main_v57
  let main_v59 : FVec F S8x80x10x10 .f32 := Host.absf main_arg12
  let main_cst_22 : FVec F S_ .f32 := constant S_ .f32 0x7F800000#32
  let main_v60 : FVec F S8x80x10x10 .f32 := broadcastInDim S8x80x10x10 ![] bcast_S_S8x80x10x10 main_cst_22
  let main_v61 : IVec S8x80x10x10 1 := cmpf .olt main_v59 main_v60
  let main_c_23 : IVec S_ 1 := constantI S_ 1 1#1
  let main_v62 : IVec S_ 1 := (fun x v => Host.reduce IntOp.andi x v reducesTo_S8x80x10x10_S_d0_1_2_3 h_S_) main_v61 main_c_23
  let main_v63 : IVec S_ 1 := andi main_v58 main_v62
  let main_v64 : FVec F S8x4x10x10 .f32 := Host.absf main_arg13
  let main_cst_24 : FVec F S_ .f32 := constant S_ .f32 0x7F800000#32
  let main_v65 : FVec F S8x4x10x10 .f32 := broadcastInDim S8x4x10x10 ![] bcast_S_S8x4x10x10 main_cst_24
  let main_v66 : IVec S8x4x10x10 1 := cmpf .olt main_v64 main_v65
  let main_c_25 : IVec S_ 1 := constantI S_ 1 1#1
  let main_v67 : IVec S_ 1 := (fun x v => Host.reduce IntOp.andi x v reducesTo_S8x4x10x10_S_d0_1_2_3 h_S_) main_v66 main_c_25
  fn_part4 (F := F) main_arg14 main_v63 main_v67

def fn_part2 {F : FTy → Type} [FloatOps F] (main_arg7 : FVec F S8x4x40x40 .f32) (main_arg8 : FVec F S8x1x40x40 .f32) (main_arg9 : FVec F S8x80x20x20 .f32) (main_arg10 : FVec F S8x4x20x20 .f32) (main_arg11 : FVec F S8x1x20x20 .f32) (main_arg12 : FVec F S8x80x10x10 .f32) (main_arg13 : FVec F S8x4x10x10 .f32) (main_arg14 : FVec F S8x1x10x10 .f32) (main_v33 : IVec S_ 1) : IVec S_ 1 :=
  let main_v34 : FVec F S8x4x40x40 .f32 := Host.absf main_arg7
  let main_cst_12 : FVec F S_ .f32 := constant S_ .f32 0x7F800000#32
  let main_v35 : FVec F S8x4x40x40 .f32 := broadcastInDim S8x4x40x40 ![] bcast_S_S8x4x40x40 main_cst_12
  let main_v36 : IVec S8x4x40x40 1 := cmpf .olt main_v34 main_v35
  let main_c_13 : IVec S_ 1 := constantI S_ 1 1#1
  let main_v37 : IVec S_ 1 := (fun x v => Host.reduce IntOp.andi x v reducesTo_S8x4x40x40_S_d0_1_2_3 h_S_) main_v36 main_c_13
  let main_v38 : IVec S_ 1 := andi main_v33 main_v37
  let main_v39 : FVec F S8x1x40x40 .f32 := Host.absf main_arg8
  let main_cst_14 : FVec F S_ .f32 := constant S_ .f32 0x7F800000#32
  let main_v40 : FVec F S8x1x40x40 .f32 := broadcastInDim S8x1x40x40 ![] bcast_S_S8x1x40x40 main_cst_14
  let main_v41 : IVec S8x1x40x40 1 := cmpf .olt main_v39 main_v40
  let main_c_15 : IVec S_ 1 := constantI S_ 1 1#1
  let main_v42 : IVec S_ 1 := (fun x v => Host.reduce IntOp.andi x v reducesTo_S8x1x40x40_S_d0_1_2_3 h_S_) main_v41 main_c_15
  let main_v43 : IVec S_ 1 := andi main_v38 main_v42
  let main_v44 : FVec F S8x80x20x20 .f32 := Host.absf main_arg9
  let main_cst_16 : FVec F S_ .f32 := constant S_ .f32 0x7F800000#32
  let main_v45 : FVec F S8x80x20x20 .f32 := broadcastInDim S8x80x20x20 ![] bcast_S_S8x80x20x20 main_cst_16
  let main_v46 : IVec S8x80x20x20 1 := cmpf .olt main_v44 main_v45
  let main_c_17 : IVec S_ 1 := constantI S_ 1 1#1
  let main_v47 : IVec S_ 1 := (fun x v => Host.reduce IntOp.andi x v reducesTo_S8x80x20x20_S_d0_1_2_3 h_S_) main_v46 main_c_17
  let main_v48 : IVec S_ 1 := andi main_v43 main_v47
  let main_v49 : FVec F S8x4x20x20 .f32 := Host.absf main_arg10
  let main_cst_18 : FVec F S_ .f32 := constant S_ .f32 0x7F800000#32
  let main_v50 : FVec F S8x4x20x20 .f32 := broadcastInDim S8x4x20x20 ![] bcast_S_S8x4x20x20 main_cst_18
  fn_part3 (F := F) main_arg11 main_arg12 main_arg13 main_arg14 main_v48 main_v49 main_v50

def fn_part1 {F : FTy → Type} [FloatOps F] (main_arg4 : FVec F S8x4x80x80 .f32) (main_arg5 : FVec F S8x1x80x80 .f32) (main_arg6 : FVec F S8x80x40x40 .f32) (main_arg7 : FVec F S8x4x40x40 .f32) (main_arg8 : FVec F S8x1x40x40 .f32) (main_arg9 : FVec F S8x80x20x20 .f32) (main_arg10 : FVec F S8x4x20x20 .f32) (main_arg11 : FVec F S8x1x20x20 .f32) (main_arg12 : FVec F S8x80x10x10 .f32) (main_arg13 : FVec F S8x4x10x10 .f32) (main_arg14 : FVec F S8x1x10x10 .f32) (main_v13 : IVec S_ 1) (main_v16 : IVec S8x80x80x80 1) : IVec S_ 1 :=
  let main_c_5 : IVec S_ 1 := constantI S_ 1 1#1
  let main_v17 : IVec S_ 1 := (fun x v => Host.reduce IntOp.andi x v reducesTo_S8x80x80x80_S_d0_1_2_3 h_S_) main_v16 main_c_5
  let main_v18 : IVec S_ 1 := andi main_v13 main_v17
  let main_v19 : FVec F S8x4x80x80 .f32 := Host.absf main_arg4
  let main_cst_6 : FVec F S_ .f32 := constant S_ .f32 0x7F800000#32
  let main_v20 : FVec F S8x4x80x80 .f32 := broadcastInDim S8x4x80x80 ![] bcast_S_S8x4x80x80 main_cst_6
  let main_v21 : IVec S8x4x80x80 1 := cmpf .olt main_v19 main_v20
  let main_c_7 : IVec S_ 1 := constantI S_ 1 1#1
  let main_v22 : IVec S_ 1 := (fun x v => Host.reduce IntOp.andi x v reducesTo_S8x4x80x80_S_d0_1_2_3 h_S_) main_v21 main_c_7
  let main_v23 : IVec S_ 1 := andi main_v18 main_v22
  let main_v24 : FVec F S8x1x80x80 .f32 := Host.absf main_arg5
  let main_cst_8 : FVec F S_ .f32 := constant S_ .f32 0x7F800000#32
  let main_v25 : FVec F S8x1x80x80 .f32 := broadcastInDim S8x1x80x80 ![] bcast_S_S8x1x80x80 main_cst_8
  let main_v26 : IVec S8x1x80x80 1 := cmpf .olt main_v24 main_v25
  let main_c_9 : IVec S_ 1 := constantI S_ 1 1#1
  let main_v27 : IVec S_ 1 := (fun x v => Host.reduce IntOp.andi x v reducesTo_S8x1x80x80_S_d0_1_2_3 h_S_) main_v26 main_c_9
  let main_v28 : IVec S_ 1 := andi main_v23 main_v27
  let main_v29 : FVec F S8x80x40x40 .f32 := Host.absf main_arg6
  let main_cst_10 : FVec F S_ .f32 := constant S_ .f32 0x7F800000#32
  let main_v30 : FVec F S8x80x40x40 .f32 := broadcastInDim S8x80x40x40 ![] bcast_S_S8x80x40x40 main_cst_10
  let main_v31 : IVec S8x80x40x40 1 := cmpf .olt main_v29 main_v30
  let main_c_11 : IVec S_ 1 := constantI S_ 1 1#1
  let main_v32 : IVec S_ 1 := (fun x v => Host.reduce IntOp.andi x v reducesTo_S8x80x40x40_S_d0_1_2_3 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8x80x160x160 .f32) (main_arg1 : FVec F S8x4x160x160 .f32) (main_arg2 : FVec F S8x1x160x160 .f32) (main_arg3 : FVec F S8x80x80x80 .f32) (main_arg4 : FVec F S8x4x80x80 .f32) (main_arg5 : FVec F S8x1x80x80 .f32) (main_arg6 : FVec F S8x80x40x40 .f32) (main_arg7 : FVec F S8x4x40x40 .f32) (main_arg8 : FVec F S8x1x40x40 .f32) (main_arg9 : FVec F S8x80x20x20 .f32) (main_arg10 : FVec F S8x4x20x20 .f32) (main_arg11 : FVec F S8x1x20x20 .f32) (main_arg12 : FVec F S8x80x10x10 .f32) (main_arg13 : FVec F S8x4x10x10 .f32) (main_arg14 : FVec F S8x1x10x10 .f32) : IVec S_ 1 :=
  let main_v0 : FVec F S8x80x160x160 .f32 := Host.absf main_arg0
  let main_cst : FVec F S_ .f32 := constant S_ .f32 0x7F800000#32
  let main_v1 : FVec F S8x80x160x160 .f32 := broadcastInDim S8x80x160x160 ![] bcast_S_S8x80x160x160 main_cst
  let main_v2 : IVec S8x80x160x160 1 := cmpf .olt main_v0 main_v1
  let main_c : IVec S_ 1 := constantI S_ 1 1#1
  let main_v3 : IVec S_ 1 := (fun x v => Host.reduce IntOp.andi x v reducesTo_S8x80x160x160_S_d0_1_2_3 h_S_) main_v2 main_c
  let main_v4 : FVec F S8x4x160x160 .f32 := Host.absf main_arg1
  let main_cst_0 : FVec F S_ .f32 := constant S_ .f32 0x7F800000#32
  let main_v5 : FVec F S8x4x160x160 .f32 := broadcastInDim S8x4x160x160 ![] bcast_S_S8x4x160x160 main_cst_0
  let main_v6 : IVec S8x4x160x160 1 := cmpf .olt main_v4 main_v5
  let main_c_1 : IVec S_ 1 := constantI S_ 1 1#1
  let main_v7 : IVec S_ 1 := (fun x v => Host.reduce IntOp.andi x v reducesTo_S8x4x160x160_S_d0_1_2_3 h_S_) main_v6 main_c_1
  let main_v8 : IVec S_ 1 := andi main_v3 main_v7
  let main_v9 : FVec F S8x1x160x160 .f32 := Host.absf main_arg2
  let main_cst_2 : FVec F S_ .f32 := constant S_ .f32 0x7F800000#32
  let main_v10 : FVec F S8x1x160x160 .f32 := broadcastInDim S8x1x160x160 ![] bcast_S_S8x1x160x160 main_cst_2
  let main_v11 : IVec S8x1x160x160 1 := cmpf .olt main_v9 main_v10
  let main_c_3 : IVec S_ 1 := constantI S_ 1 1#1
  let main_v12 : IVec S_ 1 := (fun x v => Host.reduce IntOp.andi x v reducesTo_S8x1x160x160_S_d0_1_2_3 h_S_) main_v11 main_c_3
  let main_v13 : IVec S_ 1 := andi main_v8 main_v12
  let main_v14 : FVec F S8x80x80x80 .f32 := Host.absf main_arg3
  let main_cst_4 : FVec F S_ .f32 := constant S_ .f32 0x7F800000#32
  let main_v15 : FVec F S8x80x80x80 .f32 := broadcastInDim S8x80x80x80 ![] bcast_S_S8x80x80x80 main_cst_4
  let main_v16 : IVec S8x80x80x80 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8x80x160x160 : Shape := ⟨4, ![8, 80, 160, 160]⟩
abbrev S8x4x160x160 : Shape := ⟨4, ![8, 4, 160, 160]⟩
abbrev S8x1x160x160 : Shape := ⟨4, ![8, 1, 160, 160]⟩
abbrev S8x80x80x80 : Shape := ⟨4, ![8, 80, 80, 80]⟩
abbrev S8x4x80x80 : Shape := ⟨4, ![8, 4, 80, 80]⟩
abbrev S8x1x80x80 : Shape := ⟨4, ![8, 1, 80, 80]⟩
abbrev S8x80x40x40 : Shape := ⟨4, ![8, 80, 40, 40]⟩
abbrev S8x4x40x40 : Shape := ⟨4, ![8, 4, 40, 40]⟩
abbrev S8x1x40x40 : Shape := ⟨4, ![8, 1, 40, 40]⟩
abbrev S8x80x20x20 : Shape := ⟨4, ![8, 80, 20, 20]⟩
abbrev S8x4x20x20 : Shape := ⟨4, ![8, 4, 20, 20]⟩
abbrev S8x1x20x20 : Shape := ⟨4, ![8, 1, 20, 20]⟩
abbrev S8x80x10x10 : Shape := ⟨4, ![8, 80, 10, 10]⟩
abbrev S8x4x10x10 : Shape := ⟨4, ![8, 4, 10, 10]⟩
abbrev S8x1x10x10 : Shape := ⟨4, ![8, 1, 10, 10]⟩
abbrev S8x25600x87 : Shape := ⟨3, ![8, 25600, 87]⟩
abbrev S1x80x160x160 : Shape := ⟨4, ![1, 80, 160, 160]⟩
abbrev S1x4x160x160 : Shape := ⟨4, ![1, 4, 160, 160]⟩
abbrev S1x1x160x160 : Shape := ⟨4, ![1, 1, 160, 160]⟩
abbrev S1x25600x87 : Shape := ⟨3, ![1, 25600, 87]⟩
abbrev S80x160x160 : Shape := ⟨3, ![80, 160, 160]⟩
abbrev S4x160x160 : Shape := ⟨3, ![4, 160, 160]⟩
abbrev S1x160x160 : Shape := ⟨3, ![1, 160, 160]⟩
abbrev S160x160x80 : Shape := ⟨3, ![160, 160, 80]⟩
abbrev S25600x80 : Shape := ⟨2, ![25600, 80]⟩
abbrev S160x160x4 : Shape := ⟨3, ![160, 160, 4]⟩
abbrev S25600x4 : Shape := ⟨2, ![25600, 4]⟩
abbrev S160x160x1 : Shape := ⟨3, ![160, 160, 1]⟩
abbrev S25600x1 : Shape := ⟨2, ![25600, 1]⟩
abbrev S25600 : Shape := ⟨1, ![25600]⟩
abbrev S160x160 : Shape := ⟨2, ![160, 160]⟩
abbrev S2x160x160 : Shape := ⟨3, ![2, 160, 160]⟩
abbrev S160x160x2 : Shape := ⟨3, ![160, 160, 2]⟩
abbrev S25600x2 : Shape := ⟨2, ![25600, 2]⟩
abbrev S25600x87 : Shape := ⟨2, ![25600, 87]⟩
abbrev S8x6400x87 : Shape := ⟨3, ![8, 6400, 87]⟩
abbrev S1x80x80x80 : Shape := ⟨4, ![1, 80, 80, 80]⟩
abbrev S1x4x80x80 : Shape := ⟨4, ![1, 4, 80, 80]⟩
abbrev S1x1x80x80 : Shape := ⟨4, ![1, 1, 80, 80]⟩
abbrev S1x6400x87 : Shape := ⟨3, ![1, 6400, 87]⟩
abbrev S80x80x80 : Shape := ⟨3, ![80, 80, 80]⟩
abbrev S4x80x80 : Shape := ⟨3, ![4, 80, 80]⟩
abbrev S1x80x80 : Shape := ⟨3, ![1, 80, 80]⟩
abbrev S6400x80 : Shape := ⟨2, ![6400, 80]⟩
abbrev S80x80x4 : Shape := ⟨3, ![80, 80, 4]⟩
abbrev S6400x4 : Shape := ⟨2, ![6400, 4]⟩
abbrev S80x80x1 : Shape := ⟨3, ![80, 80, 1]⟩
abbrev S6400x1 : Shape := ⟨2, ![6400, 1]⟩
abbrev S6400 : Shape := ⟨1, ![6400]⟩
abbrev S80x80 : Shape := ⟨2, ![80, 80]⟩
abbrev S2x80x80 : Shape := ⟨3, ![2, 80, 80]⟩
abbrev S80x80x2 : Shape := ⟨3, ![80, 80, 2]⟩
abbrev S6400x2 : Shape := ⟨2, ![6400, 2]⟩
abbrev S6400x87 : Shape := ⟨2, ![6400, 87]⟩
abbrev S8x1600x87 : Shape := ⟨3, ![8, 1600, 87]⟩
abbrev S1x80x40x40 : Shape := ⟨4, ![1, 80, 40, 40]⟩
abbrev S1x4x40x40 : Shape := ⟨4, ![1, 4, 40, 40]⟩
abbrev S1x1x40x40 : Shape := ⟨4, ![1, 1, 40, 40]⟩
abbrev S1x1600x87 : Shape := ⟨3, ![1, 1600, 87]⟩
abbrev S80x40x40 : Shape := ⟨3, ![80, 40, 40]⟩
abbrev S4x40x40 : Shape := ⟨3, ![4, 40, 40]⟩
abbrev S1x40x40 : Shape := ⟨3, ![1, 40, 40]⟩
abbrev S40x40x80 : Shape := ⟨3, ![40, 40, 80]⟩
abbrev S1600x80 : Shape := ⟨2, ![1600, 80]⟩
abbrev S40x40x4 : Shape := ⟨3, ![40, 40, 4]⟩
abbrev S1600x4 : Shape := ⟨2, ![1600, 4]⟩
abbrev S40x40x1 : Shape := ⟨3, ![40, 40, 1]⟩
abbrev S1600x1 : Shape := ⟨2, ![1600, 1]⟩
abbrev S1600 : Shape := ⟨1, ![1600]⟩
abbrev S40x40 : Shape := ⟨2, ![40, 40]⟩
abbrev S2x40x40 : Shape := ⟨3, ![2, 40, 40]⟩
abbrev S40x40x2 : Shape := ⟨3, ![40, 40, 2]⟩
abbrev S1600x2 : Shape := ⟨2, ![1600, 2]⟩
abbrev S1600x87 : Shape := ⟨2, ![1600, 87]⟩
abbrev S8x400x87 : Shape := ⟨3, ![8, 400, 87]⟩
abbrev S1x80x20x20 : Shape := ⟨4, ![1, 80, 20, 20]⟩
abbrev S1x4x20x20 : Shape := ⟨4, ![1, 4, 20, 20]⟩
abbrev S1x1x20x20 : Shape := ⟨4, ![1, 1, 20, 20]⟩
abbrev S1x400x87 : Shape := ⟨3, ![1, 400, 87]⟩
abbrev S80x20x20 : Shape := ⟨3, ![80, 20, 20]⟩
abbrev S4x20x20 : Shape := ⟨3, ![4, 20, 20]⟩
abbrev S1x20x20 : Shape := ⟨3, ![1, 20, 20]⟩
abbrev S20x20x80 : Shape := ⟨3, ![20, 20, 80]⟩
abbrev S400x80 : Shape := ⟨2, ![400, 80]⟩
abbrev S20x20x4 : Shape := ⟨3, ![20, 20, 4]⟩
abbrev S400x4 : Shape := ⟨2, ![400, 4]⟩
abbrev S20x20x1 : Shape := ⟨3, ![20, 20, 1]⟩
abbrev S400x1 : Shape := ⟨2, ![400, 1]⟩
abbrev S400 : Shape := ⟨1, ![400]⟩
abbrev S20x20 : Shape := ⟨2, ![20, 20]⟩
abbrev S2x20x20 : Shape := ⟨3, ![2, 20, 20]⟩
abbrev S20x20x2 : Shape := ⟨3, ![20, 20, 2]⟩
abbrev S400x2 : Shape := ⟨2, ![400, 2]⟩
abbrev S400x87 : Shape := ⟨2, ![400, 87]⟩
abbrev S8x100x87 : Shape := ⟨3, ![8, 100, 87]⟩
abbrev S1x80x10x10 : Shape := ⟨4, ![1, 80, 10, 10]⟩
abbrev S1x4x10x10 : Shape := ⟨4, ![1, 4, 10, 10]⟩
abbrev S1x1x10x10 : Shape := ⟨4, ![1, 1, 10, 10]⟩
abbrev S1x100x87 : Shape := ⟨3, ![1, 100, 87]⟩
abbrev S80x10x10 : Shape := ⟨3, ![80, 10, 10]⟩
abbrev S4x10x10 : Shape := ⟨3, ![4, 10, 10]⟩
abbrev S1x10x10 : Shape := ⟨3, ![1, 10, 10]⟩
abbrev S10x10x80 : Shape := ⟨3, ![10, 10, 80]⟩
abbrev S100x80 : Shape := ⟨2, ![100, 80]⟩
abbrev S10x10x4 : Shape := ⟨3, ![10, 10, 4]⟩
abbrev S100x4 : Shape := ⟨2, ![100, 4]⟩
abbrev S10x10x1 : Shape := ⟨3, ![10, 10, 1]⟩
abbrev S100x1 : Shape := ⟨2, ![100, 1]⟩
abbrev S100 : Shape := ⟨1, ![100]⟩
abbrev S10x10 : Shape := ⟨2, ![10, 10]⟩
abbrev S2x10x10 : Shape := ⟨3, ![2, 10, 10]⟩
abbrev S10x10x2 : Shape := ⟨3, ![10, 10, 2]⟩
abbrev S100x2 : Shape := ⟨2, ![100, 2]⟩
abbrev S100x87 : Shape := ⟨2, ![100, 87]⟩

abbrev nBuf : Space → Nat
  | .hbm => 20
  | .vmem => 40
  | .smem => 0
  | _ => 0

abbrev bufTy : (tb : Table) → Fin (tcTables nBuf tb) → BufTy
  | .hbm, ⟨0, _⟩ => ⟨S8x80x160x160, .f32⟩
  | .hbm, ⟨1, _⟩ => ⟨S8x4x160x160, .f32⟩
  | .hbm, ⟨2, _⟩ => ⟨S8x1x160x160, .f32⟩
  | .hbm, ⟨3, _⟩ => ⟨S8x80x80x80, .f32⟩
  | .hbm, ⟨4, _⟩ => ⟨S8x4x80x80, .f32⟩
  | .hbm, ⟨5, _⟩ => ⟨S8x1x80x80, .f32⟩
  | .hbm, ⟨6, _⟩ => ⟨S8x80x40x40, .f32⟩
  | .hbm, ⟨7, _⟩ => ⟨S8x4x40x40, .f32⟩
  | .hbm, ⟨8, _⟩ => ⟨S8x1x40x40, .f32⟩
  | .hbm, ⟨9, _⟩ => ⟨S8x80x20x20, .f32⟩
  | .hbm, ⟨10, _⟩ => ⟨S8x4x20x20, .f32⟩
  | .hbm, ⟨11, _⟩ => ⟨S8x1x20x20, .f32⟩
  | .hbm, ⟨12, _⟩ => ⟨S8x80x10x10, .f32⟩
  | .hbm, ⟨13, _⟩ => ⟨S8x4x10x10, .f32⟩
  | .hbm, ⟨14, _⟩ => ⟨S8x1x10x10, .f32⟩
  | .hbm, ⟨15, _⟩ => ⟨S8x25600x87, .f32⟩
  | .hbm, ⟨16, _⟩ => ⟨S8x6400x87, .f32⟩
  | .hbm, ⟨17, _⟩ => ⟨S8x1600x87, .f32⟩
  | .hbm, ⟨18, _⟩ => ⟨S8x400x87, .f32⟩
  | .hbm, ⟨19, _⟩ => ⟨S8x100x87, .f32⟩
  | .local _ .vmem, ⟨0, _⟩ => ⟨S1x80x160x160, .f32⟩
  | .local _ .vmem, ⟨1, _⟩ => ⟨S1x80x160x160, .f32⟩
  | .local _ .vmem, ⟨2, _⟩ => ⟨S1x4x160x160, .f32⟩
  | .local _ .vmem, ⟨3, _⟩ => ⟨S1x4x160x160, .f32⟩
  | .local _ .vmem, ⟨4, _⟩ => ⟨S1x1x160x160, .f32⟩
  | .local _ .vmem, ⟨5, _⟩ => ⟨S1x1x160x160, .f32⟩
  | .local _ .vmem, ⟨6, _⟩ => ⟨S1x25600x87, .f32⟩
  | .local _ .vmem, ⟨7, _⟩ => ⟨S1x25600x87, .f32⟩
  | .local _ .vmem, ⟨8, _⟩ => ⟨S1x80x80x80, .f32⟩
  | .local _ .vmem, ⟨9, _⟩ => ⟨S1x80x80x80, .f32⟩
  | .local _ .vmem, ⟨10, _⟩ => ⟨S1x4x80x80, .f32⟩
  | .local _ .vmem, ⟨11, _⟩ => ⟨S1x4x80x80, .f32⟩
  | .local _ .vmem, ⟨12, _⟩ => ⟨S1x1x80x80, .f32⟩
  | .local _ .vmem, ⟨13, _⟩ => ⟨S1x1x80x80, .f32⟩
  | .local _ .vmem, ⟨14, _⟩ => ⟨S1x6400x87, .f32⟩
  | .local _ .vmem, ⟨15, _⟩ => ⟨S1x6400x87, .f32⟩
  | .local _ .vmem, ⟨16, _⟩ => ⟨S1x80x40x40, .f32⟩
  | .local _ .vmem, ⟨17, _⟩ => ⟨S1x80x40x40, .f32⟩
  | .local _ .vmem, ⟨18, _⟩ => ⟨S1x4x40x40, .f32⟩
  | .local _ .vmem, ⟨19, _⟩ => ⟨S1x4x40x40, .f32⟩
  | .local _ .vmem, ⟨20, _⟩ => ⟨S1x1x40x40, .f32⟩
  | .local _ .vmem, ⟨21, _⟩ => ⟨S1x1x40x40, .f32⟩
  | .local _ .vmem, ⟨22, _⟩ => ⟨S1x1600x87, .f32⟩
  | .local _ .vmem, ⟨23, _⟩ => ⟨S1x1600x87, .f32⟩
  | .local _ .vmem, ⟨24, _⟩ => ⟨S1x80x20x20, .f32⟩
  | .local _ .vmem, ⟨25, _⟩ => ⟨S1x80x20x20, .f32⟩
  | .local _ .vmem, ⟨26, _⟩ => ⟨S1x4x20x20, .f32⟩
  | .local _ .vmem, ⟨27, _⟩ => ⟨S1x4x20x20, .f32⟩
  | .local _ .vmem, ⟨28, _⟩ => ⟨S1x1x20x20, .f32⟩
  | .local _ .vmem, ⟨29, _⟩ => ⟨S1x1x20x20, .f32⟩
  | .local _ .vmem, ⟨30, _⟩ => ⟨S1x400x87, .f32⟩
  | .local _ .vmem, ⟨31, _⟩ => ⟨S1x400x87, .f32⟩
  | .local _ .vmem, ⟨32, _⟩ => ⟨S1x80x10x10, .f32⟩
  | .local _ .vmem, ⟨33, _⟩ => ⟨S1x80x10x10, .f32⟩
  | .local _ .vmem, ⟨34, _⟩ => ⟨S1x4x10x10, .f32⟩
  | .local _ .vmem, ⟨35, _⟩ => ⟨S1x4x10x10, .f32⟩
  | .local _ .vmem, ⟨36, _⟩ => ⟨S1x1x10x10, .f32⟩
  | .local _ .vmem, ⟨37, _⟩ => ⟨S1x1x10x10, .f32⟩
  | .local _ .vmem, ⟨38, _⟩ => ⟨S1x100x87, .f32⟩
  | .local _ .vmem, ⟨39, _⟩ => ⟨S1x100x87, .f32⟩
  | _, _ => ⟨S8x80x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x160x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x160x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x160x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x25600x87 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x80x80x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x80x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x80x80 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x6400x87 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x80x40x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x4x40x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x40x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1600x87 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x80x20x20 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x4x20x20 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x20x20 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x400x87 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_2 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x80x10x10 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x4x10x10 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1x10x10 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x100x87 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S1x80x160x160_S1x80x160x160_0_0_0_0 : ∀ a, (![0, 0, 0, 0] : Fin 4 → Nat) a + S1x80x160x160.size a ≤ S1x80x160x160.size a
  h_S1x80x160x160 : 0 < S1x80x160x160.numel
  shapeCasts_S1x80x160x160_S80x160x160 : S1x80x160x160.ShapeCasts S80x160x160
  inb_S1x4x160x160_S1x4x160x160_0_0_0_0 : ∀ a, (![0, 0, 0, 0] : Fin 4 → Nat) a + S1x4x160x160.size a ≤ S1x4x160x160.size a
  h_S1x4x160x160 : 0 < S1x4x160x160.numel
  shapeCasts_S1x4x160x160_S4x160x160 : S1x4x160x160.ShapeCasts S4x160x160
  inb_S1x1x160x160_S1x1x160x160_0_0_0_0 : ∀ a, (![0, 0, 0, 0] : Fin 4 → Nat) a + S1x1x160x160.size a ≤ S1x1x160x160.size a
  h_S1x1x160x160 : 0 < S1x1x160x160.numel
  shapeCasts_S1x1x160x160_S1x160x160 : S1x1x160x160.ShapeCasts S1x160x160
  transposes_S80x160x160_p1_2_0_S160x160x80 : S80x160x160.Transposes [1, 2, 0] S160x160x80
  shapeCasts_S160x160x80_S25600x80 : S160x160x80.ShapeCasts S25600x80
  transposes_S4x160x160_p1_2_0_S160x160x4 : S4x160x160.Transposes [1, 2, 0] S160x160x4
  shapeCasts_S160x160x4_S25600x4 : S160x160x4.ShapeCasts S25600x4
  transposes_S1x160x160_p1_2_0_S160x160x1 : S1x160x160.Transposes [1, 2, 0] S160x160x1
  shapeCasts_S160x160x1_S25600x1 : S160x160x1.ShapeCasts S25600x1
  reduces_S25600x80_S25600 : S25600x80.Reduces [1] S25600
  shapeCasts_S25600_S25600x1 : S25600.ShapeCasts S25600x1
  natLt_1_32 : 1 < 32
  iota_S160x160_d0_w32 : S160x160.Iotas .tc 32 [0]
  iota_S160x160_d1_w32 : S160x160.Iotas .tc 32 [1]
  shapeCasts_S160x160_S1x160x160 : S160x160.ShapeCasts S1x160x160
  concatenates_S1x160x160_S1x160x160_S2x160x160_d0 : Shape.Concatenates [S1x160x160, S1x160x160] S2x160x160 0
  transposes_S2x160x160_p1_2_0_S160x160x2 : S2x160x160.Transposes [1, 2, 0] S160x160x2
  shapeCasts_S160x160x2_S25600x2 : S160x160x2.ShapeCasts S25600x2
  broadcasts_S25600x1_S25600x2 : S25600x1.Broadcasts S25600x2
  broadcasts_S25600x1_S25600x80 : S25600x1.Broadcasts S25600x80
  broadcasts_S25600x1_S25600x4 : S25600x1.Broadcasts S25600x4
  concatenates_S25600x2_S25600x80_S25600x4_S25600x1_S25600x87_d1 : Shape.Concatenates [S25600x2, S25600x80, S25600x4, S25600x1] S25600x87 1
  inb_S1x25600x87_S1x25600x87_0_0_0 : ∀ a, (![0, 0, 0] : Fin 3 → Nat) a + S1x25600x87.size a ≤ S1x25600x87.size a
  h_S1x25600x87 : 0 < S1x25600x87.numel
  shapeCasts_S1x25600x87_S25600x87 : S1x25600x87.ShapeCasts S25600x87
  shapeCasts_S25600x87_S1x25600x87 : S25600x87.ShapeCasts S1x25600x87
  inb_S1x80x80x80_S1x80x80x80_0_0_0_0 : ∀ a, (![0, 0, 0, 0] : Fin 4 → Nat) a + S1x80x80x80.size a ≤ S1x80x80x80.size a
  h_S1x80x80x80 : 0 < S1x80x80x80.numel
  shapeCasts_S1x80x80x80_S80x80x80 : S1x80x80x80.ShapeCasts S80x80x80
  inb_S1x4x80x80_S1x4x80x80_0_0_0_0 : ∀ a, (![0, 0, 0, 0] : Fin 4 → Nat) a + S1x4x80x80.size a ≤ S1x4x80x80.size a
  h_S1x4x80x80 : 0 < S1x4x80x80.numel
  shapeCasts_S1x4x80x80_S4x80x80 : S1x4x80x80.ShapeCasts S4x80x80
  inb_S1x1x80x80_S1x1x80x80_0_0_0_0 : ∀ a, (![0, 0, 0, 0] : Fin 4 → Nat) a + S1x1x80x80.size a ≤ S1x1x80x80.size a
  h_S1x1x80x80 : 0 < S1x1x80x80.numel
  shapeCasts_S1x1x80x80_S1x80x80 : S1x1x80x80.ShapeCasts S1x80x80
  transposes_S80x80x80_p1_2_0_S80x80x80 : S80x80x80.Transposes [1, 2, 0] S80x80x80
  shapeCasts_S80x80x80_S6400x80 : S80x80x80.ShapeCasts S6400x80
  transposes_S4x80x80_p1_2_0_S80x80x4 : S4x80x80.Transposes [1, 2, 0] S80x80x4
  shapeCasts_S80x80x4_S6400x4 : S80x80x4.ShapeCasts S6400x4
  transposes_S1x80x80_p1_2_0_S80x80x1 : S1x80x80.Transposes [1, 2, 0] S80x80x1
  shapeCasts_S80x80x1_S6400x1 : S80x80x1.ShapeCasts S6400x1
  reduces_S6400x80_S6400 : S6400x80.Reduces [1] S6400
  shapeCasts_S6400_S6400x1 : S6400.ShapeCasts S6400x1
  iota_S80x80_d0_w32 : S80x80.Iotas .tc 32 [0]
  iota_S80x80_d1_w32 : S80x80.Iotas .tc 32 [1]
  shapeCasts_S80x80_S1x80x80 : S80x80.ShapeCasts S1x80x80
  concatenates_S1x80x80_S1x80x80_S2x80x80_d0 : Shape.Concatenates [S1x80x80, S1x80x80] S2x80x80 0
  transposes_S2x80x80_p1_2_0_S80x80x2 : S2x80x80.Transposes [1, 2, 0] S80x80x2
  shapeCasts_S80x80x2_S6400x2 : S80x80x2.ShapeCasts S6400x2
  broadcasts_S6400x1_S6400x2 : S6400x1.Broadcasts S6400x2
  broadcasts_S6400x1_S6400x80 : S6400x1.Broadcasts S6400x80
  broadcasts_S6400x1_S6400x4 : S6400x1.Broadcasts S6400x4
  concatenates_S6400x2_S6400x80_S6400x4_S6400x1_S6400x87_d1 : Shape.Concatenates [S6400x2, S6400x80, S6400x4, S6400x1] S6400x87 1
  inb_S1x6400x87_S1x6400x87_0_0_0 : ∀ a, (![0, 0, 0] : Fin 3 → Nat) a + S1x6400x87.size a ≤ S1x6400x87.size a
  h_S1x6400x87 : 0 < S1x6400x87.numel
  shapeCasts_S1x6400x87_S6400x87 : S1x6400x87.ShapeCasts S6400x87
  shapeCasts_S6400x87_S1x6400x87 : S6400x87.ShapeCasts S1x6400x87
  inb_S1x80x40x40_S1x80x40x40_0_0_0_0 : ∀ a, (![0, 0, 0, 0] : Fin 4 → Nat) a + S1x80x40x40.size a ≤ S1x80x40x40.size a
  h_S1x80x40x40 : 0 < S1x80x40x40.numel
  shapeCasts_S1x80x40x40_S80x40x40 : S1x80x40x40.ShapeCasts S80x40x40
  inb_S1x4x40x40_S1x4x40x40_0_0_0_0 : ∀ a, (![0, 0, 0, 0] : Fin 4 → Nat) a + S1x4x40x40.size a ≤ S1x4x40x40.size a
  h_S1x4x40x40 : 0 < S1x4x40x40.numel
  shapeCasts_S1x4x40x40_S4x40x40 : S1x4x40x40.ShapeCasts S4x40x40
  inb_S1x1x40x40_S1x1x40x40_0_0_0_0 : ∀ a, (![0, 0, 0, 0] : Fin 4 → Nat) a + S1x1x40x40.size a ≤ S1x1x40x40.size a
  h_S1x1x40x40 : 0 < S1x1x40x40.numel
  shapeCasts_S1x1x40x40_S1x40x40 : S1x1x40x40.ShapeCasts S1x40x40
  transposes_S80x40x40_p1_2_0_S40x40x80 : S80x40x40.Transposes [1, 2, 0] S40x40x80
  shapeCasts_S40x40x80_S1600x80 : S40x40x80.ShapeCasts S1600x80
  transposes_S4x40x40_p1_2_0_S40x40x4 : S4x40x40.Transposes [1, 2, 0] S40x40x4
  shapeCasts_S40x40x4_S1600x4 : S40x40x4.ShapeCasts S1600x4
  transposes_S1x40x40_p1_2_0_S40x40x1 : S1x40x40.Transposes [1, 2, 0] S40x40x1
  shapeCasts_S40x40x1_S1600x1 : S40x40x1.ShapeCasts S1600x1
  reduces_S1600x80_S1600 : S1600x80.Reduces [1] S1600
  shapeCasts_S1600_S1600x1 : S1600.ShapeCasts S1600x1
  iota_S40x40_d0_w32 : S40x40.Iotas .tc 32 [0]
  iota_S40x40_d1_w32 : S40x40.Iotas .tc 32 [1]
  shapeCasts_S40x40_S1x40x40 : S40x40.ShapeCasts S1x40x40
  concatenates_S1x40x40_S1x40x40_S2x40x40_d0 : Shape.Concatenates [S1x40x40, S1x40x40] S2x40x40 0
  transposes_S2x40x40_p1_2_0_S40x40x2 : S2x40x40.Transposes [1, 2, 0] S40x40x2
  shapeCasts_S40x40x2_S1600x2 : S40x40x2.ShapeCasts S1600x2
  broadcasts_S1600x1_S1600x2 : S1600x1.Broadcasts S1600x2
  broadcasts_S1600x1_S1600x80 : S1600x1.Broadcasts S1600x80
  broadcasts_S1600x1_S1600x4 : S1600x1.Broadcasts S1600x4
  concatenates_S1600x2_S1600x80_S1600x4_S1600x1_S1600x87_d1 : Shape.Concatenates [S1600x2, S1600x80, S1600x4, S1600x1] S1600x87 1
  inb_S1x1600x87_S1x1600x87_0_0_0 : ∀ a, (![0, 0, 0] : Fin 3 → Nat) a + S1x1600x87.size a ≤ S1x1600x87.size a
  h_S1x1600x87 : 0 < S1x1600x87.numel
  shapeCasts_S1x1600x87_S1600x87 : S1x1600x87.ShapeCasts S1600x87
  shapeCasts_S1600x87_S1x1600x87 : S1600x87.ShapeCasts S1x1600x87
  inb_S1x80x20x20_S1x80x20x20_0_0_0_0 : ∀ a, (![0, 0, 0, 0] : Fin 4 → Nat) a + S1x80x20x20.size a ≤ S1x80x20x20.size a
  h_S1x80x20x20 : 0 < S1x80x20x20.numel
  shapeCasts_S1x80x20x20_S80x20x20 : S1x80x20x20.ShapeCasts S80x20x20
  inb_S1x4x20x20_S1x4x20x20_0_0_0_0 : ∀ a, (![0, 0, 0, 0] : Fin 4 → Nat) a + S1x4x20x20.size a ≤ S1x4x20x20.size a
  h_S1x4x20x20 : 0 < S1x4x20x20.numel
  shapeCasts_S1x4x20x20_S4x20x20 : S1x4x20x20.ShapeCasts S4x20x20
  inb_S1x1x20x20_S1x1x20x20_0_0_0_0 : ∀ a, (![0, 0, 0, 0] : Fin 4 → Nat) a + S1x1x20x20.size a ≤ S1x1x20x20.size a
  h_S1x1x20x20 : 0 < S1x1x20x20.numel
  shapeCasts_S1x1x20x20_S1x20x20 : S1x1x20x20.ShapeCasts S1x20x20
  transposes_S80x20x20_p1_2_0_S20x20x80 : S80x20x20.Transposes [1, 2, 0] S20x20x80
  shapeCasts_S20x20x80_S400x80 : S20x20x80.ShapeCasts S400x80
  transposes_S4x20x20_p1_2_0_S20x20x4 : S4x20x20.Transposes [1, 2, 0] S20x20x4
  shapeCasts_S20x20x4_S400x4 : S20x20x4.ShapeCasts S400x4
  transposes_S1x20x20_p1_2_0_S20x20x1 : S1x20x20.Transposes [1, 2, 0] S20x20x1
  shapeCasts_S20x20x1_S400x1 : S20x20x1.ShapeCasts S400x1
  reduces_S400x80_S400 : S400x80.Reduces [1] S400
  shapeCasts_S400_S400x1 : S400.ShapeCasts S400x1
  iota_S20x20_d0_w32 : S20x20.Iotas .tc 32 [0]
  iota_S20x20_d1_w32 : S20x20.Iotas .tc 32 [1]
  shapeCasts_S20x20_S1x20x20 : S20x20.ShapeCasts S1x20x20
  concatenates_S1x20x20_S1x20x20_S2x20x20_d0 : Shape.Concatenates [S1x20x20, S1x20x20] S2x20x20 0
  transposes_S2x20x20_p1_2_0_S20x20x2 : S2x20x20.Transposes [1, 2, 0] S20x20x2
  shapeCasts_S20x20x2_S400x2 : S20x20x2.ShapeCasts S400x2
  broadcasts_S400x1_S400x2 : S400x1.Broadcasts S400x2
  broadcasts_S400x1_S400x80 : S400x1.Broadcasts S400x80
  broadcasts_S400x1_S400x4 : S400x1.Broadcasts S400x4
  concatenates_S400x2_S400x80_S400x4_S400x1_S400x87_d1 : Shape.Concatenates [S400x2, S400x80, S400x4, S400x1] S400x87 1
  inb_S1x400x87_S1x400x87_0_0_0 : ∀ a, (![0, 0, 0] : Fin 3 → Nat) a + S1x400x87.size a ≤ S1x400x87.size a
  h_S1x400x87 : 0 < S1x400x87.numel
  shapeCasts_S1x400x87_S400x87 : S1x400x87.ShapeCasts S400x87
  shapeCasts_S400x87_S1x400x87 : S400x87.ShapeCasts S1x400x87
  inb_S1x80x10x10_S1x80x10x10_0_0_0_0 : ∀ a, (![0, 0, 0, 0] : Fin 4 → Nat) a + S1x80x10x10.size a ≤ S1x80x10x10.size a
  h_S1x80x10x10 : 0 < S1x80x10x10.numel
  shapeCasts_S1x80x10x10_S80x10x10 : S1x80x10x10.ShapeCasts S80x10x10
  inb_S1x4x10x10_S1x4x10x10_0_0_0_0 : ∀ a, (![0, 0, 0, 0] : Fin 4 → Nat) a + S1x4x10x10.size a ≤ S1x4x10x10.size a
  h_S1x4x10x10 : 0 < S1x4x10x10.numel
  shapeCasts_S1x4x10x10_S4x10x10 : S1x4x10x10.ShapeCasts S4x10x10
  inb_S1x1x10x10_S1x1x10x10_0_0_0_0 : ∀ a, (![0, 0, 0, 0] : Fin 4 → Nat) a + S1x1x10x10.size a ≤ S1x1x10x10.size a
  h_S1x1x10x10 : 0 < S1x1x10x10.numel
  shapeCasts_S1x1x10x10_S1x10x10 : S1x1x10x10.ShapeCasts S1x10x10
  transposes_S80x10x10_p1_2_0_S10x10x80 : S80x10x10.Transposes [1, 2, 0] S10x10x80
  shapeCasts_S10x10x80_S100x80 : S10x10x80.ShapeCasts S100x80
  transposes_S4x10x10_p1_2_0_S10x10x4 : S4x10x10.Transposes [1, 2, 0] S10x10x4
  shapeCasts_S10x10x4_S100x4 : S10x10x4.ShapeCasts S100x4
  transposes_S1x10x10_p1_2_0_S10x10x1 : S1x10x10.Transposes [1, 2, 0] S10x10x1
  shapeCasts_S10x10x1_S100x1 : S10x10x1.ShapeCasts S100x1
  reduces_S100x80_S100 : S100x80.Reduces [1] S100
  shapeCasts_S100_S100x1 : S100.ShapeCasts S100x1
  iota_S10x10_d0_w32 : S10x10.Iotas .tc 32 [0]
  iota_S10x10_d1_w32 : S10x10.Iotas .tc 32 [1]
  shapeCasts_S10x10_S1x10x10 : S10x10.ShapeCasts S1x10x10
  concatenates_S1x10x10_S1x10x10_S2x10x10_d0 : Shape.Concatenates [S1x10x10, S1x10x10] S2x10x10 0
  transposes_S2x10x10_p1_2_0_S10x10x2 : S2x10x10.Transposes [1, 2, 0] S10x10x2
  shapeCasts_S10x10x2_S100x2 : S10x10x2.ShapeCasts S100x2
  broadcasts_S100x1_S100x2 : S100x1.Broadcasts S100x2
  broadcasts_S100x1_S100x80 : S100x1.Broadcasts S100x80
  broadcasts_S100x1_S100x4 : S100x1.Broadcasts S100x4
  concatenates_S100x2_S100x80_S100x4_S100x1_S100x87_d1 : Shape.Concatenates [S100x2, S100x80, S100x4, S100x1] S100x87 1
  inb_S1x100x87_S1x100x87_0_0_0 : ∀ a, (![0, 0, 0] : Fin 3 → Nat) a + S1x100x87.size a ≤ S1x100x87.size a
  h_S1x100x87 : 0 < S1x100x87.numel
  shapeCasts_S1x100x87_S100x87 : S1x100x87.ShapeCasts S100x87
  shapeCasts_S100x87_S1x100x87 : S100x87.ShapeCasts S1x100x87
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x80x160x160.size a ≤ S8x80x160x160.size a
  hwx0_0 : ∀ i : grid0.Coords, EltTy.bits .f32 = 32 ∨ (Rect.block (s := S8x80x160x160) S1x80x160x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x160x160.size a ≤ S8x4x160x160.size a
  hwx0_1 : ∀ i : grid0.Coords, EltTy.bits .f32 = 32 ∨ (Rect.block (s := S8x4x160x160) S1x4x160x160.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x160x160.size a ≤ S8x1x160x160.size a
  hwx0_2 : ∀ i : grid0.Coords, EltTy.bits .f32 = 32 ∨ (Rect.block (s := S8x1x160x160) S1x1x160x160.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x25600x87.size a ≤ S8x25600x87.size a
  hwx0_3 : ∀ i : grid0.Coords, EltTy.bits .f32 = 32 ∨ (Rect.block (s := S8x25600x87) S1x25600x87.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x80x80x80.size a ≤ S8x80x80x80.size a
  hwx1_0 : ∀ i : grid1.Coords, EltTy.bits .f32 = 32 ∨ (Rect.block (s := S8x80x80x80) S1x80x80x80.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x80x80.size a ≤ S8x4x80x80.size a
  hwx1_1 : ∀ i : grid1.Coords, EltTy.bits .f32 = 32 ∨ (Rect.block (s := S8x4x80x80) S1x4x80x80.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x80x80.size a ≤ S8x1x80x80.size a
  hwx1_2 : ∀ i : grid1.Coords, EltTy.bits .f32 = 32 ∨ (Rect.block (s := S8x1x80x80) S1x1x80x80.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x6400x87.size a ≤ S8x6400x87.size a
  hwx1_3 : ∀ i : grid1.Coords, EltTy.bits .f32 = 32 ∨ (Rect.block (s := S8x6400x87) S1x6400x87.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x80x40x40.size a ≤ S8x80x40x40.size a
  hwx2_0 : ∀ i : grid2.Coords, EltTy.bits .f32 = 32 ∨ (Rect.block (s := S8x80x40x40) S1x80x40x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x4x40x40.size a ≤ S8x4x40x40.size a
  hwx2_1 : ∀ i : grid2.Coords, EltTy.bits .f32 = 32 ∨ (Rect.block (s := S8x4x40x40) S1x4x40x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x40x40.size a ≤ S8x1x40x40.size a
  hwx2_2 : ∀ i : grid2.Coords, EltTy.bits .f32 = 32 ∨ (Rect.block (s := S8x1x40x40) S1x1x40x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1600x87.size a ≤ S8x1600x87.size a
  hwx2_3 : ∀ i : grid2.Coords, EltTy.bits .f32 = 32 ∨ (Rect.block (s := S8x1600x87) S1x1600x87.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x80x20x20.size a ≤ S8x80x20x20.size a
  hwx3_0 : ∀ i : grid3.Coords, EltTy.bits .f32 = 32 ∨ (Rect.block (s := S8x80x20x20) S1x80x20x20.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x4x20x20.size a ≤ S8x4x20x20.size a
  hwx3_1 : ∀ i : grid3.Coords, EltTy.bits .f32 = 32 ∨ (Rect.block (s := S8x4x20x20) S1x4x20x20.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x20x20.size a ≤ S8x1x20x20.size a
  hwx3_2 : ∀ i : grid3.Coords, EltTy.bits .f32 = 32 ∨ (Rect.block (s := S8x1x20x20) S1x1x20x20.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x400x87.size a ≤ S8x400x87.size a
  hwx3_3 : ∀ i : grid3.Coords, EltTy.bits .f32 = 32 ∨ (Rect.block (s := S8x400x87) S1x400x87.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x80x10x10.size a ≤ S8x80x10x10.size a
  hwx4_0 : ∀ i : grid4.Coords, EltTy.bits .f32 = 32 ∨ (Rect.block (s := S8x80x10x10) S1x80x10x10.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x4x10x10.size a ≤ S8x4x10x10.size a
  hwx4_1 : ∀ i : grid4.Coords, EltTy.bits .f32 = 32 ∨ (Rect.block (s := S8x4x10x10) S1x4x10x10.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x10x10.size a ≤ S8x1x10x10.size a
  hwx4_2 : ∀ i : grid4.Coords, EltTy.bits .f32 = 32 ∨ (Rect.block (s := S8x1x10x10) S1x1x10x10.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x100x87.size a ≤ S8x100x87.size a
  hwx4_3 : ∀ i : grid4.Coords, EltTy.bits .f32 = 32 ∨ (Rect.block (s := S8x100x87) S1x100x87.size (cc4_transform_3 i) (hinb4_3 i)).WholeWords (EltTy.packing .f32)

variable [Facts₀]

abbrev win0_0 : Pipeline.Window sig grid0 :=
  Pipeline.Window.ofSpec (Memref.whole main_arg0) S1x80x160x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x160x160.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x160x160.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x25600x87.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg3) S1x80x80x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x4x80x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x1x80x80.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x6400x87.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg6) S1x80x40x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1x4x40x40.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1x1x40x40.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x1600x87.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg9) S1x80x20x20.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S1x4x20x20.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S1x1x20x20.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1x400x87.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg12) S1x80x10x10.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S1x4x10x10.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S1x1x10x10.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v4) S1x100x87.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S8x80x160x160 : Shape := ⟨4, ![8, 80, 160, 160]⟩
abbrev S8x4x160x160 : Shape := ⟨4, ![8, 4, 160, 160]⟩
abbrev S8x1x160x160 : Shape := ⟨4, ![8, 1, 160, 160]⟩
abbrev S8x80x80x80 : Shape := ⟨4, ![8, 80, 80, 80]⟩
abbrev S8x4x80x80 : Shape := ⟨4, ![8, 4, 80, 80]⟩
abbrev S8x1x80x80 : Shape := ⟨4, ![8, 1, 80, 80]⟩
abbrev S8x80x40x40 : Shape := ⟨4, ![8, 80, 40, 40]⟩
abbrev S8x4x40x40 : Shape := ⟨4, ![8, 4, 40, 40]⟩
abbrev S8x1x40x40 : Shape := ⟨4, ![8, 1, 40, 40]⟩
abbrev S8x80x20x20 : Shape := ⟨4, ![8, 80, 20, 20]⟩
abbrev S8x4x20x20 : Shape := ⟨4, ![8, 4, 20, 20]⟩
abbrev S8x1x20x20 : Shape := ⟨4, ![8, 1, 20, 20]⟩
abbrev S8x80x10x10 : Shape := ⟨4, ![8, 80, 10, 10]⟩
abbrev S8x4x10x10 : Shape := ⟨4, ![8, 4, 10, 10]⟩
abbrev S8x1x10x10 : Shape := ⟨4, ![8, 1, 10, 10]⟩
abbrev S8x160x160x80 : Shape := ⟨4, ![8, 160, 160, 80]⟩
abbrev S8x25600x80 : Shape := ⟨3, ![8, 25600, 80]⟩
abbrev S8x160x160x4 : Shape := ⟨4, ![8, 160, 160, 4]⟩
abbrev S8x25600x4 : Shape := ⟨3, ![8, 25600, 4]⟩
abbrev S8x160x160x1 : Shape := ⟨4, ![8, 160, 160, 1]⟩
abbrev S8x25600x1 : Shape := ⟨3, ![8, 25600, 1]⟩
abbrev S_ : Shape := ⟨0, ![]⟩
abbrev S8x25600 : Shape := ⟨2, ![8, 25600]⟩
abbrev S160 : Shape := ⟨1, ![160]⟩
abbrev S160x160 : Shape := ⟨2, ![160, 160]⟩
abbrev S160x160x1 : Shape := ⟨3, ![160, 160, 1]⟩
abbrev S160x160x2 : Shape := ⟨3, ![160, 160, 2]⟩
abbrev S25600x2 : Shape := ⟨2, ![25600, 2]⟩
abbrev S8x25600x2 : Shape := ⟨3, ![8, 25600, 2]⟩
abbrev S8x25600x87 : Shape := ⟨3, ![8, 25600, 87]⟩
abbrev S8x6400x80 : Shape := ⟨3, ![8, 6400, 80]⟩
abbrev S8x80x80x4 : Shape := ⟨4, ![8, 80, 80, 4]⟩
abbrev S8x6400x4 : Shape := ⟨3, ![8, 6400, 4]⟩
abbrev S8x80x80x1 : Shape := ⟨4, ![8, 80, 80, 1]⟩
abbrev S8x6400x1 : Shape := ⟨3, ![8, 6400, 1]⟩
abbrev S8x6400 : Shape := ⟨2, ![8, 6400]⟩
abbrev S80 : Shape := ⟨1, ![80]⟩
abbrev S80x80 : Shape := ⟨2, ![80, 80]⟩
abbrev S80x80x1 : Shape := ⟨3, ![80, 80, 1]⟩
abbrev S80x80x2 : Shape := ⟨3, ![80, 80, 2]⟩
abbrev S6400x2 : Shape := ⟨2, ![6400, 2]⟩
abbrev S8x6400x2 : Shape := ⟨3, ![8, 6400, 2]⟩
abbrev S8x6400x87 : Shape := ⟨3, ![8, 6400, 87]⟩
abbrev S8x40x40x80 : Shape := ⟨4, ![8, 40, 40, 80]⟩
abbrev S8x1600x80 : Shape := ⟨3, ![8, 1600, 80]⟩
abbrev S8x40x40x4 : Shape := ⟨4, ![8, 40, 40, 4]⟩
abbrev S8x1600x4 : Shape := ⟨3, ![8, 1600, 4]⟩
abbrev S8x40x40x1 : Shape := ⟨4, ![8, 40, 40, 1]⟩
abbrev S8x1600x1 : Shape := ⟨3, ![8, 1600, 1]⟩
abbrev S8x1600 : Shape := ⟨2, ![8, 1600]⟩
abbrev S40 : Shape := ⟨1, ![40]⟩
abbrev S40x40 : Shape := ⟨2, ![40, 40]⟩
abbrev S40x40x1 : Shape := ⟨3, ![40, 40, 1]⟩
abbrev S40x40x2 : Shape := ⟨3, ![40, 40, 2]⟩
abbrev S1600x2 : Shape := ⟨2, ![1600, 2]⟩
abbrev S8x1600x2 : Shape := ⟨3, ![8, 1600, 2]⟩
abbrev S8x1600x87 : Shape := ⟨3, ![8, 1600, 87]⟩
abbrev S8x20x20x80 : Shape := ⟨4, ![8, 20, 20, 80]⟩
abbrev S8x400x80 : Shape := ⟨3, ![8, 400, 80]⟩
abbrev S8x20x20x4 : Shape := ⟨4, ![8, 20, 20, 4]⟩
abbrev S8x400x4 : Shape := ⟨3, ![8, 400, 4]⟩
abbrev S8x20x20x1 : Shape := ⟨4, ![8, 20, 20, 1]⟩
abbrev S8x400x1 : Shape := ⟨3, ![8, 400, 1]⟩
abbrev S8x400 : Shape := ⟨2, ![8, 400]⟩
abbrev S20 : Shape := ⟨1, ![20]⟩
abbrev S20x20 : Shape := ⟨2, ![20, 20]⟩
abbrev S20x20x1 : Shape := ⟨3, ![20, 20, 1]⟩
abbrev S20x20x2 : Shape := ⟨3, ![20, 20, 2]⟩
abbrev S400x2 : Shape := ⟨2, ![400, 2]⟩
abbrev S8x400x2 : Shape := ⟨3, ![8, 400, 2]⟩
abbrev S8x400x87 : Shape := ⟨3, ![8, 400, 87]⟩
abbrev S8x10x10x80 : Shape := ⟨4, ![8, 10, 10, 80]⟩
abbrev S8x100x80 : Shape := ⟨3, ![8, 100, 80]⟩
abbrev S8x10x10x4 : Shape := ⟨4, ![8, 10, 10, 4]⟩
abbrev S8x100x4 : Shape := ⟨3, ![8, 100, 4]⟩
abbrev S8x10x10x1 : Shape := ⟨4, ![8, 10, 10, 1]⟩
abbrev S8x100x1 : Shape := ⟨3, ![8, 100, 1]⟩
abbrev S8x100 : Shape := ⟨2, ![8, 100]⟩
abbrev S10 : Shape := ⟨1, ![10]⟩
abbrev S10x10 : Shape := ⟨2, ![10, 10]⟩
abbrev S10x10x1 : Shape := ⟨3, ![10, 10, 1]⟩
abbrev S10x10x2 : Shape := ⟨3, ![10, 10, 2]⟩
abbrev S100x2 : Shape := ⟨2, ![100, 2]⟩
abbrev S8x100x2 : Shape := ⟨3, ![8, 100, 2]⟩
abbrev S8x100x87 : Shape := ⟨3, ![8, 100, 87]⟩

abbrev nBuf : Space → Nat
  | .hbm => 230
  | .vmem => 0
  | .smem => 0
  | _ => 0

abbrev hbmTy0_0 (i : Nat) : BufTy := match i % 128 with
  | 0 => ⟨S8x80x160x160, .f32⟩
  | 1 => ⟨S8x4x160x160, .f32⟩
  | 2 => ⟨S8x1x160x160, .f32⟩
  | 3 => ⟨S8x80x80x80, .f32⟩
  | 4 => ⟨S8x4x80x80, .f32⟩
  | 5 => ⟨S8x1x80x80, .f32⟩
  | 6 => ⟨S8x80x40x40, .f32⟩
  | 7 => ⟨S8x4x40x40, .f32⟩
  | 8 => ⟨S8x1x40x40, .f32⟩
  | 9 => ⟨S8x80x20x20, .f32⟩
  | 10 => ⟨S8x4x20x20, .f32⟩
  | 11 => ⟨S8x1x20x20, .f32⟩
  | 12 => ⟨S8x80x10x10, .f32⟩
  | 13 => ⟨S8x4x10x10, .f32⟩
  | 14 => ⟨S8x1x10x10, .f32⟩
  | 15 => ⟨S8x160x160x80, .f32⟩
  | 16 => ⟨S8x25600x80, .f32⟩
  | 17 => ⟨S8x160x160x4, .f32⟩
  | 18 => ⟨S8x25600x4, .f32⟩
  | 19 => ⟨S8x160x160x1, .f32⟩
  | 20 => ⟨S8x25600x1, .f32⟩
  | 21 => ⟨S_, .f32⟩
  | 22 => ⟨S8x25600, .f32⟩
  | 23 => ⟨S_, .f32⟩
  | 24 => ⟨S8x25600, .f32⟩
  | 25 => ⟨S8x25600, .i1⟩
  | 26 => ⟨S8x25600x1, .i1⟩
  | 27 => ⟨S8x25600x1, .f32⟩
  | 28 => ⟨S160, .i32⟩
  | 29 => ⟨S160, .i32⟩
  | 30 => ⟨S160x160, .i32⟩
  | 31 => ⟨S160x160, .i32⟩
  | 32 => ⟨S_, .i32⟩
  | 33 => ⟨S160x160, .i32⟩
  | 34 => ⟨S160x160, .i32⟩
  | 35 => ⟨S_, .i32⟩
  | 36 => ⟨S160x160, .i32⟩
  | 37 => ⟨S160x160, .i32⟩
  | 38 => ⟨S_, .i32⟩
  | 39 => ⟨S160x160, .i32⟩
  | 40 => ⟨S160x160, .i32⟩
  | 41 => ⟨S_, .i32⟩
  | 42 => ⟨S160x160, .i32⟩
  | 43 => ⟨S160x160, .i32⟩
  | 44 => ⟨S160x160x1, .i32⟩
  | 45 => ⟨S160x160x1, .i32⟩
  | 46 => ⟨S160x160x2, .i32⟩
  | 47 => ⟨S25600x2, .i32⟩
  | 48 => ⟨S25600x2, .f32⟩
  | 49 => ⟨S8x25600x2, .f32⟩
  | 50 => ⟨S8x25600x2, .f32⟩
  | 51 => ⟨S8x25600x2, .f32⟩
  | 52 => ⟨S8x25600x80, .f32⟩
  | 53 => ⟨S8x25600x80, .f32⟩
  | 54 => ⟨S8x25600x4, .f32⟩
  | 55 => ⟨S8x25600x4, .f32⟩
  | 56 => ⟨S8x25600x1, .f32⟩
  | 57 => ⟨S8x25600x87, .f32⟩
  | 58 => ⟨S8x80x80x80, .f32⟩
  | 59 => ⟨S8x6400x80, .f32⟩
  | 60 => ⟨S8x80x80x4, .f32⟩
  | 61 => ⟨S8x6400x4, .f32⟩
  | 62 => ⟨S8x80x80x1, .f32⟩
  | 63 => ⟨S8x6400x1, .f32⟩
  | 64 => ⟨S_, .f32⟩
  | 65 => ⟨S8x6400, .f32⟩
  | 66 => ⟨S_, .f32⟩
  | 67 => ⟨S8x6400, .f32⟩
  | 68 => ⟨S8x6400, .i1⟩
  | 69 => ⟨S8x6400x1, .i1⟩
  | 70 => ⟨S8x6400x1, .f32⟩
  | 71 => ⟨S80, .i32⟩
  | 72 => ⟨S80, .i32⟩
  | 73 => ⟨S80x80, .i32⟩
  | 74 => ⟨S80x80, .i32⟩
  | 75 => ⟨S_, .i32⟩
  | 76 => ⟨S80x80, .i32⟩
  | 77 => ⟨S80x80, .i32⟩
  | 78 => ⟨S_, .i32⟩
  | 79 => ⟨S80x80, .i32⟩
  | 80 => ⟨S80x80, .i32⟩
  | 81 => ⟨S_, .i32⟩
  | 82 => ⟨S80x80, .i32⟩
  | 83 => ⟨S80x80, .i32⟩
  | 84 => ⟨S_, .i32⟩
  | 85 => ⟨S80x80, .i32⟩
  | 86 => ⟨S80x80, .i32⟩
  | 87 => ⟨S80x80x1, .i32⟩
  | 88 => ⟨S80x80x1, .i32⟩
  | 89 => ⟨S80x80x2, .i32⟩
  | 90 => ⟨S6400x2, .i32⟩
  | 91 => ⟨S6400x2, .f32⟩
  | 92 => ⟨S8x6400x2, .f32⟩
  | 93 => ⟨S8x6400x2, .f32⟩
  | 94 => ⟨S8x6400x2, .f32⟩
  | 95 => ⟨S8x6400x80, .f32⟩
  | 96 => ⟨S8x6400x80, .f32⟩
  | 97 => ⟨S8x6400x4, .f32⟩
  | 98 => ⟨S8x6400x4, .f32⟩
  | 99 => ⟨S8x6400x1, .f32⟩
  | 100 => ⟨S8x6400x87, .f32⟩
  | 101 => ⟨S8x40x40x80, .f32⟩
  | 102 => ⟨S8x1600x80, .f32⟩
  | 103 => ⟨S8x40x40x4, .f32⟩
  | 104 => ⟨S8x1600x4, .f32⟩
  | 105 => ⟨S8x40x40x1, .f32⟩
  | 106 => ⟨S8x1600x1, .f32⟩
  | 107 => ⟨S_, .f32⟩
  | 108 => ⟨S8x1600, .f32⟩
  | 109 => ⟨S_, .f32⟩
  | 110 => ⟨S8x1600, .f32⟩
  | 111 => ⟨S8x1600, .i1⟩
  | 112 => ⟨S8x1600x1, .i1⟩
  | 113 => ⟨S8x1600x1, .f32⟩
  | 114 => ⟨S40, .i32⟩
  | 115 => ⟨S40, .i32⟩
  | 116 => ⟨S40x40, .i32⟩
  | 117 => ⟨S40x40, .i32⟩
  | 118 => ⟨S_, .i32⟩
  | 119 => ⟨S40x40, .i32⟩
  | 120 => ⟨S40x40, .i32⟩
  | 121 => ⟨S_, .i32⟩
  | 122 => ⟨S40x40, .i32⟩
  | 123 => ⟨S40x40, .i32⟩
  | 124 => ⟨S_, .i32⟩
  | 125 => ⟨S40x40, .i32⟩
  | 126 => ⟨S40x40, .i32⟩
  | 127 => ⟨S_, .i32⟩
  | _ => ⟨S8x80x160x160, .f32⟩

abbrev hbmTy0_1 (i : Nat) : BufTy := match i % 128 with
  | 0 => ⟨S40x40, .i32⟩
  | 1 => ⟨S40x40, .i32⟩
  | 2 => ⟨S40x40x1, .i32⟩
  | 3 => ⟨S40x40x1, .i32⟩
  | 4 => ⟨S40x40x2, .i32⟩
  | 5 => ⟨S1600x2, .i32⟩
  | 6 => ⟨S1600x2, .f32⟩
  | 7 => ⟨S8x1600x2, .f32⟩
  | 8 => ⟨S8x1600x2, .f32⟩
  | 9 => ⟨S8x1600x2, .f32⟩
  | 10 => ⟨S8x1600x80, .f32⟩
  | 11 => ⟨S8x1600x80, .f32⟩
  | 12 => ⟨S8x1600x4, .f32⟩
  | 13 => ⟨S8x1600x4, .f32⟩
  | 14 => ⟨S8x1600x1, .f32⟩
  | 15 => ⟨S8x1600x87, .f32⟩
  | 16 => ⟨S8x20x20x80, .f32⟩
  | 17 => ⟨S8x400x80, .f32⟩
  | 18 => ⟨S8x20x20x4, .f32⟩
  | 19 => ⟨S8x400x4, .f32⟩
  | 20 => ⟨S8x20x20x1, .f32⟩
  | 21 => ⟨S8x400x1, .f32⟩
  | 22 => ⟨S_, .f32⟩
  | 23 => ⟨S8x400, .f32⟩
  | 24 => ⟨S_, .f32⟩
  | 25 => ⟨S8x400, .f32⟩
  | 26 => ⟨S8x400, .i1⟩
  | 27 => ⟨S8x400x1, .i1⟩
  | 28 => ⟨S8x400x1, .f32⟩
  | 29 => ⟨S20, .i32⟩
  | 30 => ⟨S20, .i32⟩
  | 31 => ⟨S20x20, .i32⟩
  | 32 => ⟨S20x20, .i32⟩
  | 33 => ⟨S_, .i32⟩
  | 34 => ⟨S20x20, .i32⟩
  | 35 => ⟨S20x20, .i32⟩
  | 36 => ⟨S_, .i32⟩
  | 37 => ⟨S20x20, .i32⟩
  | 38 => ⟨S20x20, .i32⟩
  | 39 => ⟨S_, .i32⟩
  | 40 => ⟨S20x20, .i32⟩
  | 41 => ⟨S20x20, .i32⟩
  | 42 => ⟨S_, .i32⟩
  | 43 => ⟨S20x20, .i32⟩
  | 44 => ⟨S20x20, .i32⟩
  | 45 => ⟨S20x20x1, .i32⟩
  | 46 => ⟨S20x20x1, .i32⟩
  | 47 => ⟨S20x20x2, .i32⟩
  | 48 => ⟨S400x2, .i32⟩
  | 49 => ⟨S400x2, .f32⟩
  | 50 => ⟨S8x400x2, .f32⟩
  | 51 => ⟨S8x400x2, .f32⟩
  | 52 => ⟨S8x400x2, .f32⟩
  | 53 => ⟨S8x400x80, .f32⟩
  | 54 => ⟨S8x400x80, .f32⟩
  | 55 => ⟨S8x400x4, .f32⟩
  | 56 => ⟨S8x400x4, .f32⟩
  | 57 => ⟨S8x400x1, .f32⟩
  | 58 => ⟨S8x400x87, .f32⟩
  | 59 => ⟨S8x10x10x80, .f32⟩
  | 60 => ⟨S8x100x80, .f32⟩
  | 61 => ⟨S8x10x10x4, .f32⟩
  | 62 => ⟨S8x100x4, .f32⟩
  | 63 => ⟨S8x10x10x1, .f32⟩
  | 64 => ⟨S8x100x1, .f32⟩
  | 65 => ⟨S_, .f32⟩
  | 66 => ⟨S8x100, .f32⟩
  | 67 => ⟨S_, .f32⟩
  | 68 => ⟨S8x100, .f32⟩
  | 69 => ⟨S8x100, .i1⟩
  | 70 => ⟨S8x100x1, .i1⟩
  | 71 => ⟨S8x100x1, .f32⟩
  | 72 => ⟨S10, .i32⟩
  | 73 => ⟨S10, .i32⟩
  | 74 => ⟨S10x10, .i32⟩
  | 75 => ⟨S10x10, .i32⟩
  | 76 => ⟨S_, .i32⟩
  | 77 => ⟨S10x10, .i32⟩
  | 78 => ⟨S10x10, .i32⟩
  | 79 => ⟨S_, .i32⟩
  | 80 => ⟨S10x10, .i32⟩
  | 81 => ⟨S10x10, .i32⟩
  | 82 => ⟨S_, .i32⟩
  | 83 => ⟨S10x10, .i32⟩
  | 84 => ⟨S10x10, .i32⟩
  | 85 => ⟨S_, .i32⟩
  | 86 => ⟨S10x10, .i32⟩
  | 87 => ⟨S10x10, .i32⟩
  | 88 => ⟨S10x10x1, .i32⟩
  | 89 => ⟨S10x10x1, .i32⟩
  | 90 => ⟨S10x10x2, .i32⟩
  | 91 => ⟨S100x2, .i32⟩
  | 92 => ⟨S100x2, .f32⟩
  | 93 => ⟨S8x100x2, .f32⟩
  | 94 => ⟨S8x100x2, .f32⟩
  | 95 => ⟨S8x100x2, .f32⟩
  | 96 => ⟨S8x100x80, .f32⟩
  | 97 => ⟨S8x100x80, .f32⟩
  | 98 => ⟨S8x100x4, .f32⟩
  | 99 => ⟨S8x100x4, .f32⟩
  | 100 => ⟨S8x100x1, .f32⟩
  | 101 => ⟨S8x100x87, .f32⟩
  | _ => ⟨S8x80x160x160, .f32⟩

abbrev hbmTy (i : Nat) : BufTy := match i / 128 with
  | 0 => hbmTy0_0 i
  | 1 => hbmTy0_1 i
  | _ => ⟨S8x80x160x160, .f32⟩

abbrev bufTy : (tb : Table) → Fin (tcTables nBuf tb) → BufTy
  | .hbm, ⟨i, _⟩ => hbmTy i
  | _, _ => ⟨S8x80x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_cst_5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_6 : Ref sig .tc := ⟨.hbm, 75, rfl⟩
abbrev main_v52 : Ref sig .tc := ⟨.hbm, 76, rfl⟩
abbrev main_v53 : Ref sig .tc := ⟨.hbm, 77, rfl⟩
abbrev main_c_7 : Ref sig .tc := ⟨.hbm, 78, rfl⟩
abbrev main_v54 : Ref sig .tc := ⟨.hbm, 79, rfl⟩
abbrev main_v55 : Ref sig .tc := ⟨.hbm, 80, rfl⟩
abbrev main_c_8 : Ref sig .tc := ⟨.hbm, 81, rfl⟩
abbrev main_v56 : Ref sig .tc := ⟨.hbm, 82, rfl⟩
abbrev main_v57 : Ref sig .tc := ⟨.hbm, 83, rfl⟩
abbrev main_c_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_10 : Ref sig .tc := ⟨.hbm, 107, rfl⟩
abbrev main_v80 : Ref sig .tc := ⟨.hbm, 108, rfl⟩
abbrev main_cst_11 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_12 : Ref sig .tc := ⟨.hbm, 118, rfl⟩
abbrev main_v89 : Ref sig .tc := ⟨.hbm, 119, rfl⟩
abbrev main_v90 : Ref sig .tc := ⟨.hbm, 120, rfl⟩
abbrev main_c_13 : Ref sig .tc := ⟨.hbm, 121, rfl⟩
abbrev main_v91 : Ref sig .tc := ⟨.hbm, 122, rfl⟩
abbrev main_v92 : Ref sig .tc := ⟨.hbm, 123, rfl⟩
abbrev main_c_14 : Ref sig .tc := ⟨.hbm, 124, rfl⟩
abbrev main_v93 : Ref sig .tc := ⟨.hbm, 125, rfl⟩
abbrev main_v94 : Ref sig .tc := ⟨.hbm, 126, rfl⟩
abbrev main_c_15 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_16 : Ref sig .tc := ⟨.hbm, 150, rfl⟩
abbrev main_v117 : Ref sig .tc := ⟨.hbm, 151, rfl⟩
abbrev main_cst_17 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_c_18 : Ref sig .tc := ⟨.hbm, 161, rfl⟩
abbrev main_v126 : Ref sig .tc := ⟨.hbm, 162, rfl⟩
abbrev main_v127 : Ref sig .tc := ⟨.hbm, 163, rfl⟩
abbrev main_c_19 : Ref sig .tc := ⟨.hbm, 164, rfl⟩
abbrev main_v128 : Ref sig .tc := ⟨.hbm, 165, rfl⟩
abbrev main_v129 : Ref sig .tc := ⟨.hbm, 166, rfl⟩
abbrev main_c_20 : Ref sig .tc := ⟨.hbm, 167, rfl⟩
abbrev main_v130 : Ref sig .tc := ⟨.hbm, 168, rfl⟩
abbrev main_v131 : Ref sig .tc := ⟨.hbm, 169, rfl⟩
abbrev main_c_21 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_cst_22 : Ref sig .tc := ⟨.hbm, 193, rfl⟩
abbrev main_v154 : Ref sig .tc := ⟨.hbm, 194, rfl⟩
abbrev main_cst_23 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_c_24 : Ref sig .tc := ⟨.hbm, 204, rfl⟩
abbrev main_v163 : Ref sig .tc := ⟨.hbm, 205, rfl⟩
abbrev main_v164 : Ref sig .tc := ⟨.hbm, 206, rfl⟩
abbrev main_c_25 : Ref sig .tc := ⟨.hbm, 207, rfl⟩
abbrev main_v165 : Ref sig .tc := ⟨.hbm, 208, rfl⟩
abbrev main_v166 : Ref sig .tc := ⟨.hbm, 209, rfl⟩
abbrev main_c_26 : Ref sig .tc := ⟨.hbm, 210, rfl⟩
abbrev main_v167 : Ref sig .tc := ⟨.hbm, 211, rfl⟩
abbrev main_v168 : Ref sig .tc := ⟨.hbm, 212, rfl⟩
abbrev main_c_27 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩

abbrev nD : Nat := 1
abbrev τ : Topo := Topo.v7x

variable {F : FTy → Type} [FloatOps F]

class Facts₀ : Prop where
  transposes_S8x80x160x160_S8x160x160x80_0_2_3_1 : S8x80x160x160.Transposes [0, 2, 3, 1] S8x160x160x80
  shapeCasts_S8x160x160x80_S8x25600x80 : S8x160x160x80.ShapeCasts S8x25600x80
  transposes_S8x4x160x160_S8x160x160x4_0_2_3_1 : S8x4x160x160.Transposes [0, 2, 3, 1] S8x160x160x4
  shapeCasts_S8x160x160x4_S8x25600x4 : S8x160x160x4.ShapeCasts S8x25600x4
  transposes_S8x1x160x160_S8x160x160x1_0_2_3_1 : S8x1x160x160.Transposes [0, 2, 3, 1] S8x160x160x1
  shapeCasts_S8x160x160x1_S8x25600x1 : S8x160x160x1.ShapeCasts S8x25600x1
  reducesTo_S8x25600x80_S8x25600_d2 : S8x25600x80.ReducesTo [2] S8x25600
  h_S_ : 0 < S_.numel
  bcast_S_S8x25600 : S_.BroadcastsInDim S8x25600 (![] : Fin 0 → Fin S8x25600.rank)
  bcast_S8x25600_S8x25600x1_0_1 : S8x25600.BroadcastsInDim S8x25600x1 (![0, 1] : Fin 2 → Fin S8x25600x1.rank)
  bcast_S160_S160x160_0 : S160.BroadcastsInDim S160x160 (![0] : Fin 1 → Fin S160x160.rank)
  bcast_S160_S160x160_1 : S160.BroadcastsInDim S160x160 (![1] : Fin 1 → Fin S160x160.rank)
  bcast_S_S160x160 : S_.BroadcastsInDim S160x160 (![] : Fin 0 → Fin S160x160.rank)
  bcast_S160x160_S160x160x1_0_1 : S160x160.BroadcastsInDim S160x160x1 (![0, 1] : Fin 2 → Fin S160x160x1.rank)
  concatenates_S160x160x1_S160x160x1_S160x160x2_d2 : Shape.Concatenates [S160x160x1, S160x160x1] S160x160x2 2
  shapeCasts_S160x160x2_S25600x2 : S160x160x2.ShapeCasts S25600x2
  bcast_S25600x2_S8x25600x2_1_2 : S25600x2.BroadcastsInDim S8x25600x2 (![1, 2] : Fin 2 → Fin S8x25600x2.rank)
  bcast_S8x25600x1_S8x25600x2_0_1_2 : S8x25600x1.BroadcastsInDim S8x25600x2 (![0, 1, 2] : Fin 3 → Fin S8x25600x2.rank)
  bcast_S8x25600x1_S8x25600x80_0_1_2 : S8x25600x1.BroadcastsInDim S8x25600x80 (![0, 1, 2] : Fin 3 → Fin S8x25600x80.rank)
  bcast_S8x25600x1_S8x25600x4_0_1_2 : S8x25600x1.BroadcastsInDim S8x25600x4 (![0, 1, 2] : Fin 3 → Fin S8x25600x4.rank)
  concatenates_S8x25600x2_S8x25600x80_S8x25600x4_S8x25600x1_S8x25600x87_d2 : Shape.Concatenates [S8x25600x2, S8x25600x80, S8x25600x4, S8x25600x1] S8x25600x87 2
  transposes_S8x80x80x80_S8x80x80x80_0_2_3_1 : S8x80x80x80.Transposes [0, 2, 3, 1] S8x80x80x80
  shapeCasts_S8x80x80x80_S8x6400x80 : S8x80x80x80.ShapeCasts S8x6400x80
  transposes_S8x4x80x80_S8x80x80x4_0_2_3_1 : S8x4x80x80.Transposes [0, 2, 3, 1] S8x80x80x4
  shapeCasts_S8x80x80x4_S8x6400x4 : S8x80x80x4.ShapeCasts S8x6400x4
  transposes_S8x1x80x80_S8x80x80x1_0_2_3_1 : S8x1x80x80.Transposes [0, 2, 3, 1] S8x80x80x1
  shapeCasts_S8x80x80x1_S8x6400x1 : S8x80x80x1.ShapeCasts S8x6400x1
  reducesTo_S8x6400x80_S8x6400_d2 : S8x6400x80.ReducesTo [2] S8x6400
  bcast_S_S8x6400 : S_.BroadcastsInDim S8x6400 (![] : Fin 0 → Fin S8x6400.rank)
  bcast_S8x6400_S8x6400x1_0_1 : S8x6400.BroadcastsInDim S8x6400x1 (![0, 1] : Fin 2 → Fin S8x6400x1.rank)
  bcast_S80_S80x80_0 : S80.BroadcastsInDim S80x80 (![0] : Fin 1 → Fin S80x80.rank)
  bcast_S80_S80x80_1 : S80.BroadcastsInDim S80x80 (![1] : Fin 1 → Fin S80x80.rank)
  bcast_S_S80x80 : S_.BroadcastsInDim S80x80 (![] : Fin 0 → Fin S80x80.rank)
  bcast_S80x80_S80x80x1_0_1 : S80x80.BroadcastsInDim S80x80x1 (![0, 1] : Fin 2 → Fin S80x80x1.rank)
  concatenates_S80x80x1_S80x80x1_S80x80x2_d2 : Shape.Concatenates [S80x80x1, S80x80x1] S80x80x2 2
  shapeCasts_S80x80x2_S6400x2 : S80x80x2.ShapeCasts S6400x2
  bcast_S6400x2_S8x6400x2_1_2 : S6400x2.BroadcastsInDim S8x6400x2 (![1, 2] : Fin 2 → Fin S8x6400x2.rank)
  bcast_S8x6400x1_S8x6400x2_0_1_2 : S8x6400x1.BroadcastsInDim S8x6400x2 (![0, 1, 2] : Fin 3 → Fin S8x6400x2.rank)
  bcast_S8x6400x1_S8x6400x80_0_1_2 : S8x6400x1.BroadcastsInDim S8x6400x80 (![0, 1, 2] : Fin 3 → Fin S8x6400x80.rank)
  bcast_S8x6400x1_S8x6400x4_0_1_2 : S8x6400x1.BroadcastsInDim S8x6400x4 (![0, 1, 2] : Fin 3 → Fin S8x6400x4.rank)
  concatenates_S8x6400x2_S8x6400x80_S8x6400x4_S8x6400x1_S8x6400x87_d2 : Shape.Concatenates [S8x6400x2, S8x6400x80, S8x6400x4, S8x6400x1] S8x6400x87 2
  transposes_S8x80x40x40_S8x40x40x80_0_2_3_1 : S8x80x40x40.Transposes [0, 2, 3, 1] S8x40x40x80
  shapeCasts_S8x40x40x80_S8x1600x80 : S8x40x40x80.ShapeCasts S8x1600x80
  transposes_S8x4x40x40_S8x40x40x4_0_2_3_1 : S8x4x40x40.Transposes [0, 2, 3, 1] S8x40x40x4
  shapeCasts_S8x40x40x4_S8x1600x4 : S8x40x40x4.ShapeCasts S8x1600x4
  transposes_S8x1x40x40_S8x40x40x1_0_2_3_1 : S8x1x40x40.Transposes [0, 2, 3, 1] S8x40x40x1
  shapeCasts_S8x40x40x1_S8x1600x1 : S8x40x40x1.ShapeCasts S8x1600x1
  reducesTo_S8x1600x80_S8x1600_d2 : S8x1600x80.ReducesTo [2] S8x1600
  bcast_S_S8x1600 : S_.BroadcastsInDim S8x1600 (![] : Fin 0 → Fin S8x1600.rank)
  bcast_S8x1600_S8x1600x1_0_1 : S8x1600.BroadcastsInDim S8x1600x1 (![0, 1] : Fin 2 → Fin S8x1600x1.rank)
  bcast_S40_S40x40_0 : S40.BroadcastsInDim S40x40 (![0] : Fin 1 → Fin S40x40.rank)
  bcast_S40_S40x40_1 : S40.BroadcastsInDim S40x40 (![1] : Fin 1 → Fin S40x40.rank)
  bcast_S_S40x40 : S_.BroadcastsInDim S40x40 (![] : Fin 0 → Fin S40x40.rank)
  bcast_S40x40_S40x40x1_0_1 : S40x40.BroadcastsInDim S40x40x1 (![0, 1] : Fin 2 → Fin S40x40x1.rank)
  concatenates_S40x40x1_S40x40x1_S40x40x2_d2 : Shape.Concatenates [S40x40x1, S40x40x1] S40x40x2 2
  shapeCasts_S40x40x2_S1600x2 : S40x40x2.ShapeCasts S1600x2
  bcast_S1600x2_S8x1600x2_1_2 : S1600x2.BroadcastsInDim S8x1600x2 (![1, 2] : Fin 2 → Fin S8x1600x2.rank)
  bcast_S8x1600x1_S8x1600x2_0_1_2 : S8x1600x1.BroadcastsInDim S8x1600x2 (![0, 1, 2] : Fin 3 → Fin S8x1600x2.rank)
  bcast_S8x1600x1_S8x1600x80_0_1_2 : S8x1600x1.BroadcastsInDim S8x1600x80 (![0, 1, 2] : Fin 3 → Fin S8x1600x80.rank)
  bcast_S8x1600x1_S8x1600x4_0_1_2 : S8x1600x1.BroadcastsInDim S8x1600x4 (![0, 1, 2] : Fin 3 → Fin S8x1600x4.rank)
  concatenates_S8x1600x2_S8x1600x80_S8x1600x4_S8x1600x1_S8x1600x87_d2 : Shape.Concatenates [S8x1600x2, S8x1600x80, S8x1600x4, S8x1600x1] S8x1600x87 2
  transposes_S8x80x20x20_S8x20x20x80_0_2_3_1 : S8x80x20x20.Transposes [0, 2, 3, 1] S8x20x20x80
  shapeCasts_S8x20x20x80_S8x400x80 : S8x20x20x80.ShapeCasts S8x400x80
  transposes_S8x4x20x20_S8x20x20x4_0_2_3_1 : S8x4x20x20.Transposes [0, 2, 3, 1] S8x20x20x4
  shapeCasts_S8x20x20x4_S8x400x4 : S8x20x20x4.ShapeCasts S8x400x4
  transposes_S8x1x20x20_S8x20x20x1_0_2_3_1 : S8x1x20x20.Transposes [0, 2, 3, 1] S8x20x20x1
  shapeCasts_S8x20x20x1_S8x400x1 : S8x20x20x1.ShapeCasts S8x400x1
  reducesTo_S8x400x80_S8x400_d2 : S8x400x80.ReducesTo [2] S8x400
  bcast_S_S8x400 : S_.BroadcastsInDim S8x400 (![] : Fin 0 → Fin S8x400.rank)
  bcast_S8x400_S8x400x1_0_1 : S8x400.BroadcastsInDim S8x400x1 (![0, 1] : Fin 2 → Fin S8x400x1.rank)
  bcast_S20_S20x20_0 : S20.BroadcastsInDim S20x20 (![0] : Fin 1 → Fin S20x20.rank)
  bcast_S20_S20x20_1 : S20.BroadcastsInDim S20x20 (![1] : Fin 1 → Fin S20x20.rank)
  bcast_S_S20x20 : S_.BroadcastsInDim S20x20 (![] : Fin 0 → Fin S20x20.rank)
  bcast_S20x20_S20x20x1_0_1 : S20x20.BroadcastsInDim S20x20x1 (![0, 1] : Fin 2 → Fin S20x20x1.rank)
  concatenates_S20x20x1_S20x20x1_S20x20x2_d2 : Shape.Concatenates [S20x20x1, S20x20x1] S20x20x2 2
  shapeCasts_S20x20x2_S400x2 : S20x20x2.ShapeCasts S400x2
  bcast_S400x2_S8x400x2_1_2 : S400x2.BroadcastsInDim S8x400x2 (![1, 2] : Fin 2 → Fin S8x400x2.rank)
  bcast_S8x400x1_S8x400x2_0_1_2 : S8x400x1.BroadcastsInDim S8x400x2 (![0, 1, 2] : Fin 3 → Fin S8x400x2.rank)
  bcast_S8x400x1_S8x400x80_0_1_2 : S8x400x1.BroadcastsInDim S8x400x80 (![0, 1, 2] : Fin 3 → Fin S8x400x80.rank)
  bcast_S8x400x1_S8x400x4_0_1_2 : S8x400x1.BroadcastsInDim S8x400x4 (![0, 1, 2] : Fin 3 → Fin S8x400x4.rank)
  concatenates_S8x400x2_S8x400x80_S8x400x4_S8x400x1_S8x400x87_d2 : Shape.Concatenates [S8x400x2, S8x400x80, S8x400x4, S8x400x1] S8x400x87 2
  transposes_S8x80x10x10_S8x10x10x80_0_2_3_1 : S8x80x10x10.Transposes [0, 2, 3, 1] S8x10x10x80
  shapeCasts_S8x10x10x80_S8x100x80 : S8x10x10x80.ShapeCasts S8x100x80
  transposes_S8x4x10x10_S8x10x10x4_0_2_3_1 : S8x4x10x10.Transposes [0, 2, 3, 1] S8x10x10x4
  shapeCasts_S8x10x10x4_S8x100x4 : S8x10x10x4.ShapeCasts S8x100x4
  transposes_S8x1x10x10_S8x10x10x1_0_2_3_1 : S8x1x10x10.Transposes [0, 2, 3, 1] S8x10x10x1
  shapeCasts_S8x10x10x1_S8x100x1 : S8x10x10x1.ShapeCasts S8x100x1
  reducesTo_S8x100x80_S8x100_d2 : S8x100x80.ReducesTo [2] S8x100
  bcast_S_S8x100 : S_.BroadcastsInDim S8x100 (![] : Fin 0 → Fin S8x100.rank)
  bcast_S8x100_S8x100x1_0_1 : S8x100.BroadcastsInDim S8x100x1 (![0, 1] : Fin 2 → Fin S8x100x1.rank)
  bcast_S10_S10x10_0 : S10.BroadcastsInDim S10x10 (![0] : Fin 1 → Fin S10x10.rank)
  bcast_S10_S10x10_1 : S10.BroadcastsInDim S10x10 (![1] : Fin 1 → Fin S10x10.rank)
  bcast_S_S10x10 : S_.BroadcastsInDim S10x10 (![] : Fin 0 → Fin S10x10.rank)
  bcast_S10x10_S10x10x1_0_1 : S10x10.BroadcastsInDim S10x10x1 (![0, 1] : Fin 2 → Fin S10x10x1.rank)
  concatenates_S10x10x1_S10x10x1_S10x10x2_d2 : Shape.Concatenates [S10x10x1, S10x10x1] S10x10x2 2
  shapeCasts_S10x10x2_S100x2 : S10x10x2.ShapeCasts S100x2
  bcast_S100x2_S8x100x2_1_2 : S100x2.BroadcastsInDim S8x100x2 (![1, 2] : Fin 2 → Fin S8x100x2.rank)
  bcast_S8x100x1_S8x100x2_0_1_2 : S8x100x1.BroadcastsInDim S8x100x2 (![0, 1, 2] : Fin 3 → Fin S8x100x2.rank)
  bcast_S8x100x1_S8x100x80_0_1_2 : S8x100x1.BroadcastsInDim S8x100x80 (![0, 1, 2] : Fin 3 → Fin S8x100x80.rank)
  bcast_S8x100x1_S8x100x4_0_1_2 : S8x100x1.BroadcastsInDim S8x100x4 (![0, 1, 2] : Fin 3 → Fin S8x100x4.rank)
  concatenates_S8x100x2_S8x100x80_S8x100x4_S8x100x1_S8x100x87_d2 : Shape.Concatenates [S8x100x2, S8x100x80, S8x100x4, S8x100x1] S8x100x87 2

variable [Facts₀]

class Facts : Prop extends Facts₀ where

variable [Facts]
-- ==== Proof.KernelRun.lean ====
/-
  The idealized kernel's run with every result array named.

  The program is five pallas_calls in a row, one per pyramid level, each over a grid of the eight images.  The
  launch theorem for a list of regions leaves, at the end, every buffer of a TensorCore at the last boundary's
  contents; here that is kept as the run's post, and each result array is walked back through the boundaries to
  the region that wrote it: level `k`'s result is what region `k`'s write-backs leave, and region `k` finds
  its three argument arrays as launched, since no earlier region writes them.
-/
import proofs.«149197_j15719580303963_2_alg».proof.Proof.Gen.KernelIdeal.Frame
import Idealize.ShloMosaic.Lib.Pipeline.Value

set_option maxRecDepth 16384

noncomputable section

namespace Cert.KernelIdeal.Levels

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every TensorCore at the
    contents the last region leaves. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-! ## Each result array is what its own region's write-backs leave -/

theorem res0 (c : Dev nD) : W5 m ρ c (Proc.devRef .tc main_v0) = (dat0 (V0 m ρ) c).arrAt 3 cfg0.N :=
  calc W5 m ρ c (Proc.devRef .tc main_v0)
    _ = W4 m ρ c (Proc.devRef .tc main_v0) := W5_of_ne m ρ c main_v0 (by decide)
    _ = W3 m ρ c (Proc.devRef .tc main_v0) := W4_of_ne m ρ c main_v0 (by decide)
    _ = W2 m ρ c (Proc.devRef .tc main_v0) := W3_of_ne m ρ c main_v0 (by decide)
    _ = W1 m ρ c (Proc.devRef .tc main_v0) := W2_of_ne m ρ c main_v0 (by decide)
    _ = _ := W1_arr m ρ c 3

theorem res1 (c : Dev nD) : W5 m ρ c (Proc.devRef .tc main_v1) = (dat1 (V1 m ρ) c).arrAt 3 cfg1.N :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := W3_of_ne m ρ c main_v1 (by decide)
    _ = _ := W2_arr m ρ c 3

theorem res2 (c : Dev nD) : W5 m ρ c (Proc.devRef .tc main_v2) = (dat2 (V2 m ρ) c).arrAt 3 cfg2.N :=
  calc W5 m ρ c (Proc.devRef .tc main_v2)
    _ = W4 m ρ c (Proc.devRef .tc main_v2) := W5_of_ne m ρ c main_v2 (by decide)
    _ = W3 m ρ c (Proc.devRef .tc main_v2) := W4_of_ne m ρ c main_v2 (by decide)
    _ = _ := W3_arr m ρ c 3

theorem res3 (c : Dev nD) : W5 m ρ c (Proc.devRef .tc main_v3) = (dat3 (V3 m ρ) c).arrAt 3 cfg3.N :=
  calc W5 m ρ c (Proc.devRef .tc main_v3)
    _ = W4 m ρ c (Proc.devRef .tc main_v3) := W5_of_ne m ρ c main_v3 (by decide)
    _ = _ := W4_arr m ρ c 3

theorem res4 (c : Dev nD) : W5 m ρ c (Proc.devRef .tc main_v4) = (dat4 (V4 m ρ) c).arrAt 3 cfg4.N :=
  W5_arr m ρ c 3

/-! ## Each region finds its argument arrays as launched -/

theorem in0 (c : Dev nD) (b : Ref sig .tc) : V0 m ρ c b = m ((c : Thread nD τ).loc b) := rfl

theorem in1 (c : Dev nD) (b : Ref sig .tc) (h0 : ∀ w, Pipeline.arrRef spec0 w ≠ b) :
    V1 m ρ c b = m ((c : Thread nD τ).loc b) := W1_of_ne m ρ c b h0

theorem in2 (c : Dev nD) (b : Ref sig .tc) (h0 : ∀ w, Pipeline.arrRef spec0 w ≠ b) (h1 : ∀ w, Pipeline.arrRef spec1 w ≠ b) :
    V2 m ρ c b = m ((c : Thread nD τ).loc b) := (W2_of_ne m ρ c b h1).trans (W1_of_ne m ρ c b h0)

theorem in3 (c : Dev nD) (b : Ref sig .tc) (h0 : ∀ w, Pipeline.arrRef spec0 w ≠ b) (h1 : ∀ w, Pipeline.arrRef spec1 w ≠ b)
    (h2 : ∀ w, Pipeline.arrRef spec2 w ≠ b) :
    V3 m ρ c b = m ((c : Thread nD τ).loc b) :=
  (W3_of_ne m ρ c b h2).trans ((W2_of_ne m ρ c b h1).trans (W1_of_ne m ρ c b h0))

theorem in4 (c : Dev nD) (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) :
    V4 m ρ c b = m ((c : Thread nD τ).loc b) :=
  (W4_of_ne m ρ c b h3).trans ((W3_of_ne m ρ c b h2).trans ((W2_of_ne m ρ c b h1).trans (W1_of_ne m ρ c b h0)))

end Cert.KernelIdeal.Levels

end
-- ==== Proof.LibMaskCentre.lean ====
/-
  Small facts about the extended-real reading of a detection head's mask and of its pixel-centre coordinates.

  * A comparison's one bit, zero-extended to 32 bits and then read as a SIGNED integer, is the bit read as an
    UNSIGNED integer: both are 0 or 1 (`toInt_setWidth_bit`).  So a mask built as
    `sitofp (extui (cmpf …))` and one built as `uitofp (cmpf …)` are the same extended real.
  * For small naturals the 32-bit words of `n`, `a`, `s` satisfy `toInt (n * a + s) = n * a + s`: no wrap
    (`toInt_affine`), and in particular `toInt n = n` (`toInt_ofNat_small`).  So the centre
    `float n * float a + float s` computed in floats over the extended reals is the float of the integer
    `n * a + s` (`centre_eq`).
  * The float words of the powers of two 4 … 128 denote those reals (`ofBits_4` … `ofBits_128`).
-/
import Idealize.ShloMosaic.PureOps.Ideal

noncomputable section

namespace Cert.Lib

open Idealize.ShloMosaic

/-- A one-bit word zero-extended to 32 bits is 0 or 1 whether read signed or unsigned. -/
theorem toInt_setWidth_bit (b : BitVec 1) : ((b.setWidth 32).toInt : ℝ) = ((b.toNat : ℕ) : ℝ) := by
  have h : b = 0#1 ∨ b = 1#1 := by
    have := b.isLt
    rcases Nat.lt_or_ge b.toNat 1 with h | h
    · left; apply BitVec.eq_of_toNat_eq; simp; omega
    · right; apply BitVec.eq_of_toNat_eq; simp; omega
  rcases h with rfl | rfl <;> simp

/-- The 32-bit word of a natural below 2³¹ reads, signed, as that natural. -/
theorem toInt_ofNat_small (n : ℕ) (h : n < 2 ^ 31) : (BitVec.ofNat 32 n).toInt = (n : ℤ) := by
  rw [BitVec.toInt_eq_toNat_cond, BitVec.toNat_ofNat]
  have e : n % 2 ^ 32 = n := Nat.mod_eq_of_lt (by omega)
  rw [e]
  split_ifs with hh
  · rfl
  · exfalso; omega

/-- No wrap: for `n * a + s` below 2³¹ the 32-bit product and sum of the words read, signed, as `n * a + s`. -/
theorem toInt_affine (n a s : ℕ) (h : n * a + s < 2 ^ 31) :
    (BitVec.ofNat 32 n * BitVec.ofNat 32 a + BitVec.ofNat 32 s).toInt = ((n * a + s : ℕ) : ℤ) := by
  rw [← BitVec.ofNat_mul, ← BitVec.ofNat_add]
  exact toInt_ofNat_small _ h

/-- The centre of pixel `n` at stride `a` and offset `s`: computed in floats from the float of `n`, or as the float of the
    integer `n * a + s` — the same real. -/
theorem centre_eq (n a s : ℕ) (hn : n < 2 ^ 31) (h : n * a + s < 2 ^ 31) :
    (((BitVec.ofNat 32 n).toInt : ℝ) : EReal) * ((a : ℝ) : EReal) + ((s : ℝ) : EReal)
      = ((((BitVec.ofNat 32 n * BitVec.ofNat 32 a + BitVec.ofNat 32 s).toInt : ℤ) : ℝ) : EReal) := by
  rw [toInt_affine n a s h, toInt_ofNat_small n hn, ← EReal.coe_mul, ← EReal.coe_add]
  push_cast
  rfl

theorem ofBits_4 : Ideal.ofBits .f32 0x40800000#32 = ((4 : ℝ) : EReal) := by
  simp [Ideal.ofBits, Ideal.ieee, -EReal.coe_mul]; norm_num
theorem ofBits_8 : Ideal.ofBits .f32 0x41000000#32 = ((8 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num
theorem ofBits_32 : Ideal.ofBits .f32 0x42000000#32 = ((32 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num

end Cert.Lib

end
-- ==== Proof.Level0Spec.lean ====
/-
  One pyramid level of the filter, as a function of its three arrays: class scores [B, 80, 160, 160], box offsets
  [B, 4, 160, 160] and centre-ness [B, 1, 160, 160] (image, channel, row, column).

  The result is [B, 25600, 87]: for image `b` and location `p` = row · 160 + column, the 87 entries are the pixel centre
  (x = column · 8 + 4, y = row · 8 + 4), the 80 class scores, the 4 box offsets and the centre-ness at that
  location, every one multiplied by the location's mask: 1 when the greatest of its 80 class scores (from −∞)
  exceeds one half, 0 otherwise.  Stated for any number `B` of images, so that one image's block and the whole
  stack of eight are the same function.
-/
import Idealize.ShloMosaic.PureOps.Ideal
import Idealize.ShloMosaic.Lib.ValueIdx

noncomputable section

namespace Cert.Level0

open Idealize.ShloMosaic Idealize.ShloMosaic.ValueIdx

/-- The row of a flattened location. -/
def rowOf (p : Fin 25600) : Fin 160 := ⟨p.val / 160, by have := p.isLt; omega⟩
/-- The column of a flattened location. -/
def colOf (p : Fin 25600) : Fin 160 := ⟨p.val % 160, Nat.mod_lt _ (by decide)⟩

variable {B : Nat}

/-- The greatest class score at a location, starting from −∞. -/
def top (cls : (⟨4, ![B, 80, 160, 160]⟩ : Shape).Idx → EReal) (b : Fin B) (p : Fin 25600) : EReal :=
  (Finset.univ : Finset (Fin 80)).fold max (Ideal.ofBits .f32 0xFF800000#32) fun ch => cls (ix4 b ch (rowOf p) (colOf p))

/-- The mask of a location: 1 when its greatest class score exceeds one half, else 0. -/
def keep (cls : (⟨4, ![B, 80, 160, 160]⟩ : Shape).Idx → EReal) (b : Fin B) (p : Fin 25600) : EReal :=
  ((((Ideal.cmp .ogt (top cls b p) (Ideal.ofBits .f32 0x3F000000#32)).toNat : ℕ) : ℝ) : EReal)

/-- The pixel centre of a location: x (entry 0) from the column, y (entry 1) from the row. -/
def centre (p : Fin 25600) (j : Fin 2) : EReal :=
  if j.val = 0 then ((((colOf p).val * 8 + 4 : ℕ) : ℝ) : EReal) else ((((rowOf p).val * 8 + 4 : ℕ) : ℝ) : EReal)

/-- One entry of the level's result: image `a`, location `p`, entry `j` of the 87. -/
def entry (cls : (⟨4, ![B, 80, 160, 160]⟩ : Shape).Idx → EReal) (bbox : (⟨4, ![B, 4, 160, 160]⟩ : Shape).Idx → EReal)
    (ctr : (⟨4, ![B, 1, 160, 160]⟩ : Shape).Idx → EReal) (a : Fin B) (p : Fin 25600) (j : Fin 87) : EReal :=
  (if h : j.val < 2 then centre p ⟨j.val, h⟩
   else if h2 : j.val < 82 then cls (ix4 a ⟨j.val - 2, by omega⟩ (rowOf p) (colOf p))
   else if h3 : j.val < 86 then bbox (ix4 a ⟨j.val - 82, by omega⟩ (rowOf p) (colOf p))
   else ctr (ix4 a ⟨0, by decide⟩ (rowOf p) (colOf p))) * keep cls a p

/-- The level's result. -/
def out (cls : (⟨4, ![B, 80, 160, 160]⟩ : Shape).Idx → EReal) (bbox : (⟨4, ![B, 4, 160, 160]⟩ : Shape).Idx → EReal)
    (ctr : (⟨4, ![B, 1, 160, 160]⟩ : Shape).Idx → EReal) : (⟨3, ![B, 25600, 87]⟩ : Shape).Idx → EReal := fun i =>
  entry cls bbox ctr (i 0) (i 1) (i 2)

section Read
variable (cls : (⟨4, ![B, 80, 160, 160]⟩ : Shape).Idx → EReal) (bbox : (⟨4, ![B, 4, 160, 160]⟩ : Shape).Idx → EReal)
  (ctr : (⟨4, ![B, 1, 160, 160]⟩ : Shape).Idx → EReal) (a : Fin B) (p : Fin 25600) (j : Fin 87)

theorem out_apply : out cls bbox ctr (ix3 a p j) = entry cls bbox ctr a p j := rfl

/-- Entries 0 and 1: the centre, masked. -/
theorem entry_centre (h : j.val < 2) : entry cls bbox ctr a p j = centre p ⟨j.val, h⟩ * keep cls a p := by
  unfold entry; rw [dif_pos h]

/-- Entries 2 … 81: the class scores, masked. -/
theorem entry_cls (h : ¬ j.val < 2) (h2 : j.val < 82) :
    entry cls bbox ctr a p j = cls (ix4 a ⟨j.val - 2, by omega⟩ (rowOf p) (colOf p)) * keep cls a p := by
  unfold entry; rw [dif_neg h, dif_pos h2]

/-- Entries 82 … 85: the box offsets, masked. -/
theorem entry_bbox (h : ¬ j.val < 2) (h2 : ¬ j.val < 82) (h3 : j.val < 86) :
    entry cls bbox ctr a p j = bbox (ix4 a ⟨j.val - 82, by omega⟩ (rowOf p) (colOf p)) * keep cls a p := by
  unfold entry; rw [dif_neg h, dif_neg h2, dif_pos h3]

/-- Entry 86: the centre-ness, masked. -/
theorem entry_ctr (h : ¬ j.val < 2) (h2 : ¬ j.val < 82) (h3 : ¬ j.val < 86) :
    entry cls bbox ctr a p j = ctr (ix4 a ⟨0, by decide⟩ (rowOf p) (colOf p)) * keep cls a p := by
  unfold entry; rw [dif_neg h, dif_neg h2, dif_neg h3]

end Read

/-- An image's entries depend only on that image's slices of the three arrays: two stacks whose images `a` and `b`
    agree have the same entries there. -/
theorem entry_member {B' : Nat} (cls : (⟨4, ![B, 80, 160, 160]⟩ : Shape).Idx → EReal) (bbox : (⟨4, ![B, 4, 160, 160]⟩ : Shape).Idx → EReal)
    (ctr : (⟨4, ![B, 1, 160, 160]⟩ : Shape).Idx → EReal) (cls' : (⟨4, ![B', 80, 160, 160]⟩ : Shape).Idx → EReal)
    (bbox' : (⟨4, ![B', 4, 160, 160]⟩ : Shape).Idx → EReal) (ctr' : (⟨4, ![B', 1, 160, 160]⟩ : Shape).Idx → EReal) (a : Fin B) (b : Fin B')
    (h0 : ∀ ch r c, cls (ix4 a ch r c) = cls' (ix4 b ch r c)) (h1 : ∀ ch r c, bbox (ix4 a ch r c) = bbox' (ix4 b ch r c))
    (h2 : ∀ ch r c, ctr (ix4 a ch r c) = ctr' (ix4 b ch r c)) (p : Fin 25600) (j : Fin 87) :
    entry cls bbox ctr a p j = entry cls' bbox' ctr' b p j := by
  have hk : keep cls a p = keep cls' b p := by
    unfold keep top
    simp only [h0]
  unfold entry
  rw [hk]
  simp only [h0, h1, h2]

end Cert.Level0

end
-- ==== Proof.Level0KernelPay.lean ====
import proofs.«149197_j15719580303963_2_alg».proof.Proof.Gen.KernelIdeal.Skeleton
import proofs.«149197_j15719580303963_2_alg».proof.Proof.LibMaskCentre
import proofs.«149197_j15719580303963_2_alg».proof.Proof.Level0Spec
import Idealize.ShloMosaic.Lib.Pipeline.Value
import Idealize.ShloMosaic.Lib.ValueIdx
import Idealize.ShloMosaic.PureOps.Ideal.Laws

set_option maxRecDepth 16384

noncomputable section

namespace Cert.KernelIdeal.Level0

open Cert.KernelIdeal Cert.KernelIdeal.Gen Idealize.ShloMosaic Idealize.ShloMosaic.ValueIdx Cert.Level0

/-!
  What one grid point of level 0's kernel stores, entry by entry: the body's payload on the blocks of one image is
  the level's function (`Cert.Level0.out`) of those blocks, read as stacks of one image.
-/

section Layout
variable {α : Type}

/-- A [1, 80, 160, 160] block (channel, row, column) re-laid as [25600, 80] (location, channel): entry (p, ch) is the block's
    entry at channel `ch`, row `p / 160`, column `p % 160`. -/
theorem relaid80 (x : S1x80x160x160.Idx → α) (h1 : S1x80x160x160.ShapeCasts S80x160x160)
    (h2 : S80x160x160.Transposes [1, 2, 0] S160x160x80) (h3 : S160x160x80.ShapeCasts S25600x80) (p : Fin 25600) (ch : Fin 80) :
    shapeCast S25600x80 (transpose S160x160x80 [1, 2, 0] (shapeCast S80x160x160 x h1) h2) h3 (ix2 p ch)
      = x (ix4 0 ch (rowOf p) (colOf p)) := by
  have hp := p.isLt
  rw [shapeCast_apply _ h3 (ix2 p ch) (ix3 (rowOf p) (colOf p) ch) (by
        rw [Shape.rowMajor_val_three, Shape.rowMajor_val_two]
        show ((p.val / 160) * 160 + p.val % 160) * 80 + ch.val = p.val * 80 + ch.val
        omega),
      transpose_apply _ _ h2 _ (ix3 ch (rowOf p) (colOf p)) (by
        intro b; match b with | ⟨0, _⟩ => rfl | ⟨1, _⟩ => rfl | ⟨2, _⟩ => rfl),
      shapeCast_apply _ h1 _ (ix4 0 ch (rowOf p) (colOf p)) (by
        rw [Shape.rowMajor_val_four, Shape.rowMajor_val_three]
        show ((0 * 80 + ch.val) * 160 + p.val / 160) * 160 + p.val % 160 = (ch.val * 160 + p.val / 160) * 160 + p.val % 160
        omega)]

/-- A [1, 4, 160, 160] block (channel, row, column) re-laid as [25600, 4] (location, channel): entry (p, ch) is the block's
    entry at channel `ch`, row `p / 160`, column `p % 160`. -/
theorem relaid4 (x : S1x4x160x160.Idx → α) (h1 : S1x4x160x160.ShapeCasts S4x160x160)
    (h2 : S4x160x160.Transposes [1, 2, 0] S160x160x4) (h3 : S160x160x4.ShapeCasts S25600x4) (p : Fin 25600) (ch : Fin 4) :
    shapeCast S25600x4 (transpose S160x160x4 [1, 2, 0] (shapeCast S4x160x160 x h1) h2) h3 (ix2 p ch)
      = x (ix4 0 ch (rowOf p) (colOf p)) := by
  have hp := p.isLt
  rw [shapeCast_apply _ h3 (ix2 p ch) (ix3 (rowOf p) (colOf p) ch) (by
        rw [Shape.rowMajor_val_three, Shape.rowMajor_val_two]
        show ((p.val / 160) * 160 + p.val % 160) * 4 + ch.val = p.val * 4 + ch.val
        omega),
      transpose_apply _ _ h2 _ (ix3 ch (rowOf p) (colOf p)) (by
        intro b; match b with | ⟨0, _⟩ => rfl | ⟨1, _⟩ => rfl | ⟨2, _⟩ => rfl),
      shapeCast_apply _ h1 _ (ix4 0 ch (rowOf p) (colOf p)) (by
        rw [Shape.rowMajor_val_four, Shape.rowMajor_val_three]
        show ((0 * 4 + ch.val) * 160 + p.val / 160) * 160 + p.val % 160 = (ch.val * 160 + p.val / 160) * 160 + p.val % 160
        omega)]

/-- A [1, 1, 160, 160] block (channel, row, column) re-laid as [25600, 1] (location, channel): entry (p, ch) is the block's
    entry at channel `ch`, row `p / 160`, column `p % 160`. -/
theorem relaid1 (x : S1x1x160x160.Idx → α) (h1 : S1x1x160x160.ShapeCasts S1x160x160)
    (h2 : S1x160x160.Transposes [1, 2, 0] S160x160x1) (h3 : S160x160x1.ShapeCasts S25600x1) (p : Fin 25600) (ch : Fin 1) :
    shapeCast S25600x1 (transpose S160x160x1 [1, 2, 0] (shapeCast S1x160x160 x h1) h2) h3 (ix2 p ch)
      = x (ix4 0 ch (rowOf p) (colOf p)) := by
  have hp := p.isLt
  rw [shapeCast_apply _ h3 (ix2 p ch) (ix3 (rowOf p) (colOf p) ch) (by
        rw [Shape.rowMajor_val_three, Shape.rowMajor_val_two]
        show ((p.val / 160) * 160 + p.val % 160) * 1 + ch.val = p.val * 1 + ch.val
        omega),
      transpose_apply _ _ h2 _ (ix3 ch (rowOf p) (colOf p)) (by
        intro b; match b with | ⟨0, _⟩ => rfl | ⟨1, _⟩ => rfl | ⟨2, _⟩ => rfl),
      shapeCast_apply _ h1 _ (ix4 0 ch (rowOf p) (colOf p)) (by
        rw [Shape.rowMajor_val_four, Shape.rowMajor_val_three]
        show ((0 * 1 + ch.val) * 160 + p.val / 160) * 160 + p.val % 160 = (ch.val * 160 + p.val / 160) * 160 + p.val % 160
        omega)]

/-- The two coordinate planes stacked [2, 160, 160] and re-laid as [25600, 2]. -/
theorem relaidPair (x : S2x160x160.Idx → α) (h2 : S2x160x160.Transposes [1, 2, 0] S160x160x2) (h3 : S160x160x2.ShapeCasts S25600x2)
    (p : Fin 25600) (j : Fin 2) :
    shapeCast S25600x2 (transpose S160x160x2 [1, 2, 0] x h2) h3 (ix2 p j) = x (ix3 j (rowOf p) (colOf p)) := by
  have hp := p.isLt
  rw [shapeCast_apply _ h3 (ix2 p j) (ix3 (rowOf p) (colOf p) j) (by
        rw [Shape.rowMajor_val_three, Shape.rowMajor_val_two]
        show ((p.val / 160) * 160 + p.val % 160) * 2 + j.val = p.val * 2 + j.val
        omega),
      transpose_apply _ _ h2 _ (ix3 j (rowOf p) (colOf p)) (by
        intro b; match b with | ⟨0, _⟩ => rfl | ⟨1, _⟩ => rfl | ⟨2, _⟩ => rfl)]

end Layout

variable (x0 : Vec Ideal S1x80x160x160 .f32) (x1 : Vec Ideal S1x4x160x160 .f32) (x2 : Vec Ideal S1x1x160x160 .f32)

/-- The scores of a location, channel by channel. -/
theorem pay2_apply (p : Fin 25600) (ch : Fin 80) : k0_pay2 (F := Ideal) x0 (ix2 p ch) = x0 (ix4 0 ch (rowOf p) (colOf p)) := by
  unfold k0_pay2; exact relaid80 x0 _ _ _ p ch

/-- The centre-ness of a location. -/
theorem pay3_apply (p : Fin 25600) (q : Fin 1) : k0_pay3 (F := Ideal) x2 (ix2 p q) = x2 (ix4 0 q (rowOf p) (colOf p)) := by
  unfold k0_pay3; exact relaid1 x2 _ _ _ p q

/-- The lane maximum over a location's 80 scores is the greatest class score. -/
theorem top_apply (h : S25600x80.Reduces [1] S25600) (hφ : FKind.Formats .f32) (hacc : (0xFF800000#32 : BitVec 32) = FKind.maximumf.neutral .f32 hφ)
    (p : Fin 25600) :
    multiReduction .maximumf [1] S25600 (k0_pay2 (F := Ideal) x0) 0xFF800000#32 h hφ hacc (ix1 p) = top (B := 1) x0 0 p := by
  rw [Ideal.multiReduction_maximumf_single]
  unfold top
  refine Finset.fold_congr (fun ch _ => ?_)
  show k0_pay2 x0 (h.lift (ix1 p) ch) = _
  have e : h.lift (ix1 p) ch = ix2 p ch := funext fun a => Fin.ext (by match a with | ⟨0, _⟩ => rfl | ⟨1, _⟩ => rfl)
  rw [e]
  exact pay2_apply x0 p ch

/-- The mask of a location. -/
theorem pay4_apply (p : Fin 25600) (q : Fin 1) : k0_pay4 (F := Ideal) x0 (ix2 p q) = keep (B := 1) x0 0 p := by
  unfold k0_pay4
  try dsimp only
  rw [sitofp_apply, extui_apply, cmpf_apply, broadcast_apply,
    shapeCast_apply _ shapeCasts_S25600_S25600x1 (ix2 p q) (ix1 p) (by
      rw [Shape.rowMajor_val_one, Shape.rowMajor_val_two]
      show p.val = p.val * 1 + q.val
      have := q.isLt; omega)]
  have ht := top_apply x0 reduces_S25600x80_S25600 (.inl rfl) rfl p
  refine (congrArg (fun v : EReal => (((BitVec.setWidth 32 (Ideal.cmp .ogt v (Ideal.ofBits .f32 0x3F000000#32))).toInt : ℝ) : EReal)) ht).trans ?_
  unfold keep
  exact congrArg (fun r : ℝ => (r : EReal)) (Cert.Lib.toInt_setWidth_bit _)

/-- A mask column broadcast along the channels reads the location's mask. -/
theorem maskRow (C : Nat) (hb : S25600x1.Broadcasts (⟨2, ![25600, C]⟩ : Shape)) (p : Fin 25600) (ch : Fin C) :
    broadcastTo (⟨2, ![25600, C]⟩ : Shape) (k0_pay4 (F := Ideal) x0) hb (ix2 p ch) = keep (B := 1) x0 0 p := by
  rw [broadcastTo_apply _ hb (ix2 p ch) (ix2 p 0) (by
      intro a; match a with
      | ⟨0, _⟩ => rfl
      | ⟨1, _⟩ => rfl)]
  exact pay4_apply x0 p 0

/-- The class scores of a location, masked. -/
theorem pay6_apply (p : Fin 25600) (ch : Fin 80) :
    k0_pay6 (F := Ideal) x0 (ix2 p ch) = x0 (ix4 0 ch (rowOf p) (colOf p)) * keep (B := 1) x0 0 p := by
  unfold k0_pay6
  try dsimp only
  rw [mulf_apply, pay2_apply]
  exact congrArg _ (maskRow x0 80 _ p ch)

/-- The box offsets of a location, masked. -/
theorem pay7_apply (p : Fin 25600) (q : Fin 4) :
    k0_pay7 (F := Ideal) x0 x1 (ix2 p q) = x1 (ix4 0 q (rowOf p) (colOf p)) * keep (B := 1) x0 0 p := by
  unfold k0_pay7
  try dsimp only
  rw [mulf_apply, relaid4 x1 _ _ _ p q]
  exact congrArg _ (maskRow x0 4 _ p q)

/-- The pixel centre of a location, masked. -/
theorem pay5_apply (p : Fin 25600) (j : Fin 2) :
    k0_pay5 (F := Ideal) x0 (ix2 p j) = centre p j * keep (B := 1) x0 0 p := by
  unfold k0_pay5
  try dsimp only
  rw [mulf_apply, relaidPair _ _ _ p j]
  refine congr (congrArg _ ?_) (maskRow x0 2 _ p j)
  have hr := (rowOf p).isLt
  have hc := (colOf p).isLt
  unfold centre
  have hj := j.isLt
  rcases Nat.lt_or_ge j.val 1 with hj0 | hj1
  · rw [concatenate_pair_apply_left (t := S2x160x160) (s₁ := S1x160x160) (s₂ := S1x160x160) (0 : Fin 3) _ _ concatenates_S1x160x160_S1x160x160_S2x160x160_d0 (ix3 j (rowOf p) (colOf p)) rfl
        (ix3 (0 : Fin 1) (rowOf p) (colOf p)) (fun b => by
          match b with
          | ⟨0, _⟩ => show 0 = j.val; omega
          | ⟨1, _⟩ => rfl
          | ⟨2, _⟩ => rfl),
      shapeCast_apply _ shapeCasts_S160x160_S1x160x160 _ (ix2 (rowOf p) (colOf p)) (by
        rw [Shape.rowMajor_val_two, Shape.rowMajor_val_three]
        show (rowOf p).val * 160 + (colOf p).val = (0 * 160 + (rowOf p).val) * 160 + (colOf p).val
        omega),
      addf_apply, mulf_apply, broadcast_apply, broadcast_apply, sitofp_apply, iota_single_apply]
    show (((BitVec.ofNat 32 (colOf p).val).toInt : ℝ) : EReal) * Ideal.ofBits .f32 0x41000000#32 + Ideal.ofBits .f32 0x40800000#32 = _
    rw [Cert.Lib.ofBits_8, Cert.Lib.ofBits_4, Cert.Lib.toInt_ofNat_small _ (by omega), if_pos (by omega), ← EReal.coe_mul, ← EReal.coe_add]
    push_cast
    rfl
  · rw [concatenate_pair_apply_right (t := S2x160x160) (s₁ := S1x160x160) (s₂ := S1x160x160) (0 : Fin 3) _ _ concatenates_S1x160x160_S1x160x160_S2x160x160_d0 (ix3 j (rowOf p) (colOf p)) rfl rfl
        (ix3 (0 : Fin 1) (rowOf p) (colOf p))
        (fun b hb => by
          match b with
          | ⟨0, _⟩ => exact absurd rfl hb
          | ⟨1, _⟩ => rfl
          | ⟨2, _⟩ => rfl) (by show 0 + 1 = j.val; omega),
      shapeCast_apply _ shapeCasts_S160x160_S1x160x160 _ (ix2 (rowOf p) (colOf p)) (by
        rw [Shape.rowMajor_val_two, Shape.rowMajor_val_three]
        show (rowOf p).val * 160 + (colOf p).val = (0 * 160 + (rowOf p).val) * 160 + (colOf p).val
        omega),
      addf_apply, mulf_apply, broadcast_apply, broadcast_apply, sitofp_apply, iota_single_apply]
    show (((BitVec.ofNat 32 (rowOf p).val).toInt : ℝ) : EReal) * Ideal.ofBits .f32 0x41000000#32 + Ideal.ofBits .f32 0x40800000#32 = _
    rw [Cert.Lib.ofBits_8, Cert.Lib.ofBits_4, Cert.Lib.toInt_ofNat_small _ (by omega), if_neg (by omega), ← EReal.coe_mul, ← EReal.coe_add]
    push_cast
    rfl

/-- The whole payload of a grid point is the level's function of the point's three blocks. -/
theorem pay_eq :
    k0_pay1 (F := Ideal) (k0_pay3 x2) (k0_pay4 x0) (k0_pay5 x0) (k0_pay6 x0) (k0_pay7 x0 x1) = out (B := 1) x0 x1 x2 := by
  funext i
  obtain ⟨a, p, j, rfl⟩ : ∃ (a : Fin 1) (p : Fin 25600) (j : Fin 87), i = ix3 a p j := ⟨i 0, i 1, i 2, eq_ix3 i⟩
  have ha : a = 0 := Subsingleton.elim _ _
  subst ha
  have hj := j.isLt
  unfold k0_pay1
  try dsimp only
  rw [shapeCast_apply _ shapeCasts_S25600x87_S1x25600x87 _ (ix2 p j) (by
      rw [Shape.rowMajor_val_two, Shape.rowMajor_val_three]
      show p.val * 87 + j.val = (0 * 25600 + p.val) * 87 + j.val
      omega)]
  by_cases h : j.val < 2
  · rw [out_apply, entry_centre _ _ _ _ _ _ h,
      concatenate_apply_piece (1 : Fin 2) _ _ (ix2 p j) 0 (by show (0 : ℕ) < 4; omega) S25600x2 _ rfl rfl 0 rfl (ix2 p ⟨j.val, h⟩)
        (fun b hb => by match b with
          | ⟨0, _⟩ => rfl
          | ⟨1, _⟩ => exact absurd rfl hb) (by show 0 + j.val = j.val; omega)]
    exact pay5_apply x0 p ⟨j.val, h⟩
  · by_cases h2 : j.val < 82
    · rw [out_apply, entry_cls _ _ _ _ _ _ h h2,
        concatenate_apply_piece (1 : Fin 2) _ _ (ix2 p j) 1 (by show (1 : ℕ) < 4; omega) S25600x80 _ rfl rfl 2 rfl (ix2 p ⟨j.val - 2, by omega⟩)
          (fun b hb => by match b with
            | ⟨0, _⟩ => rfl
            | ⟨1, _⟩ => exact absurd rfl hb) (by show 2 + (j.val - 2) = j.val; omega)]
      exact pay6_apply x0 p ⟨j.val - 2, by omega⟩
    · by_cases h3 : j.val < 86
      · rw [out_apply, entry_bbox _ _ _ _ _ _ h h2 h3,
          concatenate_apply_piece (1 : Fin 2) _ _ (ix2 p j) 2 (by show (2 : ℕ) < 4; omega) S25600x4 _ rfl rfl 82 rfl (ix2 p ⟨j.val - 82, by omega⟩)
            (fun b hb => by match b with
              | ⟨0, _⟩ => rfl
              | ⟨1, _⟩ => exact absurd rfl hb) (by show 82 + (j.val - 82) = j.val; omega)]
        exact pay7_apply x0 x1 p ⟨j.val - 82, by omega⟩
      · rw [out_apply, entry_ctr _ _ _ _ _ _ h h2 h3,
          concatenate_apply_piece (1 : Fin 2) _ _ (ix2 p j) 3 (by show (3 : ℕ) < 4; omega) S25600x1 _ rfl rfl 86 rfl (ix2 p ⟨0, by decide⟩)
            (fun b hb => by match b with
              | ⟨0, _⟩ => rfl
              | ⟨1, _⟩ => exact absurd rfl hb) (by show 86 + 0 = j.val; omega),
          mulf_apply, pay3_apply, pay4_apply]

end Cert.KernelIdeal.Level0

end
-- ==== Proof.Level0KernelArr.lean ====
/-
  Level 0's result array after the kernel's run.

  The grid has one point per image; point `t` reads image `t`'s blocks of the three argument arrays (each window's
  block index is (t, 0, 0, 0)) and writes block (t, 0, 0) of the result.  What it writes is the level's function of
  its blocks, which is image `t` of the level's function of the whole arrays; the eight blocks fill the result
  array, so the array ends as the level's function of the three launch arrays.
-/
import proofs.«149197_j15719580303963_2_alg».proof.Proof.KernelRun
import proofs.«149197_j15719580303963_2_alg».proof.Proof.Level0KernelPay

set_option maxRecDepth 16384

noncomputable section

namespace Cert.KernelIdeal.Level0

open Cert.KernelIdeal Cert.KernelIdeal.Gen Cert.KernelIdeal.Levels Idealize.ShloMosaic Idealize.ShloMosaic.TcCoe Idealize.SL.Sem
open Idealize.ShloMosaic.ValueIdx Cert.Level0
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem idx_facts0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

theorem idx_facts1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

theorem idx_facts2 : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)

theorem idx_facts3 : ∀ t : Fin cfg0.N, win0_3.index t (0 : Fin 3) = t.val ∧ win0_3.index t (1 : Fin 3) = 0
    ∧ win0_3.index t (2 : Fin 3) = 0 :=
  (by decide +kernel : ∀ t : Fin grid0.N, _)

/-- Image `t`'s block of window 0 is image `t` of the launch array. -/
theorem block0 (c : Dev nD) (t : Fin cfg0.N) (b : Fin 8) (hb : b.val = t.val) (ch : Fin 80) (r : Fin 160) (q : Fin 160) :
    (iblk0 (V0 m ρ) c 0 t : S1x80x160x160.Idx → EReal) (ix4 0 ch r q)
      = (m ((c : Thread nD τ).loc main_arg0) : S8x80x160x160.Idx → EReal) (ix4 b ch r q) := by
  obtain ⟨e0, e1, e2, e3⟩ := idx_facts0 t
  unfold iblk0
  rw [View.read_apply]
  show V0 m ρ c main_arg0 _ = _
  rw [in0 m ρ c main_arg0 ]
  refine congrArg _ (funext fun a => Fin.ext ?_)
  match a with
  | ⟨0, _⟩ => show win0_0.index t (0 : Fin 4) * 1 + 1 * 0 = b.val; omega
  | ⟨1, _⟩ => show win0_0.index t (1 : Fin 4) * 80 + 1 * ch.val = ch.val; omega
  | ⟨2, _⟩ => show win0_0.index t (2 : Fin 4) * 160 + 1 * r.val = r.val; omega
  | ⟨3, _⟩ => show win0_0.index t (3 : Fin 4) * 160 + 1 * q.val = q.val; omega

/-- Image `t`'s block of window 1 is image `t` of the launch array. -/
theorem block1 (c : Dev nD) (t : Fin cfg0.N) (b : Fin 8) (hb : b.val = t.val) (ch : Fin 4) (r : Fin 160) (q : Fin 160) :
    (iblk0 (V0 m ρ) c 1 t : S1x4x160x160.Idx → EReal) (ix4 0 ch r q)
      = (m ((c : Thread nD τ).loc main_arg1) : S8x4x160x160.Idx → EReal) (ix4 b ch r q) := by
  obtain ⟨e0, e1, e2, e3⟩ := idx_facts1 t
  unfold iblk0
  rw [View.read_apply]
  show V0 m ρ c main_arg1 _ = _
  rw [in0 m ρ c main_arg1 ]
  refine congrArg _ (funext fun a => Fin.ext ?_)
  match a with
  | ⟨0, _⟩ => show win0_1.index t (0 : Fin 4) * 1 + 1 * 0 = b.val; omega
  | ⟨1, _⟩ => show win0_1.index t (1 : Fin 4) * 4 + 1 * ch.val = ch.val; omega
  | ⟨2, _⟩ => show win0_1.index t (2 : Fin 4) * 160 + 1 * r.val = r.val; omega
  | ⟨3, _⟩ => show win0_1.index t (3 : Fin 4) * 160 + 1 * q.val = q.val; omega

/-- Image `t`'s block of window 2 is image `t` of the launch array. -/
theorem block2 (c : Dev nD) (t : Fin cfg0.N) (b : Fin 8) (hb : b.val = t.val) (ch : Fin 1) (r : Fin 160) (q : Fin 160) :
    (iblk0 (V0 m ρ) c 2 t : S1x1x160x160.Idx → EReal) (ix4 0 ch r q)
      = (m ((c : Thread nD τ).loc main_arg2) : S8x1x160x160.Idx → EReal) (ix4 b ch r q) := by
  obtain ⟨e0, e1, e2, e3⟩ := idx_facts2 t
  unfold iblk0
  rw [View.read_apply]
  show V0 m ρ c main_arg2 _ = _
  rw [in0 m ρ c main_arg2 ]
  refine congrArg _ (funext fun a => Fin.ext ?_)
  match a with
  | ⟨0, _⟩ => show win0_2.index t (0 : Fin 4) * 1 + 1 * 0 = b.val; omega
  | ⟨1, _⟩ => show win0_2.index t (1 : Fin 4) * 1 + 1 * ch.val = ch.val; omega
  | ⟨2, _⟩ => show win0_2.index t (2 : Fin 4) * 160 + 1 * r.val = r.val; omega
  | ⟨3, _⟩ => show win0_2.index t (3 : Fin 4) * 160 + 1 * q.val = q.val; omega

/-- The level's function of the three launch arrays. -/
abbrev result (c : Dev nD) : S8x25600x87.Idx → EReal :=
  out (B := 8) (m ((c : Thread nD τ).loc main_arg0) : S8x80x160x160.Idx → EReal)
    (m ((c : Thread nD τ).loc main_arg1) : S8x4x160x160.Idx → EReal) (m ((c : Thread nD τ).loc main_arg2) : S8x1x160x160.Idx → EReal)

/-- What point `t` writes back is block `t` of `result`. -/
theorem flushed_eq (c : Dev nD) (t : Fin cfg0.N) :
    (dat0 (V0 m ρ) c).flushed 3 t = ((cfg0.win 3).blk t).view.read (Elt Ideal) (result m c) := by
  show (cfg0.win 3).cut (grid0.coords t) ((dat0 (V0 m ρ) c).after 3 t) = _
  rw [after0_3]
  unfold out0_3
  rw [View.canon_unit_zero hz3]
  simp only [View.ld_unit_zero (S := S1x80x160x160) hz4, View.ld_unit_zero (S := S1x4x160x160) hz4, View.ld_unit_zero (S := S1x1x160x160) hz4]
  rw [pay_eq]
  funext y
  obtain ⟨a, p, j, rfl⟩ : ∃ (a : Fin 1) (p : Fin 25600) (j : Fin 87), y = ix3 a p j := ⟨y 0, y 1, y 2, eq_ix3 y⟩
  have ha : a = 0 := Subsingleton.elim _ _
  subst ha
  have ht : t.val < 8 := by have h1 := t.isLt; have h2 : cfg0.N = 8 := N_0; omega
  obtain ⟨e0, e1, e2⟩ := idx_facts3 t
  have hemb : ((cfg0.win 3).blk t).view.emb (ix3 (0 : Fin 1) p j) = (ix3 (⟨t.val, ht⟩ : Fin 8) p j : S8x25600x87.Idx) := by
    funext a; apply Fin.ext
    match a with
    | ⟨0, _⟩ => show win0_3.index t (0 : Fin 3) * 1 + 1 * 0 = t.val; omega
    | ⟨1, _⟩ => show win0_3.index t (1 : Fin 3) * 25600 + 1 * p.val = p.val; omega
    | ⟨2, _⟩ => show win0_3.index t (2 : Fin 3) * 87 + 1 * j.val = j.val; omega
  show out (B := 1) _ _ _ (ix3 0 p j) = result m c (((cfg0.win 3).blk t).view.emb (ix3 (0 : Fin 1) p j))
  rw [hemb]
  show entry (B := 1) _ _ _ 0 p j = entry (B := 8) _ _ _ ⟨t.val, ht⟩ p j
  exact entry_member _ _ _ _ _ _ 0 ⟨t.val, ht⟩ (fun ch r q => block0 m ρ c t ⟨t.val, ht⟩ rfl ch r q)
    (fun ch r q => block1 m ρ c t ⟨t.val, ht⟩ rfl ch r q) (fun ch r q => block2 m ρ c t ⟨t.val, ht⟩ rfl ch r q) p j

/-- An index of the result array whose image is `t` lies in point `t`'s block. -/
theorem mem_blk (t : Fin cfg0.N) (i : S8x25600x87.Idx) (h0 : (i 0).val = t.val) : i ∈ ((cfg0.win 3).blk t).view.set := by
  obtain ⟨e0, e1, e2⟩ := idx_facts3 t
  have hi1 : (i 1).val < 25600 := (i 1).isLt
  have hi2 : (i 2).val < 87 := (i 2).isLt
  show i ∈ ((View.whole main_v0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 25600 ≤ (i 1).val ∧ (i 1).val < win0_3.index t (1 : Fin 3) * 25600 + 25600; omega
  | ⟨2, _⟩ => show win0_3.index t (2 : Fin 3) * 87 ≤ (i 2).val ∧ (i 2).val < win0_3.index t (2 : Fin 3) * 87 + 87; omega

/-- The result array after the run. -/
theorem final (c : Dev nD) : (dat0 (V0 m ρ) c).arrAt 3 cfg0.N = result m c :=
  (dat0 (V0 m ρ) c).arrAt_eq_of_cover 3 (result m c) (fun t _ => flushed_eq m ρ c t) fun i =>
    have hi0 : ((i : S8x25600x87.Idx) 0).val < 8 := ((i : S8x25600x87.Idx) 0).isLt
    have hN : cfg0.N = 8 := N_0
    ⟨⟨((i : S8x25600x87.Idx) 0).val, by omega⟩, flush0_3 _, mem_blk _ i rfl⟩

/-- Level 0's result buffer at the end of the whole program. -/
theorem result_eq (c : Dev nD) : W5 m ρ c (Proc.devRef .tc main_v0) = result m c :=
  (res0 m ρ c).trans (final m ρ c)

end Cert.KernelIdeal.Level0

end
-- ==== Proof.Level0Ref.lean ====
/-
  Level 0 of the reference, entry by entry: the host program's composed term for its result is the level's function
  (`Cert.Level0.out`) of the three argument arrays, read as stacks of eight images.
-/
import proofs.«149197_j15719580303963_2_alg».proof.Proof.Gen.ReferenceIdeal.Run
import proofs.«149197_j15719580303963_2_alg».proof.Proof.LibMaskCentre
import proofs.«149197_j15719580303963_2_alg».proof.Proof.Level0Spec
import Idealize.ShloMosaic.Lib.Pipeline.Value
import Idealize.ShloMosaic.Lib.ValueIdx
import Idealize.ShloMosaic.PureOps.Ideal.Laws

set_option maxRecDepth 16384

noncomputable section

namespace Cert.ReferenceIdeal.Level0

open Cert.ReferenceIdeal Cert.ReferenceIdeal.Value Idealize.ShloMosaic Idealize.ShloMosaic.TcCoe Idealize.ShloMosaic.StableHlo
open Idealize.ShloMosaic.ValueIdx Cert.Level0
open Cert.ReferenceIdeal.Facts₀ Cert.ReferenceIdeal.Facts

section Layout
variable {α : Type}

/-- A stack [8, 80, 160, 160] (image, channel, row, column) re-laid as [8, 25600, 80] (image, location, channel). -/
theorem relaid80 (x : S8x80x160x160.Idx → α) (h2 : S8x80x160x160.Transposes [0, 2, 3, 1] S8x160x160x80)
    (h3 : S8x160x160x80.ShapeCasts S8x25600x80) (b : Fin 8) (p : Fin 25600) (ch : Fin 80) :
    shapeCast S8x25600x80 (transpose S8x160x160x80 [0, 2, 3, 1] x h2) h3 (ix3 b p ch) = x (ix4 b ch (rowOf p) (colOf p)) := by
  have hp := p.isLt
  rw [shapeCast_apply _ h3 (ix3 b p ch) (ix4 b (rowOf p) (colOf p) ch) (by
        rw [Shape.rowMajor_val_four, Shape.rowMajor_val_three]
        show ((b.val * 160 + p.val / 160) * 160 + p.val % 160) * 80 + ch.val = (b.val * 25600 + p.val) * 80 + ch.val
        omega),
      transpose_apply _ _ h2 _ (ix4 b ch (rowOf p) (colOf p)) (by
        intro a; match a with | ⟨0, _⟩ => rfl | ⟨1, _⟩ => rfl | ⟨2, _⟩ => rfl | ⟨3, _⟩ => rfl)]

/-- A stack [8, 4, 160, 160] (image, channel, row, column) re-laid as [8, 25600, 4] (image, location, channel). -/
theorem relaid4 (x : S8x4x160x160.Idx → α) (h2 : S8x4x160x160.Transposes [0, 2, 3, 1] S8x160x160x4)
    (h3 : S8x160x160x4.ShapeCasts S8x25600x4) (b : Fin 8) (p : Fin 25600) (ch : Fin 4) :
    shapeCast S8x25600x4 (transpose S8x160x160x4 [0, 2, 3, 1] x h2) h3 (ix3 b p ch) = x (ix4 b ch (rowOf p) (colOf p)) := by
  have hp := p.isLt
  rw [shapeCast_apply _ h3 (ix3 b p ch) (ix4 b (rowOf p) (colOf p) ch) (by
        rw [Shape.rowMajor_val_four, Shape.rowMajor_val_three]
        show ((b.val * 160 + p.val / 160) * 160 + p.val % 160) * 4 + ch.val = (b.val * 25600 + p.val) * 4 + ch.val
        omega),
      transpose_apply _ _ h2 _ (ix4 b ch (rowOf p) (colOf p)) (by
        intro a; match a with | ⟨0, _⟩ => rfl | ⟨1, _⟩ => rfl | ⟨2, _⟩ => rfl | ⟨3, _⟩ => rfl)]

/-- A stack [8, 1, 160, 160] (image, channel, row, column) re-laid as [8, 25600, 1] (image, location, channel). -/
theorem relaid1 (x : S8x1x160x160.Idx → α) (h2 : S8x1x160x160.Transposes [0, 2, 3, 1] S8x160x160x1)
    (h3 : S8x160x160x1.ShapeCasts S8x25600x1) (b : Fin 8) (p : Fin 25600) (ch : Fin 1) :
    shapeCast S8x25600x1 (transpose S8x160x160x1 [0, 2, 3, 1] x h2) h3 (ix3 b p ch) = x (ix4 b ch (rowOf p) (colOf p)) := by
  have hp := p.isLt
  rw [shapeCast_apply _ h3 (ix3 b p ch) (ix4 b (rowOf p) (colOf p) ch) (by
        rw [Shape.rowMajor_val_four, Shape.rowMajor_val_three]
        show ((b.val * 160 + p.val / 160) * 160 + p.val % 160) * 1 + ch.val = (b.val * 25600 + p.val) * 1 + ch.val
        omega),
      transpose_apply _ _ h2 _ (ix4 b ch (rowOf p) (colOf p)) (by
        intro a; match a with | ⟨0, _⟩ => rfl | ⟨1, _⟩ => rfl | ⟨2, _⟩ => rfl | ⟨3, _⟩ => rfl)]

end Layout

/-- An unsigned integer-to-float conversion of a vector, read at an index. -/
theorem uitofp_at {s : Shape} {w : Nat} (x : IVec s w) (i : s.Idx) :
    (uitofp .f32 x : FVec Ideal s .f32) i = FloatOps.uitofp (F := Ideal) .f32 (x i) := rfl

variable (V0 : Valuation τ sig (Elt Ideal))

/-- The scores of a location, channel by channel. -/
theorem scores_apply (b : Fin 8) (p : Fin 25600) (ch : Fin 80) :
    (res_main_v1 V0 : S8x25600x80.Idx → EReal) (ix3 b p ch)
      = (V0 (Proc.devRef .tc main_arg0) : S8x80x160x160.Idx → EReal) (ix4 b ch (rowOf p) (colOf p)) := by
  unfold res_main_v1
  exact relaid80 _ _ _ b p ch

/-- The host's maximum over a location's 80 scores is the greatest class score. -/
theorem top_apply (b : Fin 8) (p : Fin 25600) :
    Host.reduce FloatOps.maximumf (res_main_v1 V0) (constant S_ .f32 0xFF800000#32) reducesTo_S8x25600x80_S8x25600_d2 h_S_ (ix2 b p)
      = top (B := 8) (V0 (Proc.devRef .tc main_arg0) : S8x80x160x160.Idx → EReal) b p := by
  have hR : S8x25600x80.Reduces [2] S8x25600 := by decide
  rw [Host.reduce_eq_fold_single FloatOps.maximumf _ _ reducesTo_S8x25600x80_S8x25600_d2 hR h_S_ (ix2 b p)]
  unfold top
  refine Finset.fold_congr (fun ch _ => ?_)
  show (res_main_v1 V0 : S8x25600x80.Idx → EReal) (hR.lift (ix2 b p) ch) = _
  have e : hR.lift (ix2 b p) ch = ix3 b p ch := funext fun a => Fin.ext (by match a with | ⟨0, _⟩ => rfl | ⟨1, _⟩ => rfl | ⟨2, _⟩ => rfl)
  rw [e]
  exact scores_apply V0 b p ch

/-- The mask of a location. -/
theorem mask_apply (b : Fin 8) (p : Fin 25600) (q : Fin 1) :
    (res_main_v10 V0 : S8x25600x1.Idx → EReal) (ix3 b p q) = keep (B := 8) (V0 (Proc.devRef .tc main_arg0) : S8x80x160x160.Idx → EReal) b p := by
  unfold res_main_v10
  rw [uitofp_at, broadcastInDim_apply ![0, 1] bcast_S8x25600_S8x25600x1_0_1 _ (ix3 b p q) (ix2 b p) (by
      intro a; match a with | ⟨0, _⟩ => rfl | ⟨1, _⟩ => rfl),
    cmpf_apply,
    broadcastInDim_apply ![] bcast_S_S8x25600 _ (ix2 b p) ix0 (fun a => a.elim0)]
  refine (congrArg (fun v : EReal => ((((Ideal.cmp .ogt v (Ideal.ofBits .f32 0x3F000000#32)).toNat : ℕ) : ℝ) : EReal)) (top_apply V0 b p)).trans ?_
  rfl

/-- The mask column broadcast along the channels reads the location's mask. -/
theorem maskRow (C : Nat) (hb : S8x25600x1.BroadcastsInDim (⟨3, ![8, 25600, C]⟩ : Shape) ![0, 1, 2]) (b : Fin 8) (p : Fin 25600) (ch : Fin C) :
    broadcastInDim (⟨3, ![8, 25600, C]⟩ : Shape) ![0, 1, 2] hb (res_main_v10 V0 : S8x25600x1.Idx → EReal) (ix3 b p ch)
      = keep (B := 8) (V0 (Proc.devRef .tc main_arg0) : S8x80x160x160.Idx → EReal) b p := by
  rw [broadcastInDim_apply ![0, 1, 2] hb _ (ix3 b p ch) (ix3 b p 0) (by
      intro a; match a with | ⟨0, _⟩ => rfl | ⟨1, _⟩ => rfl | ⟨2, _⟩ => rfl)]
  exact mask_apply V0 b p 0

/-- The integer pixel centres, stacked on the last axis, flattened and converted: the centre of a location. -/
theorem centre_apply (X Y : IVec S160x160 32)
    (hX : ∀ (r q : Fin 160), X (ix2 r q) = BitVec.ofNat 32 q.val * BitVec.ofNat 32 8 + BitVec.ofNat 32 4)
    (hY : ∀ (r q : Fin 160), Y (ix2 r q) = BitVec.ofNat 32 r.val * BitVec.ofNat 32 8 + BitVec.ofNat 32 4)
    (b : Fin 8) (p : Fin 25600) (j : Fin 2) :
    broadcastInDim S8x25600x2 ![1, 2] bcast_S25600x2_S8x25600x2_1_2 (sitofp (F := Ideal) .f32 (shapeCast S25600x2 (concatenate S160x160x2 2
        [⟨S160x160x1, broadcastInDim S160x160x1 ![0, 1] bcast_S160x160_S160x160x1_0_1 X⟩, ⟨S160x160x1, broadcastInDim S160x160x1 ![0, 1] bcast_S160x160_S160x160x1_0_1 Y⟩]
        concatenates_S160x160x1_S160x160x1_S160x160x2_d2) shapeCasts_S160x160x2_S25600x2)) (ix3 b p j) = centre p j := by
  have hp := p.isLt
  have hj := j.isLt
  have hr := (rowOf p).isLt
  have hc := (colOf p).isLt
  rw [broadcastInDim_apply ![1, 2] bcast_S25600x2_S8x25600x2_1_2 _ (ix3 b p j) (ix2 p j) (by
      intro a; match a with | ⟨0, _⟩ => rfl | ⟨1, _⟩ => rfl),
    sitofp_apply,
    shapeCast_apply _ shapeCasts_S160x160x2_S25600x2 (ix2 p j) (ix3 (rowOf p) (colOf p) j) (by
      rw [Shape.rowMajor_val_three, Shape.rowMajor_val_two]
      show ((p.val / 160) * 160 + p.val % 160) * 2 + j.val = p.val * 2 + j.val
      omega)]
  unfold centre
  rcases Nat.lt_or_ge j.val 1 with hj0 | hj1
  · rw [concatenate_pair_apply_left (t := S160x160x2) (s₁ := S160x160x1) (s₂ := S160x160x1) (2 : Fin 3) _ _ concatenates_S160x160x1_S160x160x1_S160x160x2_d2
        (ix3 (rowOf p) (colOf p) j) rfl (ix3 (rowOf p) (colOf p) (0 : Fin 1)) (fun a => by
          match a with
          | ⟨0, _⟩ => rfl
          | ⟨1, _⟩ => rfl
          | ⟨2, _⟩ => show 0 = j.val; omega),
      broadcastInDim_apply ![0, 1] bcast_S160x160_S160x160x1_0_1 _ _ (ix2 (rowOf p) (colOf p)) (by
        intro a; match a with | ⟨0, _⟩ => rfl | ⟨1, _⟩ => rfl),
      hX]
    show ((((BitVec.ofNat 32 (colOf p).val * BitVec.ofNat 32 8 + BitVec.ofNat 32 4).toInt : ℤ) : ℝ) : EReal) = _
    rw [Cert.Lib.toInt_affine _ _ _ (by omega), if_pos (by omega)]
    push_cast
    rfl
  · rw [concatenate_pair_apply_right (t := S160x160x2) (s₁ := S160x160x1) (s₂ := S160x160x1) (2 : Fin 3) _ _ concatenates_S160x160x1_S160x160x1_S160x160x2_d2
        (ix3 (rowOf p) (colOf p) j) rfl rfl (ix3 (rowOf p) (colOf p) (0 : Fin 1)) (fun a ha => by
          match a with
          | ⟨0, _⟩ => rfl
          | ⟨1, _⟩ => rfl
          | ⟨2, _⟩ => exact absurd rfl ha) (by show 0 + 1 = j.val; omega),
      broadcastInDim_apply ![0, 1] bcast_S160x160_S160x160x1_0_1 _ _ (ix2 (rowOf p) (colOf p)) (by
        intro a; match a with | ⟨0, _⟩ => rfl | ⟨1, _⟩ => rfl),
      hY]
    show ((((BitVec.ofNat 32 (rowOf p).val * BitVec.ofNat 32 8 + BitVec.ofNat 32 4).toInt : ℤ) : ℝ) : EReal) = _
    rw [Cert.Lib.toInt_affine _ _ _ (by omega), if_neg (by omega)]
    push_cast
    rfl

/-- The reference's result for level 0 is the level's function of the three argument arrays. -/
theorem result_eq :
    val4 V0 (Proc.devRef .tc main_v36)
      = out (B := 8) (V0 (Proc.devRef .tc main_arg0) : S8x80x160x160.Idx → EReal)
          (V0 (Proc.devRef .tc main_arg1) : S8x4x160x160.Idx → EReal) (V0 (Proc.devRef .tc main_arg2) : S8x1x160x160.Idx → EReal) := by
  rw [val4_main_v36]
  funext i
  obtain ⟨b, p, j, rfl⟩ : ∃ (b : Fin 8) (p : Fin 25600) (j : Fin 87), i = ix3 b p j := ⟨i 0, i 1, i 2, eq_ix3 i⟩
  have hj := j.isLt
  rw [out_apply]
  by_cases h : j.val < 2
  · rw [entry_centre _ _ _ _ _ _ h,
      concatenate_apply_piece (2 : Fin 3) _ _ (ix3 b p j) 0 (by show (0 : ℕ) < 4; omega) S8x25600x2 _ rfl rfl 0 rfl (ix3 b p ⟨j.val, h⟩)
        (fun a ha => by match a with
          | ⟨0, _⟩ => rfl
          | ⟨1, _⟩ => rfl
          | ⟨2, _⟩ => exact absurd rfl ha) (by show 0 + j.val = j.val; omega),
      mulf_apply]
    refine congrArg₂ (fun u v : EReal => u * v) ?_ (maskRow V0 2 _ b p ⟨j.val, h⟩)
    exact centre_apply _ _ (fun r q => rfl) (fun r q => rfl) b p ⟨j.val, h⟩
  · by_cases h2 : j.val < 82
    · rw [entry_cls _ _ _ _ _ _ h h2,
        concatenate_apply_piece (2 : Fin 3) _ _ (ix3 b p j) 1 (by show (1 : ℕ) < 4; omega) S8x25600x80 _ rfl rfl 2 rfl (ix3 b p ⟨j.val - 2, by omega⟩)
          (fun a ha => by match a with
            | ⟨0, _⟩ => rfl
            | ⟨1, _⟩ => rfl
            | ⟨2, _⟩ => exact absurd rfl ha) (by show 2 + (j.val - 2) = j.val; omega),
        mulf_apply]
      exact congrArg₂ (fun u v : EReal => u * v) (scores_apply V0 b p ⟨j.val - 2, by omega⟩) (maskRow V0 80 _ b p ⟨j.val - 2, by omega⟩)
    · by_cases h3 : j.val < 86
      · rw [entry_bbox _ _ _ _ _ _ h h2 h3,
          concatenate_apply_piece (2 : Fin 3) _ _ (ix3 b p j) 2 (by show (2 : ℕ) < 4; omega) S8x25600x4 _ rfl rfl 82 rfl (ix3 b p ⟨j.val - 82, by omega⟩)
            (fun a ha => by match a with
              | ⟨0, _⟩ => rfl
              | ⟨1, _⟩ => rfl
              | ⟨2, _⟩ => exact absurd rfl ha) (by show 82 + (j.val - 82) = j.val; omega),
          mulf_apply]
        exact congrArg₂ (fun u v : EReal => u * v) (relaid4 _ _ _ b p ⟨j.val - 82, by omega⟩) (maskRow V0 4 _ b p ⟨j.val - 82, by omega⟩)
      · rw [entry_ctr _ _ _ _ _ _ h h2 h3,
          concatenate_apply_piece (2 : Fin 3) _ _ (ix3 b p j) 3 (by show (3 : ℕ) < 4; omega) S8x25600x1 _ rfl rfl 86 rfl (ix3 b p ⟨0, by decide⟩)
            (fun a ha => by match a with
              | ⟨0, _⟩ => rfl
              | ⟨1, _⟩ => rfl
              | ⟨2, _⟩ => exact absurd rfl ha) (by show 86 + 0 = j.val; omega),
          mulf_apply]
        exact congrArg₂ (fun u v : EReal => u * v) (relaid1 _ _ _ b p ⟨0, by decide⟩) (mask_apply V0 b p ⟨0, by decide⟩)

end Cert.ReferenceIdeal.Level0

end
-- ==== Proof.Level1Spec.lean ====
/-
  One pyramid level of the filter, as a function of its three arrays: class scores [B, 80, 80, 80], box offsets
  [B, 4, 80, 80] and centre-ness [B, 1, 80, 80] (image, channel, row, column).

  The result is [B, 6400, 87]: for image `b` and location `p` = row · 80 + column, the 87 entries are the pixel centre
  (x = column · 16 + 8, y = row · 16 + 8), the 80 class scores, the 4 box offsets and the centre-ness at that
  location, every one multiplied by the location's mask: 1 when the greatest of its 80 class scores (from −∞)
  exceeds one half, 0 otherwise.  Stated for any number `B` of images, so that one image's block and the whole
  stack of eight are the same function.
-/
import Idealize.ShloMosaic.PureOps.Ideal
import Idealize.ShloMosaic.Lib.ValueIdx

noncomputable section

namespace Cert.Level1

open Idealize.ShloMosaic Idealize.ShloMosaic.ValueIdx

/-- The row of a flattened location. -/
def rowOf (p : Fin 6400) : Fin 80 := ⟨p.val / 80, by have := p.isLt; omega⟩
/-- The column of a flattened location. -/
def colOf (p : Fin 6400) : Fin 80 := ⟨p.val % 80, Nat.mod_lt _ (by decide)⟩

variable {B : Nat}

/-- The greatest class score at a location, starting from −∞. -/
def top (cls : (⟨4, ![B, 80, 80, 80]⟩ : Shape).Idx → EReal) (b : Fin B) (p : Fin 6400) : EReal :=
  (Finset.univ : Finset (Fin 80)).fold max (Ideal.ofBits .f32 0xFF800000#32) fun ch => cls (ix4 b ch (rowOf p) (colOf p))

/-- The mask of a location: 1 when its greatest class score exceeds one half, else 0. -/
def keep (cls : (⟨4, ![B, 80, 80, 80]⟩ : Shape).Idx → EReal) (b : Fin B) (p : Fin 6400) : EReal :=
  ((((Ideal.cmp .ogt (top cls b p) (Ideal.ofBits .f32 0x3F000000#32)).toNat : ℕ) : ℝ) : EReal)

/-- The pixel centre of a location: x (entry 0) from the column, y (entry 1) from the row. -/
def centre (p : Fin 6400) (j : Fin 2) : EReal :=
  if j.val = 0 then ((((colOf p).val * 16 + 8 : ℕ) : ℝ) : EReal) else ((((rowOf p).val * 16 + 8 : ℕ) : ℝ) : EReal)

/-- One entry of the level's result: image `a`, location `p`, entry `j` of the 87. -/
def entry (cls : (⟨4, ![B, 80, 80, 80]⟩ : Shape).Idx → EReal) (bbox : (⟨4, ![B, 4, 80, 80]⟩ : Shape).Idx → EReal)
    (ctr : (⟨4, ![B, 1, 80, 80]⟩ : Shape).Idx → EReal) (a : Fin B) (p : Fin 6400) (j : Fin 87) : EReal :=
  (if h : j.val < 2 then centre p ⟨j.val, h⟩
   else if h2 : j.val < 82 then cls (ix4 a ⟨j.val - 2, by omega⟩ (rowOf p) (colOf p))
   else if h3 : j.val < 86 then bbox (ix4 a ⟨j.val - 82, by omega⟩ (rowOf p) (colOf p))
   else ctr (ix4 a ⟨0, by decide⟩ (rowOf p) (colOf p))) * keep cls a p

/-- The level's result. -/
def out (cls : (⟨4, ![B, 80, 80, 80]⟩ : Shape).Idx → EReal) (bbox : (⟨4, ![B, 4, 80, 80]⟩ : Shape).Idx → EReal)
    (ctr : (⟨4, ![B, 1, 80, 80]⟩ : Shape).Idx → EReal) : (⟨3, ![B, 6400, 87]⟩ : Shape).Idx → EReal := fun i =>
  entry cls bbox ctr (i 0) (i 1) (i 2)

section Read
variable (cls : (⟨4, ![B, 80, 80, 80]⟩ : Shape).Idx → EReal) (bbox : (⟨4, ![B, 4, 80, 80]⟩ : Shape).Idx → EReal)
  (ctr : (⟨4, ![B, 1, 80, 80]⟩ : Shape).Idx → EReal) (a : Fin B) (p : Fin 6400) (j : Fin 87)

theorem out_apply : out cls bbox ctr (ix3 a p j) = entry cls bbox ctr a p j := rfl

/-- Entries 0 and 1: the centre, masked. -/
theorem entry_centre (h : j.val < 2) : entry cls bbox ctr a p j = centre p ⟨j.val, h⟩ * keep cls a p := by
  unfold entry; rw [dif_pos h]

/-- Entries 2 … 81: the class scores, masked. -/
theorem entry_cls (h : ¬ j.val < 2) (h2 : j.val < 82) :
    entry cls bbox ctr a p j = cls (ix4 a ⟨j.val - 2, by omega⟩ (rowOf p) (colOf p)) * keep cls a p := by
  unfold entry; rw [dif_neg h, dif_pos h2]

/-- Entries 82 … 85: the box offsets, masked. -/
theorem entry_bbox (h : ¬ j.val < 2) (h2 : ¬ j.val < 82) (h3 : j.val < 86) :
    entry cls bbox ctr a p j = bbox (ix4 a ⟨j.val - 82, by omega⟩ (rowOf p) (colOf p)) * keep cls a p := by
  unfold entry; rw [dif_neg h, dif_neg h2, dif_pos h3]

/-- Entry 86: the centre-ness, masked. -/
theorem entry_ctr (h : ¬ j.val < 2) (h2 : ¬ j.val < 82) (h3 : ¬ j.val < 86) :
    entry cls bbox ctr a p j = ctr (ix4 a ⟨0, by decide⟩ (rowOf p) (colOf p)) * keep cls a p := by
  unfold entry; rw [dif_neg h, dif_neg h2, dif_neg h3]

end Read

/-- An image's entries depend only on that image's slices of the three arrays: two stacks whose images `a` and `b`
    agree have the same entries there. -/
theorem entry_member {B' : Nat} (cls : (⟨4, ![B, 80, 80, 80]⟩ : Shape).Idx → EReal) (bbox : (⟨4, ![B, 4, 80, 80]⟩ : Shape).Idx → EReal)
    (ctr : (⟨4, ![B, 1, 80, 80]⟩ : Shape).Idx → EReal) (cls' : (⟨4, ![B', 80, 80, 80]⟩ : Shape).Idx → EReal)
    (bbox' : (⟨4, ![B', 4, 80, 80]⟩ : Shape).Idx → EReal) (ctr' : (⟨4, ![B', 1, 80, 80]⟩ : Shape).Idx → EReal) (a : Fin B) (b : Fin B')
    (h0 : ∀ ch r c, cls (ix4 a ch r c) = cls' (ix4 b ch r c)) (h1 : ∀ ch r c, bbox (ix4 a ch r c) = bbox' (ix4 b ch r c))
    (h2 : ∀ ch r c, ctr (ix4 a ch r c) = ctr' (ix4 b ch r c)) (p : Fin 6400) (j : Fin 87) :
    entry cls bbox ctr a p j = entry cls' bbox' ctr' b p j := by
  have hk : keep cls a p = keep cls' b p := by
    unfold keep top
    simp only [h0]
  unfold entry
  rw [hk]
  simp only [h0, h1, h2]

end Cert.Level1

end
-- ==== Proof.Level1KernelPay.lean ====
import proofs.«149197_j15719580303963_2_alg».proof.Proof.Gen.KernelIdeal.Skeleton
import proofs.«149197_j15719580303963_2_alg».proof.Proof.LibMaskCentre
import proofs.«149197_j15719580303963_2_alg».proof.Proof.Level1Spec
import Idealize.ShloMosaic.Lib.Pipeline.Value
import Idealize.ShloMosaic.Lib.ValueIdx
import Idealize.ShloMosaic.PureOps.Ideal.Laws

set_option maxRecDepth 16384

noncomputable section

namespace Cert.KernelIdeal.Level1

open Cert.KernelIdeal Cert.KernelIdeal.Gen Idealize.ShloMosaic Idealize.ShloMosaic.ValueIdx Cert.Level1

/-!
  What one grid point of level 1's kernel stores, entry by entry: the body's payload on the blocks of one image is
  the level's function (`Cert.Level1.out`) of those blocks, read as stacks of one image.
-/

section Layout
variable {α : Type}

/-- A [1, 80, 80, 80] block (channel, row, column) re-laid as [6400, 80] (location, channel): entry (p, ch) is the block's
    entry at channel `ch`, row `p / 80`, column `p % 80`. -/
theorem relaid80 (x : S1x80x80x80.Idx → α) (h1 : S1x80x80x80.ShapeCasts S80x80x80)
    (h2 : S80x80x80.Transposes [1, 2, 0] S80x80x80) (h3 : S80x80x80.ShapeCasts S6400x80) (p : Fin 6400) (ch : Fin 80) :
    shapeCast S6400x80 (transpose S80x80x80 [1, 2, 0] (shapeCast S80x80x80 x h1) h2) h3 (ix2 p ch)
      = x (ix4 0 ch (rowOf p) (colOf p)) := by
  have hp := p.isLt
  rw [shapeCast_apply _ h3 (ix2 p ch) (ix3 (rowOf p) (colOf p) ch) (by
        rw [Shape.rowMajor_val_three, Shape.rowMajor_val_two]
        show ((p.val / 80) * 80 + p.val % 80) * 80 + ch.val = p.val * 80 + ch.val
        omega),
      transpose_apply _ _ h2 _ (ix3 ch (rowOf p) (colOf p)) (by
        intro b; match b with | ⟨0, _⟩ => rfl | ⟨1, _⟩ => rfl | ⟨2, _⟩ => rfl),
      shapeCast_apply _ h1 _ (ix4 0 ch (rowOf p) (colOf p)) (by
        rw [Shape.rowMajor_val_four, Shape.rowMajor_val_three]
        show ((0 * 80 + ch.val) * 80 + p.val / 80) * 80 + p.val % 80 = (ch.val * 80 + p.val / 80) * 80 + p.val % 80
        omega)]

/-- A [1, 4, 80, 80] block (channel, row, column) re-laid as [6400, 4] (location, channel): entry (p, ch) is the block's
    entry at channel `ch`, row `p / 80`, column `p % 80`. -/
theorem relaid4 (x : S1x4x80x80.Idx → α) (h1 : S1x4x80x80.ShapeCasts S4x80x80)
    (h2 : S4x80x80.Transposes [1, 2, 0] S80x80x4) (h3 : S80x80x4.ShapeCasts S6400x4) (p : Fin 6400) (ch : Fin 4) :
    shapeCast S6400x4 (transpose S80x80x4 [1, 2, 0] (shapeCast S4x80x80 x h1) h2) h3 (ix2 p ch)
      = x (ix4 0 ch (rowOf p) (colOf p)) := by
  have hp := p.isLt
  rw [shapeCast_apply _ h3 (ix2 p ch) (ix3 (rowOf p) (colOf p) ch) (by
        rw [Shape.rowMajor_val_three, Shape.rowMajor_val_two]
        show ((p.val / 80) * 80 + p.val % 80) * 4 + ch.val = p.val * 4 + ch.val
        omega),
      transpose_apply _ _ h2 _ (ix3 ch (rowOf p) (colOf p)) (by
        intro b; match b with | ⟨0, _⟩ => rfl | ⟨1, _⟩ => rfl | ⟨2, _⟩ => rfl),
      shapeCast_apply _ h1 _ (ix4 0 ch (rowOf p) (colOf p)) (by
        rw [Shape.rowMajor_val_four, Shape.rowMajor_val_three]
        show ((0 * 4 + ch.val) * 80 + p.val / 80) * 80 + p.val % 80 = (ch.val * 80 + p.val / 80) * 80 + p.val % 80
        omega)]

/-- A [1, 1, 80, 80] block (channel, row, column) re-laid as [6400, 1] (location, channel): entry (p, ch) is the block's
    entry at channel `ch`, row `p / 80`, column `p % 80`. -/
theorem relaid1 (x : S1x1x80x80.Idx → α) (h1 : S1x1x80x80.ShapeCasts S1x80x80)
    (h2 : S1x80x80.Transposes [1, 2, 0] S80x80x1) (h3 : S80x80x1.ShapeCasts S6400x1) (p : Fin 6400) (ch : Fin 1) :
    shapeCast S6400x1 (transpose S80x80x1 [1, 2, 0] (shapeCast S1x80x80 x h1) h2) h3 (ix2 p ch)
      = x (ix4 0 ch (rowOf p) (colOf p)) := by
  have hp := p.isLt
  rw [shapeCast_apply _ h3 (ix2 p ch) (ix3 (rowOf p) (colOf p) ch) (by
        rw [Shape.rowMajor_val_three, Shape.rowMajor_val_two]
        show ((p.val / 80) * 80 + p.val % 80) * 1 + ch.val = p.val * 1 + ch.val
        omega),
      transpose_apply _ _ h2 _ (ix3 ch (rowOf p) (colOf p)) (by
        intro b; match b with | ⟨0, _⟩ => rfl | ⟨1, _⟩ => rfl | ⟨2, _⟩ => rfl),
      shapeCast_apply _ h1 _ (ix4 0 ch (rowOf p) (colOf p)) (by
        rw [Shape.rowMajor_val_four, Shape.rowMajor_val_three]
        show ((0 * 1 + ch.val) * 80 + p.val / 80) * 80 + p.val % 80 = (ch.val * 80 + p.val / 80) * 80 + p.val % 80
        omega)]

/-- The two coordinate planes stacked [2, 80, 80] and re-laid as [6400, 2]. -/
theorem relaidPair (x : S2x80x80.Idx → α) (h2 : S2x80x80.Transposes [1, 2, 0] S80x80x2) (h3 : S80x80x2.ShapeCasts S6400x2)
    (p : Fin 6400) (j : Fin 2) :
    shapeCast S6400x2 (transpose S80x80x2 [1, 2, 0] x h2) h3 (ix2 p j) = x (ix3 j (rowOf p) (colOf p)) := by
  have hp := p.isLt
  rw [shapeCast_apply _ h3 (ix2 p j) (ix3 (rowOf p) (colOf p) j) (by
        rw [Shape.rowMajor_val_three, Shape.rowMajor_val_two]
        show ((p.val / 80) * 80 + p.val % 80) * 2 + j.val = p.val * 2 + j.val
        omega),
      transpose_apply _ _ h2 _ (ix3 j (rowOf p) (colOf p)) (by
        intro b; match b with | ⟨0, _⟩ => rfl | ⟨1, _⟩ => rfl | ⟨2, _⟩ => rfl)]

end Layout

variable (x0 : Vec Ideal S1x80x80x80 .f32) (x1 : Vec Ideal S1x4x80x80 .f32) (x2 : Vec Ideal S1x1x80x80 .f32)

/-- The scores of a location, channel by channel. -/
theorem pay2_apply (p : Fin 6400) (ch : Fin 80) : k1_pay2 (F := Ideal) x0 (ix2 p ch) = x0 (ix4 0 ch (rowOf p) (colOf p)) := by
  unfold k1_pay2; exact relaid80 x0 _ _ _ p ch

/-- The centre-ness of a location. -/
theorem pay3_apply (p : Fin 6400) (q : Fin 1) : k1_pay3 (F := Ideal) x2 (ix2 p q) = x2 (ix4 0 q (rowOf p) (colOf p)) := by
  unfold k1_pay3; exact relaid1 x2 _ _ _ p q

/-- The lane maximum over a location's 80 scores is the greatest class score. -/
theorem top_apply (h : S6400x80.Reduces [1] S6400) (hφ : FKind.Formats .f32) (hacc : (0xFF800000#32 : BitVec 32) = FKind.maximumf.neutral .f32 hφ)
    (p : Fin 6400) :
    multiReduction .maximumf [1] S6400 (k1_pay2 (F := Ideal) x0) 0xFF800000#32 h hφ hacc (ix1 p) = top (B := 1) x0 0 p := by
  rw [Ideal.multiReduction_maximumf_single]
  unfold top
  refine Finset.fold_congr (fun ch _ => ?_)
  show k1_pay2 x0 (h.lift (ix1 p) ch) = _
  have e : h.lift (ix1 p) ch = ix2 p ch := funext fun a => Fin.ext (by match a with | ⟨0, _⟩ => rfl | ⟨1, _⟩ => rfl)
  rw [e]
  exact pay2_apply x0 p ch

/-- The mask of a location. -/
theorem pay4_apply (p : Fin 6400) (q : Fin 1) : k1_pay4 (F := Ideal) x0 (ix2 p q) = keep (B := 1) x0 0 p := by
  unfold k1_pay4
  try dsimp only
  rw [sitofp_apply, extui_apply, cmpf_apply, broadcast_apply,
    shapeCast_apply _ shapeCasts_S6400_S6400x1 (ix2 p q) (ix1 p) (by
      rw [Shape.rowMajor_val_one, Shape.rowMajor_val_two]
      show p.val = p.val * 1 + q.val
      have := q.isLt; omega)]
  have ht := top_apply x0 reduces_S6400x80_S6400 (.inl rfl) rfl p
  refine (congrArg (fun v : EReal => (((BitVec.setWidth 32 (Ideal.cmp .ogt v (Ideal.ofBits .f32 0x3F000000#32))).toInt : ℝ) : EReal)) ht).trans ?_
  unfold keep
  exact congrArg (fun r : ℝ => (r : EReal)) (Cert.Lib.toInt_setWidth_bit _)

/-- A mask column broadcast along the channels reads the location's mask. -/
theorem maskRow (C : Nat) (hb : S6400x1.Broadcasts (⟨2, ![6400, C]⟩ : Shape)) (p : Fin 6400) (ch : Fin C) :
    broadcastTo (⟨2, ![6400, C]⟩ : Shape) (k1_pay4 (F := Ideal) x0) hb (ix2 p ch) = keep (B := 1) x0 0 p := by
  rw [broadcastTo_apply _ hb (ix2 p ch) (ix2 p 0) (by
      intro a; match a with
      | ⟨0, _⟩ => rfl
      | ⟨1, _⟩ => rfl)]
  exact pay4_apply x0 p 0

/-- The class scores of a location, masked. -/
theorem pay6_apply (p : Fin 6400) (ch : Fin 80) :
    k1_pay6 (F := Ideal) x0 (ix2 p ch) = x0 (ix4 0 ch (rowOf p) (colOf p)) * keep (B := 1) x0 0 p := by
  unfold k1_pay6
  try dsimp only
  rw [mulf_apply, pay2_apply]
  exact congrArg _ (maskRow x0 80 _ p ch)

/-- The box offsets of a location, masked. -/
theorem pay7_apply (p : Fin 6400) (q : Fin 4) :
    k1_pay7 (F := Ideal) x0 x1 (ix2 p q) = x1 (ix4 0 q (rowOf p) (colOf p)) * keep (B := 1) x0 0 p := by
  unfold k1_pay7
  try dsimp only
  rw [mulf_apply, relaid4 x1 _ _ _ p q]
  exact congrArg _ (maskRow x0 4 _ p q)

/-- The pixel centre of a location, masked. -/
theorem pay5_apply (p : Fin 6400) (j : Fin 2) :
    k1_pay5 (F := Ideal) x0 (ix2 p j) = centre p j * keep (B := 1) x0 0 p := by
  unfold k1_pay5
  try dsimp only
  rw [mulf_apply, relaidPair _ _ _ p j]
  refine congr (congrArg _ ?_) (maskRow x0 2 _ p j)
  have hr := (rowOf p).isLt
  have hc := (colOf p).isLt
  unfold centre
  have hj := j.isLt
  rcases Nat.lt_or_ge j.val 1 with hj0 | hj1
  · rw [concatenate_pair_apply_left (t := S2x80x80) (s₁ := S1x80x80) (s₂ := S1x80x80) (0 : Fin 3) _ _ concatenates_S1x80x80_S1x80x80_S2x80x80_d0 (ix3 j (rowOf p) (colOf p)) rfl
        (ix3 (0 : Fin 1) (rowOf p) (colOf p)) (fun b => by
          match b with
          | ⟨0, _⟩ => show 0 = j.val; omega
          | ⟨1, _⟩ => rfl
          | ⟨2, _⟩ => rfl),
      shapeCast_apply _ shapeCasts_S80x80_S1x80x80 _ (ix2 (rowOf p) (colOf p)) (by
        rw [Shape.rowMajor_val_two, Shape.rowMajor_val_three]
        show (rowOf p).val * 80 + (colOf p).val = (0 * 80 + (rowOf p).val) * 80 + (colOf p).val
        omega),
      addf_apply, mulf_apply, broadcast_apply, broadcast_apply, sitofp_apply, iota_single_apply]
    show (((BitVec.ofNat 32 (colOf p).val).toInt : ℝ) : EReal) * Ideal.ofBits .f32 0x41800000#32 + Ideal.ofBits .f32 0x41000000#32 = _
    rw [Cert.Lib.ofBits_16, Cert.Lib.ofBits_8, Cert.Lib.toInt_ofNat_small _ (by omega), if_pos (by omega), ← EReal.coe_mul, ← EReal.coe_add]
    push_cast
    rfl
  · rw [concatenate_pair_apply_right (t := S2x80x80) (s₁ := S1x80x80) (s₂ := S1x80x80) (0 : Fin 3) _ _ concatenates_S1x80x80_S1x80x80_S2x80x80_d0 (ix3 j (rowOf p) (colOf p)) rfl rfl
        (ix3 (0 : Fin 1) (rowOf p) (colOf p))
        (fun b hb => by
          match b with
          | ⟨0, _⟩ => exact absurd rfl hb
          | ⟨1, _⟩ => rfl
          | ⟨2, _⟩ => rfl) (by show 0 + 1 = j.val; omega),
      shapeCast_apply _ shapeCasts_S80x80_S1x80x80 _ (ix2 (rowOf p) (colOf p)) (by
        rw [Shape.rowMajor_val_two, Shape.rowMajor_val_three]
        show (rowOf p).val * 80 + (colOf p).val = (0 * 80 + (rowOf p).val) * 80 + (colOf p).val
        omega),
      addf_apply, mulf_apply, broadcast_apply, broadcast_apply, sitofp_apply, iota_single_apply]
    show (((BitVec.ofNat 32 (rowOf p).val).toInt : ℝ) : EReal) * Ideal.ofBits .f32 0x41800000#32 + Ideal.ofBits .f32 0x41000000#32 = _
    rw [Cert.Lib.ofBits_16, Cert.Lib.ofBits_8, Cert.Lib.toInt_ofNat_small _ (by omega), if_neg (by omega), ← EReal.coe_mul, ← EReal.coe_add]
    push_cast
    rfl

/-- The whole payload of a grid point is the level's function of the point's three blocks. -/
theorem pay_eq :
    k1_pay1 (F := Ideal) (k1_pay3 x2) (k1_pay4 x0) (k1_pay5 x0) (k1_pay6 x0) (k1_pay7 x0 x1) = out (B := 1) x0 x1 x2 := by
  funext i
  obtain ⟨a, p, j, rfl⟩ : ∃ (a : Fin 1) (p : Fin 6400) (j : Fin 87), i = ix3 a p j := ⟨i 0, i 1, i 2, eq_ix3 i⟩
  have ha : a = 0 := Subsingleton.elim _ _
  subst ha
  have hj := j.isLt
  unfold k1_pay1
  try dsimp only
  rw [shapeCast_apply _ shapeCasts_S6400x87_S1x6400x87 _ (ix2 p j) (by
      rw [Shape.rowMajor_val_two, Shape.rowMajor_val_three]
      show p.val * 87 + j.val = (0 * 6400 + p.val) * 87 + j.val
      omega)]
  by_cases h : j.val < 2
  · rw [out_apply, entry_centre _ _ _ _ _ _ h,
      concatenate_apply_piece (1 : Fin 2) _ _ (ix2 p j) 0 (by show (0 : ℕ) < 4; omega) S6400x2 _ rfl rfl 0 rfl (ix2 p ⟨j.val, h⟩)
        (fun b hb => by match b with
          | ⟨0, _⟩ => rfl
          | ⟨1, _⟩ => exact absurd rfl hb) (by show 0 + j.val = j.val; omega)]
    exact pay5_apply x0 p ⟨j.val, h⟩
  · by_cases h2 : j.val < 82
    · rw [out_apply, entry_cls _ _ _ _ _ _ h h2,
        concatenate_apply_piece (1 : Fin 2) _ _ (ix2 p j) 1 (by show (1 : ℕ) < 4; omega) S6400x80 _ rfl rfl 2 rfl (ix2 p ⟨j.val - 2, by omega⟩)
          (fun b hb => by match b with
            | ⟨0, _⟩ => rfl
            | ⟨1, _⟩ => exact absurd rfl hb) (by show 2 + (j.val - 2) = j.val; omega)]
      exact pay6_apply x0 p ⟨j.val - 2, by omega⟩
    · by_cases h3 : j.val < 86
      · rw [out_apply, entry_bbox _ _ _ _ _ _ h h2 h3,
          concatenate_apply_piece (1 : Fin 2) _ _ (ix2 p j) 2 (by show (2 : ℕ) < 4; omega) S6400x4 _ rfl rfl 82 rfl (ix2 p ⟨j.val - 82, by omega⟩)
            (fun b hb => by match b with
              | ⟨0, _⟩ => rfl
              | ⟨1, _⟩ => exact absurd rfl hb) (by show 82 + (j.val - 82) = j.val; omega)]
        exact pay7_apply x0 x1 p ⟨j.val - 82, by omega⟩
      · rw [out_apply, entry_ctr _ _ _ _ _ _ h h2 h3,
          concatenate_apply_piece (1 : Fin 2) _ _ (ix2 p j) 3 (by show (3 : ℕ) < 4; omega) S6400x1 _ rfl rfl 86 rfl (ix2 p ⟨0, by decide⟩)
            (fun b hb => by match b with
              | ⟨0, _⟩ => rfl
              | ⟨1, _⟩ => exact absurd rfl hb) (by show 86 + 0 = j.val; omega),
          mulf_apply, pay3_apply, pay4_apply]

end Cert.KernelIdeal.Level1

end
-- ==== Proof.Level1KernelArr.lean ====
/-
  Level 1's result array after the kernel's run.

  The grid has one point per image; point `t` reads image `t`'s blocks of the three argument arrays (each window's
  block index is (t, 0, 0, 0)) and writes block (t, 0, 0) of the result.  What it writes is the level's function of
  its blocks, which is image `t` of the level's function of the whole arrays; the eight blocks fill the result
  array, so the array ends as the level's function of the three launch arrays.
-/
import proofs.«149197_j15719580303963_2_alg».proof.Proof.KernelRun
import proofs.«149197_j15719580303963_2_alg».proof.Proof.Level1KernelPay

set_option maxRecDepth 16384

noncomputable section

namespace Cert.KernelIdeal.Level1

open Cert.KernelIdeal Cert.KernelIdeal.Gen Cert.KernelIdeal.Levels Idealize.ShloMosaic Idealize.ShloMosaic.TcCoe Idealize.SL.Sem
open Idealize.ShloMosaic.ValueIdx Cert.Level1
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem idx_facts0 : ∀ t : Fin cfg1.N, win1_0.index t (0 : Fin 4) = t.val ∧ win1_0.index t (1 : Fin 4) = 0
    ∧ win1_0.index t (2 : Fin 4) = 0 ∧ win1_0.index t (3 : Fin 4) = 0 :=
  (by decide +kernel : ∀ t : Fin grid1.N, _)

theorem idx_facts1 : ∀ t : Fin cfg1.N, win1_1.index t (0 : Fin 4) = t.val ∧ win1_1.index t (1 : Fin 4) = 0
    ∧ win1_1.index t (2 : Fin 4) = 0 ∧ win1_1.index t (3 : Fin 4) = 0 :=
  (by decide +kernel : ∀ t : Fin grid1.N, _)

theorem idx_facts2 : ∀ t : Fin cfg1.N, win1_2.index t (0 : Fin 4) = t.val ∧ win1_2.index t (1 : Fin 4) = 0
    ∧ win1_2.index t (2 : Fin 4) = 0 ∧ win1_2.index t (3 : Fin 4) = 0 :=
  (by decide +kernel : ∀ t : Fin grid1.N, _)

theorem idx_facts3 : ∀ t : Fin cfg1.N, win1_3.index t (0 : Fin 3) = t.val ∧ win1_3.index t (1 : Fin 3) = 0
    ∧ win1_3.index t (2 : Fin 3) = 0 :=
  (by decide +kernel : ∀ t : Fin grid1.N, _)

/-- Image `t`'s block of window 0 is image `t` of the launch array. -/
theorem block0 (c : Dev nD) (t : Fin cfg1.N) (b : Fin 8) (hb : b.val = t.val) (ch : Fin 80) (r : Fin 80) (q : Fin 80) :
    (iblk1 (V1 m ρ) c 0 t : S1x80x80x80.Idx → EReal) (ix4 0 ch r q)
      = (m ((c : Thread nD τ).loc main_arg3) : S8x80x80x80.Idx → EReal) (ix4 b ch r q) := by
  obtain ⟨e0, e1, e2, e3⟩ := idx_facts0 t
  unfold iblk1
  rw [View.read_apply]
  show V1 m ρ c main_arg3 _ = _
  rw [in1 m ρ c main_arg3 (by decide)]
  refine congrArg _ (funext fun a => Fin.ext ?_)
  match a with
  | ⟨0, _⟩ => show win1_0.index t (0 : Fin 4) * 1 + 1 * 0 = b.val; omega
  | ⟨1, _⟩ => show win1_0.index t (1 : Fin 4) * 80 + 1 * ch.val = ch.val; omega
  | ⟨2, _⟩ => show win1_0.index t (2 : Fin 4) * 80 + 1 * r.val = r.val; omega
  | ⟨3, _⟩ => show win1_0.index t (3 : Fin 4) * 80 + 1 * q.val = q.val; omega

/-- Image `t`'s block of window 1 is image `t` of the launch array. -/
theorem block1 (c : Dev nD) (t : Fin cfg1.N) (b : Fin 8) (hb : b.val = t.val) (ch : Fin 4) (r : Fin 80) (q : Fin 80) :
    (iblk1 (V1 m ρ) c 1 t : S1x4x80x80.Idx → EReal) (ix4 0 ch r q)
      = (m ((c : Thread nD τ).loc main_arg4) : S8x4x80x80.Idx → EReal) (ix4 b ch r q) := by
  obtain ⟨e0, e1, e2, e3⟩ := idx_facts1 t
  unfold iblk1
  rw [View.read_apply]
  show V1 m ρ c main_arg4 _ = _
  rw [in1 m ρ c main_arg4 (by decide)]
  refine congrArg _ (funext fun a => Fin.ext ?_)
  match a with
  | ⟨0, _⟩ => show win1_1.index t (0 : Fin 4) * 1 + 1 * 0 = b.val; omega
  | ⟨1, _⟩ => show win1_1.index t (1 : Fin 4) * 4 + 1 * ch.val = ch.val; omega
  | ⟨2, _⟩ => show win1_1.index t (2 : Fin 4) * 80 + 1 * r.val = r.val; omega
  | ⟨3, _⟩ => show win1_1.index t (3 : Fin 4) * 80 + 1 * q.val = q.val; omega

/-- Image `t`'s block of window 2 is image `t` of the launch array. -/
theorem block2 (c : Dev nD) (t : Fin cfg1.N) (b : Fin 8) (hb : b.val = t.val) (ch : Fin 1) (r : Fin 80) (q : Fin 80) :
    (iblk1 (V1 m ρ) c 2 t : S1x1x80x80.Idx → EReal) (ix4 0 ch r q)
      = (m ((c : Thread nD τ).loc main_arg5) : S8x1x80x80.Idx → EReal) (ix4 b ch r q) := by
  obtain ⟨e0, e1, e2, e3⟩ := idx_facts2 t
  unfold iblk1
  rw [View.read_apply]
  show V1 m ρ c main_arg5 _ = _
  rw [in1 m ρ c main_arg5 (by decide)]
  refine congrArg _ (funext fun a => Fin.ext ?_)
  match a with
  | ⟨0, _⟩ => show win1_2.index t (0 : Fin 4) * 1 + 1 * 0 = b.val; omega
  | ⟨1, _⟩ => show win1_2.index t (1 : Fin 4) * 1 + 1 * ch.val = ch.val; omega
  | ⟨2, _⟩ => show win1_2.index t (2 : Fin 4) * 80 + 1 * r.val = r.val; omega
  | ⟨3, _⟩ => show win1_2.index t (3 : Fin 4) * 80 + 1 * q.val = q.val; omega

/-- The level's function of the three launch arrays. -/
abbrev result (c : Dev nD) : S8x6400x87.Idx → EReal :=
  out (B := 8) (m ((c : Thread nD τ).loc main_arg3) : S8x80x80x80.Idx → EReal)
    (m ((c : Thread nD τ).loc main_arg4) : S8x4x80x80.Idx → EReal) (m ((c : Thread nD τ).loc main_arg5) : S8x1x80x80.Idx → EReal)

/-- What point `t` writes back is block `t` of `result`. -/
theorem flushed_eq (c : Dev nD) (t : Fin cfg1.N) :
    (dat1 (V1 m ρ) c).flushed 3 t = ((cfg1.win 3).blk t).view.read (Elt Ideal) (result m c) := by
  show (cfg1.win 3).cut (grid1.coords t) ((dat1 (V1 m ρ) c).after 3 t) = _
  rw [after1_3]
  unfold out1_3
  rw [View.canon_unit_zero hz3]
  simp only [View.ld_unit_zero (S := S1x80x80x80) hz4, View.ld_unit_zero (S := S1x4x80x80) hz4, View.ld_unit_zero (S := S1x1x80x80) hz4]
  rw [pay_eq]
  funext y
  obtain ⟨a, p, j, rfl⟩ : ∃ (a : Fin 1) (p : Fin 6400) (j : Fin 87), y = ix3 a p j := ⟨y 0, y 1, y 2, eq_ix3 y⟩
  have ha : a = 0 := Subsingleton.elim _ _
  subst ha
  have ht : t.val < 8 := by have h1 := t.isLt; have h2 : cfg1.N = 8 := N_1; omega
  obtain ⟨e0, e1, e2⟩ := idx_facts3 t
  have hemb : ((cfg1.win 3).blk t).view.emb (ix3 (0 : Fin 1) p j) = (ix3 (⟨t.val, ht⟩ : Fin 8) p j : S8x6400x87.Idx) := by
    funext a; apply Fin.ext
    match a with
    | ⟨0, _⟩ => show win1_3.index t (0 : Fin 3) * 1 + 1 * 0 = t.val; omega
    | ⟨1, _⟩ => show win1_3.index t (1 : Fin 3) * 6400 + 1 * p.val = p.val; omega
    | ⟨2, _⟩ => show win1_3.index t (2 : Fin 3) * 87 + 1 * j.val = j.val; omega
  show out (B := 1) _ _ _ (ix3 0 p j) = result m c (((cfg1.win 3).blk t).view.emb (ix3 (0 : Fin 1) p j))
  rw [hemb]
  show entry (B := 1) _ _ _ 0 p j = entry (B := 8) _ _ _ ⟨t.val, ht⟩ p j
  exact entry_member _ _ _ _ _ _ 0 ⟨t.val, ht⟩ (fun ch r q => block0 m ρ c t ⟨t.val, ht⟩ rfl ch r q)
    (fun ch r q => block1 m ρ c t ⟨t.val, ht⟩ rfl ch r q) (fun ch r q => block2 m ρ c t ⟨t.val, ht⟩ rfl ch r q) p j

/-- An index of the result array whose image is `t` lies in point `t`'s block. -/
theorem mem_blk (t : Fin cfg1.N) (i : S8x6400x87.Idx) (h0 : (i 0).val = t.val) : i ∈ ((cfg1.win 3).blk t).view.set := by
  obtain ⟨e0, e1, e2⟩ := idx_facts3 t
  have hi1 : (i 1).val < 6400 := (i 1).isLt
  have hi2 : (i 2).val < 87 := (i 2).isLt
  show i ∈ ((View.whole main_v1).slice (win1_3.rect t)).set
  rw [View.set_slice_whole, Rect.mem_set_unit]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 6400 ≤ (i 1).val ∧ (i 1).val < win1_3.index t (1 : Fin 3) * 6400 + 6400; omega
  | ⟨2, _⟩ => show win1_3.index t (2 : Fin 3) * 87 ≤ (i 2).val ∧ (i 2).val < win1_3.index t (2 : Fin 3) * 87 + 87; omega

/-- The result array after the run. -/
theorem final (c : Dev nD) : (dat1 (V1 m ρ) c).arrAt 3 cfg1.N = result m c :=
  (dat1 (V1 m ρ) c).arrAt_eq_of_cover 3 (result m c) (fun t _ => flushed_eq m ρ c t) fun i =>
    have hi0 : ((i : S8x6400x87.Idx) 0).val < 8 := ((i : S8x6400x87.Idx) 0).isLt
    have hN : cfg1.N = 8 := N_1
    ⟨⟨((i : S8x6400x87.Idx) 0).val, by omega⟩, flush1_3 _, mem_blk _ i rfl⟩

/-- Level 1's result buffer at the end of the whole program. -/
theorem result_eq (c : Dev nD) : W5 m ρ c (Proc.devRef .tc main_v1) = result m c :=
  (res1 m ρ c).trans (final m ρ c)

end Cert.KernelIdeal.Level1

end
-- ==== Proof.Level1Ref.lean ====
/-
  Level 1 of the reference, entry by entry: the host program's composed term for its result is the level's function
  (`Cert.Level1.out`) of the three argument arrays, read as stacks of eight images.
-/
import proofs.«149197_j15719580303963_2_alg».proof.Proof.Gen.ReferenceIdeal.Run
import proofs.«149197_j15719580303963_2_alg».proof.Proof.LibMaskCentre
import proofs.«149197_j15719580303963_2_alg».proof.Proof.Level1Spec
import Idealize.ShloMosaic.Lib.Pipeline.Value
import Idealize.ShloMosaic.Lib.ValueIdx
import Idealize.ShloMosaic.PureOps.Ideal.Laws

set_option maxRecDepth 16384

noncomputable section

namespace Cert.ReferenceIdeal.Level1

open Cert.ReferenceIdeal Cert.ReferenceIdeal.Value Idealize.ShloMosaic Idealize.ShloMosaic.TcCoe Idealize.ShloMosaic.StableHlo
open Idealize.ShloMosaic.ValueIdx Cert.Level1
open Cert.ReferenceIdeal.Facts₀ Cert.ReferenceIdeal.Facts

section Layout
variable {α : Type}

/-- A stack [8, 80, 80, 80] (image, channel, row, column) re-laid as [8, 6400, 80] (image, location, channel). -/
theorem relaid80 (x : S8x80x80x80.Idx → α) (h2 : S8x80x80x80.Transposes [0, 2, 3, 1] S8x80x80x80)
    (h3 : S8x80x80x80.ShapeCasts S8x6400x80) (b : Fin 8) (p : Fin 6400) (ch : Fin 80) :
    shapeCast S8x6400x80 (transpose S8x80x80x80 [0, 2, 3, 1] x h2) h3 (ix3 b p ch) = x (ix4 b ch (rowOf p) (colOf p)) := by
  have hp := p.isLt
  rw [shapeCast_apply _ h3 (ix3 b p ch) (ix4 b (rowOf p) (colOf p) ch) (by
        rw [Shape.rowMajor_val_four, Shape.rowMajor_val_three]
        show ((b.val * 80 + p.val / 80) * 80 + p.val % 80) * 80 + ch.val = (b.val * 6400 + p.val) * 80 + ch.val
        omega),
      transpose_apply _ _ h2 _ (ix4 b ch (rowOf p) (colOf p)) (by
        intro a; match a with | ⟨0, _⟩ => rfl | ⟨1, _⟩ => rfl | ⟨2, _⟩ => rfl | ⟨3, _⟩ => rfl)]

/-- A stack [8, 4, 80, 80] (image, channel, row, column) re-laid as [8, 6400, 4] (image, location, channel). -/
theorem relaid4 (x : S8x4x80x80.Idx → α) (h2 : S8x4x80x80.Transposes [0, 2, 3, 1] S8x80x80x4)
    (h3 : S8x80x80x4.ShapeCasts S8x6400x4) (b : Fin 8) (p : Fin 6400) (ch : Fin 4) :
    shapeCast S8x6400x4 (transpose S8x80x80x4 [0, 2, 3, 1] x h2) h3 (ix3 b p ch) = x (ix4 b ch (rowOf p) (colOf p)) := by
  have hp := p.isLt
  rw [shapeCast_apply _ h3 (ix3 b p ch) (ix4 b (rowOf p) (colOf p) ch) (by
        rw [Shape.rowMajor_val_four, Shape.rowMajor_val_three]
        show ((b.val * 80 + p.val / 80) * 80 + p.val % 80) * 4 + ch.val = (b.val * 6400 + p.val) * 4 + ch.val
        omega),
      transpose_apply _ _ h2 _ (ix4 b ch (rowOf p) (colOf p)) (by
        intro a; match a with | ⟨0, _⟩ => rfl | ⟨1, _⟩ => rfl | ⟨2, _⟩ => rfl | ⟨3, _⟩ => rfl)]

/-- A stack [8, 1, 80, 80] (image, channel, row, column) re-laid as [8, 6400, 1] (image, location, channel). -/
theorem relaid1 (x : S8x1x80x80.Idx → α) (h2 : S8x1x80x80.Transposes [0, 2, 3, 1] S8x80x80x1)
    (h3 : S8x80x80x1.ShapeCasts S8x6400x1) (b : Fin 8) (p : Fin 6400) (ch : Fin 1) :
    shapeCast S8x6400x1 (transpose S8x80x80x1 [0, 2, 3, 1] x h2) h3 (ix3 b p ch) = x (ix4 b ch (rowOf p) (colOf p)) := by
  have hp := p.isLt
  rw [shapeCast_apply _ h3 (ix3 b p ch) (ix4 b (rowOf p) (colOf p) ch) (by
        rw [Shape.rowMajor_val_four, Shape.rowMajor_val_three]
        show ((b.val * 80 + p.val / 80) * 80 + p.val % 80) * 1 + ch.val = (b.val * 6400 + p.val) * 1 + ch.val
        omega),
      transpose_apply _ _ h2 _ (ix4 b ch (rowOf p) (colOf p)) (by
        intro a; match a with | ⟨0, _⟩ => rfl | ⟨1, _⟩ => rfl | ⟨2, _⟩ => rfl | ⟨3, _⟩ => rfl)]

end Layout

/-- An unsigned integer-to-float conversion of a vector, read at an index. -/
theorem uitofp_at {s : Shape} {w : Nat} (x : IVec s w) (i : s.Idx) :
    (uitofp .f32 x : FVec Ideal s .f32) i = FloatOps.uitofp (F := Ideal) .f32 (x i) := rfl

variable (V0 : Valuation τ sig (Elt Ideal))

/-- The scores of a location, channel by channel. -/
theorem scores_apply (b : Fin 8) (p : Fin 6400) (ch : Fin 80) :
    (res_main_v38 V0 : S8x6400x80.Idx → EReal) (ix3 b p ch)
      = (V0 (Proc.devRef .tc main_arg3) : S8x80x80x80.Idx → EReal) (ix4 b ch (rowOf p) (colOf p)) := by
  unfold res_main_v38
  exact relaid80 _ _ _ b p ch

/-- The host's maximum over a location's 80 scores is the greatest class score. -/
theorem top_apply (b : Fin 8) (p : Fin 6400) :
    Host.reduce FloatOps.maximumf (res_main_v38 V0) (constant S_ .f32 0xFF800000#32) reducesTo_S8x6400x80_S8x6400_d2 h_S_ (ix2 b p)
      = top (B := 8) (V0 (Proc.devRef .tc main_arg3) : S8x80x80x80.Idx → EReal) b p := by
  have hR : S8x6400x80.Reduces [2] S8x6400 := by decide
  rw [Host.reduce_eq_fold_single FloatOps.maximumf _ _ reducesTo_S8x6400x80_S8x6400_d2 hR h_S_ (ix2 b p)]
  unfold top
  refine Finset.fold_congr (fun ch _ => ?_)
  show (res_main_v38 V0 : S8x6400x80.Idx → EReal) (hR.lift (ix2 b p) ch) = _
  have e : hR.lift (ix2 b p) ch = ix3 b p ch := funext fun a => Fin.ext (by match a with | ⟨0, _⟩ => rfl | ⟨1, _⟩ => rfl | ⟨2, _⟩ => rfl)
  rw [e]
  exact scores_apply V0 b p ch

/-- The mask of a location. -/
theorem mask_apply (b : Fin 8) (p : Fin 6400) (q : Fin 1) :
    (res_main_v47 V0 : S8x6400x1.Idx → EReal) (ix3 b p q) = keep (B := 8) (V0 (Proc.devRef .tc main_arg3) : S8x80x80x80.Idx → EReal) b p := by
  unfold res_main_v47
  rw [uitofp_at, broadcastInDim_apply ![0, 1] bcast_S8x6400_S8x6400x1_0_1 _ (ix3 b p q) (ix2 b p) (by
      intro a; match a with | ⟨0, _⟩ => rfl | ⟨1, _⟩ => rfl),
    cmpf_apply,
    broadcastInDim_apply ![] bcast_S_S8x6400 _ (ix2 b p) ix0 (fun a => a.elim0)]
  refine (congrArg (fun v : EReal => ((((Ideal.cmp .ogt v (Ideal.ofBits .f32 0x3F000000#32)).toNat : ℕ) : ℝ) : EReal)) (top_apply V0 b p)).trans ?_
  rfl

/-- The mask column broadcast along the channels reads the location's mask. -/
theorem maskRow (C : Nat) (hb : S8x6400x1.BroadcastsInDim (⟨3, ![8, 6400, C]⟩ : Shape) ![0, 1, 2]) (b : Fin 8) (p : Fin 6400) (ch : Fin C) :
    broadcastInDim (⟨3, ![8, 6400, C]⟩ : Shape) ![0, 1, 2] hb (res_main_v47 V0 : S8x6400x1.Idx → EReal) (ix3 b p ch)
      = keep (B := 8) (V0 (Proc.devRef .tc main_arg3) : S8x80x80x80.Idx → EReal) b p := by
  rw [broadcastInDim_apply ![0, 1, 2] hb _ (ix3 b p ch) (ix3 b p 0) (by
      intro a; match a with | ⟨0, _⟩ => rfl | ⟨1, _⟩ => rfl | ⟨2, _⟩ => rfl)]
  exact mask_apply V0 b p 0

/-- The integer pixel centres, stacked on the last axis, flattened and converted: the centre of a location. -/
theorem centre_apply (X Y : IVec S80x80 32)
    (hX : ∀ (r q : Fin 80), X (ix2 r q) = BitVec.ofNat 32 q.val * BitVec.ofNat 32 16 + BitVec.ofNat 32 8)
    (hY : ∀ (r q : Fin 80), Y (ix2 r q) = BitVec.ofNat 32 r.val * BitVec.ofNat 32 16 + BitVec.ofNat 32 8)
    (b : Fin 8) (p : Fin 6400) (j : Fin 2) :
    broadcastInDim S8x6400x2 ![1, 2] bcast_S6400x2_S8x6400x2_1_2 (sitofp (F := Ideal) .f32 (shapeCast S6400x2 (concatenate S80x80x2 2
        [⟨S80x80x1, broadcastInDim S80x80x1 ![0, 1] bcast_S80x80_S80x80x1_0_1 X⟩, ⟨S80x80x1, broadcastInDim S80x80x1 ![0, 1] bcast_S80x80_S80x80x1_0_1 Y⟩]
        concatenates_S80x80x1_S80x80x1_S80x80x2_d2) shapeCasts_S80x80x2_S6400x2)) (ix3 b p j) = centre p j := by
  have hp := p.isLt
  have hj := j.isLt
  have hr := (rowOf p).isLt
  have hc := (colOf p).isLt
  rw [broadcastInDim_apply ![1, 2] bcast_S6400x2_S8x6400x2_1_2 _ (ix3 b p j) (ix2 p j) (by
      intro a; match a with | ⟨0, _⟩ => rfl | ⟨1, _⟩ => rfl),
    sitofp_apply,
    shapeCast_apply _ shapeCasts_S80x80x2_S6400x2 (ix2 p j) (ix3 (rowOf p) (colOf p) j) (by
      rw [Shape.rowMajor_val_three, Shape.rowMajor_val_two]
      show ((p.val / 80) * 80 + p.val % 80) * 2 + j.val = p.val * 2 + j.val
      omega)]
  unfold centre
  rcases Nat.lt_or_ge j.val 1 with hj0 | hj1
  · rw [concatenate_pair_apply_left (t := S80x80x2) (s₁ := S80x80x1) (s₂ := S80x80x1) (2 : Fin 3) _ _ concatenates_S80x80x1_S80x80x1_S80x80x2_d2
        (ix3 (rowOf p) (colOf p) j) rfl (ix3 (rowOf p) (colOf p) (0 : Fin 1)) (fun a => by
          match a with
          | ⟨0, _⟩ => rfl
          | ⟨1, _⟩ => rfl
          | ⟨2, _⟩ => show 0 = j.val; omega),
      broadcastInDim_apply ![0, 1] bcast_S80x80_S80x80x1_0_1 _ _ (ix2 (rowOf p) (colOf p)) (by
        intro a; match a with | ⟨0, _⟩ => rfl | ⟨1, _⟩ => rfl),
      hX]
    show ((((BitVec.ofNat 32 (colOf p).val * BitVec.ofNat 32 16 + BitVec.ofNat 32 8).toInt : ℤ) : ℝ) : EReal) = _
    rw [Cert.Lib.toInt_affine _ _ _ (by omega), if_pos (by omega)]
    push_cast
    rfl
  · rw [concatenate_pair_apply_right (t := S80x80x2) (s₁ := S80x80x1) (s₂ := S80x80x1) (2 : Fin 3) _ _ concatenates_S80x80x1_S80x80x1_S80x80x2_d2
        (ix3 (rowOf p) (colOf p) j) rfl rfl (ix3 (rowOf p) (colOf p) (0 : Fin 1)) (fun a ha => by
          match a with
          | ⟨0, _⟩ => rfl
          | ⟨1, _⟩ => rfl
          | ⟨2, _⟩ => exact absurd rfl ha) (by show 0 + 1 = j.val; omega),
      broadcastInDim_apply ![0, 1] bcast_S80x80_S80x80x1_0_1 _ _ (ix2 (rowOf p) (colOf p)) (by
        intro a; match a with | ⟨0, _⟩ => rfl | ⟨1, _⟩ => rfl),
      hY]
    show ((((BitVec.ofNat 32 (rowOf p).val * BitVec.ofNat 32 16 + BitVec.ofNat 32 8).toInt : ℤ) : ℝ) : EReal) = _
    rw [Cert.Lib.toInt_affine _ _ _ (by omega), if_neg (by omega)]
    push_cast
    rfl

/-- The reference's result for level 1 is the level's function of the three argument arrays. -/
theorem result_eq :
    val4 V0 (Proc.devRef .tc main_v73)
      = out (B := 8) (V0 (Proc.devRef .tc main_arg3) : S8x80x80x80.Idx → EReal)
          (V0 (Proc.devRef .tc main_arg4) : S8x4x80x80.Idx → EReal) (V0 (Proc.devRef .tc main_arg5) : S8x1x80x80.Idx → EReal) := by
  rw [val4_main_v73]
  funext i
  obtain ⟨b, p, j, rfl⟩ : ∃ (b : Fin 8) (p : Fin 6400) (j : Fin 87), i = ix3 b p j := ⟨i 0, i 1, i 2, eq_ix3 i⟩
  have hj := j.isLt
  rw [out_apply]
  by_cases h : j.val < 2
  · rw [entry_centre _ _ _ _ _ _ h,
      concatenate_apply_piece (2 : Fin 3) _ _ (ix3 b p j) 0 (by show (0 : ℕ) < 4; omega) S8x6400x2 _ rfl rfl 0 rfl (ix3 b p ⟨j.val, h⟩)
        (fun a ha => by match a with
          | ⟨0, _⟩ => rfl
          | ⟨1, _⟩ => rfl
          | ⟨2, _⟩ => exact absurd rfl ha) (by show 0 + j.val = j.val; omega),
      mulf_apply]
    refine congrArg₂ (fun u v : EReal => u * v) ?_ (maskRow V0 2 _ b p ⟨j.val, h⟩)
    exact centre_apply _ _ (fun r q => rfl) (fun r q => rfl) b p ⟨j.val, h⟩
  · by_cases h2 : j.val < 82
    · rw [entry_cls _ _ _ _ _ _ h h2,
        concatenate_apply_piece (2 : Fin 3) _ _ (ix3 b p j) 1 (by show (1 : ℕ) < 4; omega) S8x6400x80 _ rfl rfl 2 rfl (ix3 b p ⟨j.val - 2, by omega⟩)
          (fun a ha => by match a with
            | ⟨0, _⟩ => rfl
            | ⟨1, _⟩ => rfl
            | ⟨2, _⟩ => exact absurd rfl ha) (by show 2 + (j.val - 2) = j.val; omega),
        mulf_apply]
      exact congrArg₂ (fun u v : EReal => u * v) (scores_apply V0 b p ⟨j.val - 2, by omega⟩) (maskRow V0 80 _ b p ⟨j.val - 2, by omega⟩)
    · by_cases h3 : j.val < 86
      · rw [entry_bbox _ _ _ _ _ _ h h2 h3,
          concatenate_apply_piece (2 : Fin 3) _ _ (ix3 b p j) 2 (by show (2 : ℕ) < 4; omega) S8x6400x4 _ rfl rfl 82 rfl (ix3 b p ⟨j.val - 82, by omega⟩)
            (fun a ha => by match a with
              | ⟨0, _⟩ => rfl
              | ⟨1, _⟩ => rfl
              | ⟨2, _⟩ => exact absurd rfl ha) (by show 82 + (j.val - 82) = j.val; omega),
          mulf_apply]
        exact congrArg₂ (fun u v : EReal => u * v) (relaid4 _ _ _ b p ⟨j.val - 82, by omega⟩) (maskRow V0 4 _ b p ⟨j.val - 82, by omega⟩)
      · rw [entry_ctr _ _ _ _ _ _ h h2 h3,
          concatenate_apply_piece (2 : Fin 3) _ _ (ix3 b p j) 3 (by show (3 : ℕ) < 4; omega) S8x6400x1 _ rfl rfl 86 rfl (ix3 b p ⟨0, by decide⟩)
            (fun a ha => by match a with
              | ⟨0, _⟩ => rfl
              | ⟨1, _⟩ => rfl
              | ⟨2, _⟩ => exact absurd rfl ha) (by show 86 + 0 = j.val; omega),
          mulf_apply]
        exact congrArg₂ (fun u v : EReal => u * v) (relaid1 _ _ _ b p ⟨0, by decide⟩) (mask_apply V0 b p ⟨0, by decide⟩)

end Cert.ReferenceIdeal.Level1

end
-- ==== Proof.Level2Spec.lean ====
/-
  One pyramid level of the filter, as a function of its three arrays: class scores [B, 80, 40, 40], box offsets
  [B, 4, 40, 40] and centre-ness [B, 1, 40, 40] (image, channel, row, column).

  The result is [B, 1600, 87]: for image `b` and location `p` = row · 40 + column, the 87 entries are the pixel centre
  (x = column · 32 + 16, y = row · 32 + 16), the 80 class scores, the 4 box offsets and the centre-ness at that
  location, every one multiplied by the location's mask: 1 when the greatest of its 80 class scores (from −∞)
  exceeds one half, 0 otherwise.  Stated for any number `B` of images, so that one image's block and the whole
  stack of eight are the same function.
-/
import Idealize.ShloMosaic.PureOps.Ideal
import Idealize.ShloMosaic.Lib.ValueIdx

noncomputable section

namespace Cert.Level2

open Idealize.ShloMosaic Idealize.ShloMosaic.ValueIdx

/-- The row of a flattened location. -/
def rowOf (p : Fin 1600) : Fin 40 := ⟨p.val / 40, by have := p.isLt; omega⟩
/-- The column of a flattened location. -/
def colOf (p : Fin 1600) : Fin 40 := ⟨p.val % 40, Nat.mod_lt _ (by decide)⟩

variable {B : Nat}

/-- The greatest class score at a location, starting from −∞. -/
def top (cls : (⟨4, ![B, 80, 40, 40]⟩ : Shape).Idx → EReal) (b : Fin B) (p : Fin 1600) : EReal :=
  (Finset.univ : Finset (Fin 80)).fold max (Ideal.ofBits .f32 0xFF800000#32) fun ch => cls (ix4 b ch (rowOf p) (colOf p))

/-- The mask of a location: 1 when its greatest class score exceeds one half, else 0. -/
def keep (cls : (⟨4, ![B, 80, 40, 40]⟩ : Shape).Idx → EReal) (b : Fin B) (p : Fin 1600) : EReal :=
  ((((Ideal.cmp .ogt (top cls b p) (Ideal.ofBits .f32 0x3F000000#32)).toNat : ℕ) : ℝ) : EReal)

/-- The pixel centre of a location: x (entry 0) from the column, y (entry 1) from the row. -/
def centre (p : Fin 1600) (j : Fin 2) : EReal :=
  if j.val = 0 then ((((colOf p).val * 32 + 16 : ℕ) : ℝ) : EReal) else ((((rowOf p).val * 32 + 16 : ℕ) : ℝ) : EReal)

/-- One entry of the level's result: image `a`, location `p`, entry `j` of the 87. -/
def entry (cls : (⟨4, ![B, 80, 40, 40]⟩ : Shape).Idx → EReal) (bbox : (⟨4, ![B, 4, 40, 40]⟩ : Shape).Idx → EReal)
    (ctr : (⟨4, ![B, 1, 40, 40]⟩ : Shape).Idx → EReal) (a : Fin B) (p : Fin 1600) (j : Fin 87) : EReal :=
  (if h : j.val < 2 then centre p ⟨j.val, h⟩
   else if h2 : j.val < 82 then cls (ix4 a ⟨j.val - 2, by omega⟩ (rowOf p) (colOf p))
   else if h3 : j.val < 86 then bbox (ix4 a ⟨j.val - 82, by omega⟩ (rowOf p) (colOf p))
   else ctr (ix4 a ⟨0, by decide⟩ (rowOf p) (colOf p))) * keep cls a p

/-- The level's result. -/
def out (cls : (⟨4, ![B, 80, 40, 40]⟩ : Shape).Idx → EReal) (bbox : (⟨4, ![B, 4, 40, 40]⟩ : Shape).Idx → EReal)
    (ctr : (⟨4, ![B, 1, 40, 40]⟩ : Shape).Idx → EReal) : (⟨3, ![B, 1600, 87]⟩ : Shape).Idx → EReal := fun i =>
  entry cls bbox ctr (i 0) (i 1) (i 2)

section Read
variable (cls : (⟨4, ![B, 80, 40, 40]⟩ : Shape).Idx → EReal) (bbox : (⟨4, ![B, 4, 40, 40]⟩ : Shape).Idx → EReal)
  (ctr : (⟨4, ![B, 1, 40, 40]⟩ : Shape).Idx → EReal) (a : Fin B) (p : Fin 1600) (j : Fin 87)

theorem out_apply : out cls bbox ctr (ix3 a p j) = entry cls bbox ctr a p j := rfl

/-- Entries 0 and 1: the centre, masked. -/
theorem entry_centre (h : j.val < 2) : entry cls bbox ctr a p j = centre p ⟨j.val, h⟩ * keep cls a p := by
  unfold entry; rw [dif_pos h]

/-- Entries 2 … 81: the class scores, masked. -/
theorem entry_cls (h : ¬ j.val < 2) (h2 : j.val < 82) :
    entry cls bbox ctr a p j = cls (ix4 a ⟨j.val - 2, by omega⟩ (rowOf p) (colOf p)) * keep cls a p := by
  unfold entry; rw [dif_neg h, dif_pos h2]

/-- Entries 82 … 85: the box offsets, masked. -/
theorem entry_bbox (h : ¬ j.val < 2) (h2 : ¬ j.val < 82) (h3 : j.val < 86) :
    entry cls bbox ctr a p j = bbox (ix4 a ⟨j.val - 82, by omega⟩ (rowOf p) (colOf p)) * keep cls a p := by
  unfold entry; rw [dif_neg h, dif_neg h2, dif_pos h3]

/-- Entry 86: the centre-ness, masked. -/
theorem entry_ctr (h : ¬ j.val < 2) (h2 : ¬ j.val < 82) (h3 : ¬ j.val < 86) :
    entry cls bbox ctr a p j = ctr (ix4 a ⟨0, by decide⟩ (rowOf p) (colOf p)) * keep cls a p := by
  unfold entry; rw [dif_neg h, dif_neg h2, dif_neg h3]

end Read

/-- An image's entries depend only on that image's slices of the three arrays: two stacks whose images `a` and `b`
    agree have the same entries there. -/
theorem entry_member {B' : Nat} (cls : (⟨4, ![B, 80, 40, 40]⟩ : Shape).Idx → EReal) (bbox : (⟨4, ![B, 4, 40, 40]⟩ : Shape).Idx → EReal)
    (ctr : (⟨4, ![B, 1, 40, 40]⟩ : Shape).Idx → EReal) (cls' : (⟨4, ![B', 80, 40, 40]⟩ : Shape).Idx → EReal)
    (bbox' : (⟨4, ![B', 4, 40, 40]⟩ : Shape).Idx → EReal) (ctr' : (⟨4, ![B', 1, 40, 40]⟩ : Shape).Idx → EReal) (a : Fin B) (b : Fin B')
    (h0 : ∀ ch r c, cls (ix4 a ch r c) = cls' (ix4 b ch r c)) (h1 : ∀ ch r c, bbox (ix4 a ch r c) = bbox' (ix4 b ch r c))
    (h2 : ∀ ch r c, ctr (ix4 a ch r c) = ctr' (ix4 b ch r c)) (p : Fin 1600) (j : Fin 87) :
    entry cls bbox ctr a p j = entry cls' bbox' ctr' b p j := by
  have hk : keep cls a p = keep cls' b p := by
    unfold keep top
    simp only [h0]
  unfold entry
  rw [hk]
  simp only [h0, h1, h2]

end Cert.Level2

end
-- ==== Proof.Level2KernelPay.lean ====
import proofs.«149197_j15719580303963_2_alg».proof.Proof.Gen.KernelIdeal.Skeleton
import proofs.«149197_j15719580303963_2_alg».proof.Proof.LibMaskCentre
import proofs.«149197_j15719580303963_2_alg».proof.Proof.Level2Spec
import Idealize.ShloMosaic.Lib.Pipeline.Value
import Idealize.ShloMosaic.Lib.ValueIdx
import Idealize.ShloMosaic.PureOps.Ideal.Laws

set_option maxRecDepth 16384

noncomputable section

namespace Cert.KernelIdeal.Level2

open Cert.KernelIdeal Cert.KernelIdeal.Gen Idealize.ShloMosaic Idealize.ShloMosaic.ValueIdx Cert.Level2

/-!
  What one grid point of level 2's kernel stores, entry by entry: the body's payload on the blocks of one image is
  the level's function (`Cert.Level2.out`) of those blocks, read as stacks of one image.
-/

section Layout
variable {α : Type}

/-- A [1, 80, 40, 40] block (channel, row, column) re-laid as [1600, 80] (location, channel): entry (p, ch) is the block's
    entry at channel `ch`, row `p / 40`, column `p % 40`. -/
theorem relaid80 (x : S1x80x40x40.Idx → α) (h1 : S1x80x40x40.ShapeCasts S80x40x40)
    (h2 : S80x40x40.Transposes [1, 2, 0] S40x40x80) (h3 : S40x40x80.ShapeCasts S1600x80) (p : Fin 1600) (ch : Fin 80) :
    shapeCast S1600x80 (transpose S40x40x80 [1, 2, 0] (shapeCast S80x40x40 x h1) h2) h3 (ix2 p ch)
      = x (ix4 0 ch (rowOf p) (colOf p)) := by
  have hp := p.isLt
  rw [shapeCast_apply _ h3 (ix2 p ch) (ix3 (rowOf p) (colOf p) ch) (by
        rw [Shape.rowMajor_val_three, Shape.rowMajor_val_two]
        show ((p.val / 40) * 40 + p.val % 40) * 80 + ch.val = p.val * 80 + ch.val
        omega),
      transpose_apply _ _ h2 _ (ix3 ch (rowOf p) (colOf p)) (by
        intro b; match b with | ⟨0, _⟩ => rfl | ⟨1, _⟩ => rfl | ⟨2, _⟩ => rfl),
      shapeCast_apply _ h1 _ (ix4 0 ch (rowOf p) (colOf p)) (by
        rw [Shape.rowMajor_val_four, Shape.rowMajor_val_three]
        show ((0 * 80 + ch.val) * 40 + p.val / 40) * 40 + p.val % 40 = (ch.val * 40 + p.val / 40) * 40 + p.val % 40
        omega)]

/-- A [1, 4, 40, 40] block (channel, row, column) re-laid as [1600, 4] (location, channel): entry (p, ch) is the block's
    entry at channel `ch`, row `p / 40`, column `p % 40`. -/
theorem relaid4 (x : S1x4x40x40.Idx → α) (h1 : S1x4x40x40.ShapeCasts S4x40x40)
    (h2 : S4x40x40.Transposes [1, 2, 0] S40x40x4) (h3 : S40x40x4.ShapeCasts S1600x4) (p : Fin 1600) (ch : Fin 4) :
    shapeCast S1600x4 (transpose S40x40x4 [1, 2, 0] (shapeCast S4x40x40 x h1) h2) h3 (ix2 p ch)
      = x (ix4 0 ch (rowOf p) (colOf p)) := by
  have hp := p.isLt
  rw [shapeCast_apply _ h3 (ix2 p ch) (ix3 (rowOf p) (colOf p) ch) (by
        rw [Shape.rowMajor_val_three, Shape.rowMajor_val_two]
        show ((p.val / 40) * 40 + p.val % 40) * 4 + ch.val = p.val * 4 + ch.val
        omega),
      transpose_apply _ _ h2 _ (ix3 ch (rowOf p) (colOf p)) (by
        intro b; match b with | ⟨0, _⟩ => rfl | ⟨1, _⟩ => rfl | ⟨2, _⟩ => rfl),
      shapeCast_apply _ h1 _ (ix4 0 ch (rowOf p) (colOf p)) (by
        rw [Shape.rowMajor_val_four, Shape.rowMajor_val_three]
        show ((0 * 4 + ch.val) * 40 + p.val / 40) * 40 + p.val % 40 = (ch.val * 40 + p.val / 40) * 40 + p.val % 40
        omega)]

/-- A [1, 1, 40, 40] block (channel, row, column) re-laid as [1600, 1] (location, channel): entry (p, ch) is the block's
    entry at channel `ch`, row `p / 40`, column `p % 40`. -/
theorem relaid1 (x : S1x1x40x40.Idx → α) (h1 : S1x1x40x40.ShapeCasts S1x40x40)
    (h2 : S1x40x40.Transposes [1, 2, 0] S40x40x1) (h3 : S40x40x1.ShapeCasts S1600x1) (p : Fin 1600) (ch : Fin 1) :
    shapeCast S1600x1 (transpose S40x40x1 [1, 2, 0] (shapeCast S1x40x40 x h1) h2) h3 (ix2 p ch)
      = x (ix4 0 ch (rowOf p) (colOf p)) := by
  have hp := p.isLt
  rw [shapeCast_apply _ h3 (ix2 p ch) (ix3 (rowOf p) (colOf p) ch) (by
        rw [Shape.rowMajor_val_three, Shape.rowMajor_val_two]
        show ((p.val / 40) * 40 + p.val % 40) * 1 + ch.val = p.val * 1 + ch.val
        omega),
      transpose_apply _ _ h2 _ (ix3 ch (rowOf p) (colOf p)) (by
        intro b; match b with | ⟨0, _⟩ => rfl | ⟨1, _⟩ => rfl | ⟨2, _⟩ => rfl),
      shapeCast_apply _ h1 _ (ix4 0 ch (rowOf p) (colOf p)) (by
        rw [Shape.rowMajor_val_four, Shape.rowMajor_val_three]
        show ((0 * 1 + ch.val) * 40 + p.val / 40) * 40 + p.val % 40 = (ch.val * 40 + p.val / 40) * 40 + p.val % 40
        omega)]

/-- The two coordinate planes stacked [2, 40, 40] and re-laid as [1600, 2]. -/
theorem relaidPair (x : S2x40x40.Idx → α) (h2 : S2x40x40.Transposes [1, 2, 0] S40x40x2) (h3 : S40x40x2.ShapeCasts S1600x2)
    (p : Fin 1600) (j : Fin 2) :
    shapeCast S1600x2 (transpose S40x40x2 [1, 2, 0] x h2) h3 (ix2 p j) = x (ix3 j (rowOf p) (colOf p)) := by
  have hp := p.isLt
  rw [shapeCast_apply _ h3 (ix2 p j) (ix3 (rowOf p) (colOf p) j) (by
        rw [Shape.rowMajor_val_three, Shape.rowMajor_val_two]
        show ((p.val / 40) * 40 + p.val % 40) * 2 + j.val = p.val * 2 + j.val
        omega),
      transpose_apply _ _ h2 _ (ix3 j (rowOf p) (colOf p)) (by
        intro b; match b with | ⟨0, _⟩ => rfl | ⟨1, _⟩ => rfl | ⟨2, _⟩ => rfl)]

end Layout

variable (x0 : Vec Ideal S1x80x40x40 .f32) (x1 : Vec Ideal S1x4x40x40 .f32) (x2 : Vec Ideal S1x1x40x40 .f32)

/-- The scores of a location, channel by channel. -/
theorem pay2_apply (p : Fin 1600) (ch : Fin 80) : k2_pay2 (F := Ideal) x0 (ix2 p ch) = x0 (ix4 0 ch (rowOf p) (colOf p)) := by
  unfold k2_pay2; exact relaid80 x0 _ _ _ p ch

/-- The centre-ness of a location. -/
theorem pay3_apply (p : Fin 1600) (q : Fin 1) : k2_pay3 (F := Ideal) x2 (ix2 p q) = x2 (ix4 0 q (rowOf p) (colOf p)) := by
  unfold k2_pay3; exact relaid1 x2 _ _ _ p q

/-- The lane maximum over a location's 80 scores is the greatest class score. -/
theorem top_apply (h : S1600x80.Reduces [1] S1600) (hφ : FKind.Formats .f32) (hacc : (0xFF800000#32 : BitVec 32) = FKind.maximumf.neutral .f32 hφ)
    (p : Fin 1600) :
    multiReduction .maximumf [1] S1600 (k2_pay2 (F := Ideal) x0) 0xFF800000#32 h hφ hacc (ix1 p) = top (B := 1) x0 0 p := by
  rw [Ideal.multiReduction_maximumf_single]
  unfold top
  refine Finset.fold_congr (fun ch _ => ?_)
  show k2_pay2 x0 (h.lift (ix1 p) ch) = _
  have e : h.lift (ix1 p) ch = ix2 p ch := funext fun a => Fin.ext (by match a with | ⟨0, _⟩ => rfl | ⟨1, _⟩ => rfl)
  rw [e]
  exact pay2_apply x0 p ch

/-- The mask of a location. -/
theorem pay4_apply (p : Fin 1600) (q : Fin 1) : k2_pay4 (F := Ideal) x0 (ix2 p q) = keep (B := 1) x0 0 p := by
  unfold k2_pay4
  try dsimp only
  rw [sitofp_apply, extui_apply, cmpf_apply, broadcast_apply,
    shapeCast_apply _ shapeCasts_S1600_S1600x1 (ix2 p q) (ix1 p) (by
      rw [Shape.rowMajor_val_one, Shape.rowMajor_val_two]
      show p.val = p.val * 1 + q.val
      have := q.isLt; omega)]
  have ht := top_apply x0 reduces_S1600x80_S1600 (.inl rfl) rfl p
  refine (congrArg (fun v : EReal => (((BitVec.setWidth 32 (Ideal.cmp .ogt v (Ideal.ofBits .f32 0x3F000000#32))).toInt : ℝ) : EReal)) ht).trans ?_
  unfold keep
  exact congrArg (fun r : ℝ => (r : EReal)) (Cert.Lib.toInt_setWidth_bit _)

/-- A mask column broadcast along the channels reads the location's mask. -/
theorem maskRow (C : Nat) (hb : S1600x1.Broadcasts (⟨2, ![1600, C]⟩ : Shape)) (p : Fin 1600) (ch : Fin C) :
    broadcastTo (⟨2, ![1600, C]⟩ : Shape) (k2_pay4 (F := Ideal) x0) hb (ix2 p ch) = keep (B := 1) x0 0 p := by
  rw [broadcastTo_apply _ hb (ix2 p ch) (ix2 p 0) (by
      intro a; match a with
      | ⟨0, _⟩ => rfl
      | ⟨1, _⟩ => rfl)]
  exact pay4_apply x0 p 0

/-- The class scores of a location, masked. -/
theorem pay6_apply (p : Fin 1600) (ch : Fin 80) :
    k2_pay6 (F := Ideal) x0 (ix2 p ch) = x0 (ix4 0 ch (rowOf p) (colOf p)) * keep (B := 1) x0 0 p := by
  unfold k2_pay6
  try dsimp only
  rw [mulf_apply, pay2_apply]
  exact congrArg _ (maskRow x0 80 _ p ch)

/-- The box offsets of a location, masked. -/
theorem pay7_apply (p : Fin 1600) (q : Fin 4) :
    k2_pay7 (F := Ideal) x0 x1 (ix2 p q) = x1 (ix4 0 q (rowOf p) (colOf p)) * keep (B := 1) x0 0 p := by
  unfold k2_pay7
  try dsimp only
  rw [mulf_apply, relaid4 x1 _ _ _ p q]
  exact congrArg _ (maskRow x0 4 _ p q)

/-- The pixel centre of a location, masked. -/
theorem pay5_apply (p : Fin 1600) (j : Fin 2) :
    k2_pay5 (F := Ideal) x0 (ix2 p j) = centre p j * keep (B := 1) x0 0 p := by
  unfold k2_pay5
  try dsimp only
  rw [mulf_apply, relaidPair _ _ _ p j]
  refine congr (congrArg _ ?_) (maskRow x0 2 _ p j)
  have hr := (rowOf p).isLt
  have hc := (colOf p).isLt
  unfold centre
  have hj := j.isLt
  rcases Nat.lt_or_ge j.val 1 with hj0 | hj1
  · rw [concatenate_pair_apply_left (t := S2x40x40) (s₁ := S1x40x40) (s₂ := S1x40x40) (0 : Fin 3) _ _ concatenates_S1x40x40_S1x40x40_S2x40x40_d0 (ix3 j (rowOf p) (colOf p)) rfl
        (ix3 (0 : Fin 1) (rowOf p) (colOf p)) (fun b => by
          match b with
          | ⟨0, _⟩ => show 0 = j.val; omega
          | ⟨1, _⟩ => rfl
          | ⟨2, _⟩ => rfl),
      shapeCast_apply _ shapeCasts_S40x40_S1x40x40 _ (ix2 (rowOf p) (colOf p)) (by
        rw [Shape.rowMajor_val_two, Shape.rowMajor_val_three]
        show (rowOf p).val * 40 + (colOf p).val = (0 * 40 + (rowOf p).val) * 40 + (colOf p).val
        omega),
      addf_apply, mulf_apply, broadcast_apply, broadcast_apply, sitofp_apply, iota_single_apply]
    show (((BitVec.ofNat 32 (colOf p).val).toInt : ℝ) : EReal) * Ideal.ofBits .f32 0x42000000#32 + Ideal.ofBits .f32 0x41800000#32 = _
    rw [Cert.Lib.ofBits_32, Cert.Lib.ofBits_16, Cert.Lib.toInt_ofNat_small _ (by omega), if_pos (by omega), ← EReal.coe_mul, ← EReal.coe_add]
    push_cast
    rfl
  · rw [concatenate_pair_apply_right (t := S2x40x40) (s₁ := S1x40x40) (s₂ := S1x40x40) (0 : Fin 3) _ _ concatenates_S1x40x40_S1x40x40_S2x40x40_d0 (ix3 j (rowOf p) (colOf p)) rfl rfl
        (ix3 (0 : Fin 1) (rowOf p) (colOf p))
        (fun b hb => by
          match b with
          | ⟨0, _⟩ => exact absurd rfl hb
          | ⟨1, _⟩ => rfl
          | ⟨2, _⟩ => rfl) (by show 0 + 1 = j.val; omega),
      shapeCast_apply _ shapeCasts_S40x40_S1x40x40 _ (ix2 (rowOf p) (colOf p)) (by
        rw [Shape.rowMajor_val_two, Shape.rowMajor_val_three]
        show (rowOf p).val * 40 + (colOf p).val = (0 * 40 + (rowOf p).val) * 40 + (colOf p).val
        omega),
      addf_apply, mulf_apply, broadcast_apply, broadcast_apply, sitofp_apply, iota_single_apply]
    show (((BitVec.ofNat 32 (rowOf p).val).toInt : ℝ) : EReal) * Ideal.ofBits .f32 0x42000000#32 + Ideal.ofBits .f32 0x41800000#32 = _
    rw [Cert.Lib.ofBits_32, Cert.Lib.ofBits_16, Cert.Lib.toInt_ofNat_small _ (by omega), if_neg (by omega), ← EReal.coe_mul, ← EReal.coe_add]
    push_cast
    rfl

/-- The whole payload of a grid point is the level's function of the point's three blocks. -/
theorem pay_eq :
    k2_pay1 (F := Ideal) (k2_pay3 x2) (k2_pay4 x0) (k2_pay5 x0) (k2_pay6 x0) (k2_pay7 x0 x1) = out (B := 1) x0 x1 x2 := by
  funext i
  obtain ⟨a, p, j, rfl⟩ : ∃ (a : Fin 1) (p : Fin 1600) (j : Fin 87), i = ix3 a p j := ⟨i 0, i 1, i 2, eq_ix3 i⟩
  have ha : a = 0 := Subsingleton.elim _ _
  subst ha
  have hj := j.isLt
  unfold k2_pay1
  try dsimp only
  rw [shapeCast_apply _ shapeCasts_S1600x87_S1x1600x87 _ (ix2 p j) (by
      rw [Shape.rowMajor_val_two, Shape.rowMajor_val_three]
      show p.val * 87 + j.val = (0 * 1600 + p.val) * 87 + j.val
      omega)]
  by_cases h : j.val < 2
  · rw [out_apply, entry_centre _ _ _ _ _ _ h,
      concatenate_apply_piece (1 : Fin 2) _ _ (ix2 p j) 0 (by show (0 : ℕ) < 4; omega) S1600x2 _ rfl rfl 0 rfl (ix2 p ⟨j.val, h⟩)
        (fun b hb => by match b with
          | ⟨0, _⟩ => rfl
          | ⟨1, _⟩ => exact absurd rfl hb) (by show 0 + j.val = j.val; omega)]
    exact pay5_apply x0 p ⟨j.val, h⟩
  · by_cases h2 : j.val < 82
    · rw [out_apply, entry_cls _ _ _ _ _ _ h h2,
        concatenate_apply_piece (1 : Fin 2) _ _ (ix2 p j) 1 (by show (1 : ℕ) < 4; omega) S1600x80 _ rfl rfl 2 rfl (ix2 p ⟨j.val - 2, by omega⟩)
          (fun b hb => by match b with
            | ⟨0, _⟩ => rfl
            | ⟨1, _⟩ => exact absurd rfl hb) (by show 2 + (j.val - 2) = j.val; omega)]
      exact pay6_apply x0 p ⟨j.val - 2, by omega⟩
    · by_cases h3 : j.val < 86
      · rw [out_apply, entry_bbox _ _ _ _ _ _ h h2 h3,
          concatenate_apply_piece (1 : Fin 2) _ _ (ix2 p j) 2 (by show (2 : ℕ) < 4; omega) S1600x4 _ rfl rfl 82 rfl (ix2 p ⟨j.val - 82, by omega⟩)
            (fun b hb => by match b with
              | ⟨0, _⟩ => rfl
              | ⟨1, _⟩ => exact absurd rfl hb) (by show 82 + (j.val - 82) = j.val; omega)]
        exact pay7_apply x0 x1 p ⟨j.val - 82, by omega⟩
      · rw [out_apply, entry_ctr _ _ _ _ _ _ h h2 h3,
          concatenate_apply_piece (1 : Fin 2) _ _ (ix2 p j) 3 (by show (3 : ℕ) < 4; omega) S1600x1 _ rfl rfl 86 rfl (ix2 p ⟨0, by decide⟩)
            (fun b hb => by match b with
              | ⟨0, _⟩ => rfl
              | ⟨1, _⟩ => exact absurd rfl hb) (by show 86 + 0 = j.val; omega),
          mulf_apply, pay3_apply, pay4_apply]

end Cert.KernelIdeal.Level2

end
-- ==== Proof.Level2KernelArr.lean ====
/-
  Level 2's result array after the kernel's run.

  The grid has one point per image; point `t` reads image `t`'s blocks of the three argument arrays (each window's
  block index is (t, 0, 0, 0)) and writes block (t, 0, 0) of the result.  What it writes is the level's function of
  its blocks, which is image `t` of the level's function of the whole arrays; the eight blocks fill the result
  array, so the array ends as the level's function of the three launch arrays.
-/
import proofs.«149197_j15719580303963_2_alg».proof.Proof.KernelRun
import proofs.«149197_j15719580303963_2_alg».proof.Proof.Level2KernelPay

set_option maxRecDepth 16384

noncomputable section

namespace Cert.KernelIdeal.Level2

open Cert.KernelIdeal Cert.KernelIdeal.Gen Cert.KernelIdeal.Levels Idealize.ShloMosaic Idealize.ShloMosaic.TcCoe Idealize.SL.Sem
open Idealize.ShloMosaic.ValueIdx Cert.Level2
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem idx_facts0 : ∀ t : Fin cfg2.N, win2_0.index t (0 : Fin 4) = t.val ∧ win2_0.index t (1 : Fin 4) = 0
    ∧ win2_0.index t (2 : Fin 4) = 0 ∧ win2_0.index t (3 : Fin 4) = 0 :=
  (by decide +kernel : ∀ t : Fin grid2.N, _)

theorem idx_facts1 : ∀ t : Fin cfg2.N, win2_1.index t (0 : Fin 4) = t.val ∧ win2_1.index t (1 : Fin 4) = 0
    ∧ win2_1.index t (2 : Fin 4) = 0 ∧ win2_1.index t (3 : Fin 4) = 0 :=
  (by decide +kernel : ∀ t : Fin grid2.N, _)

theorem idx_facts2 : ∀ t : Fin cfg2.N, win2_2.index t (0 : Fin 4) = t.val ∧ win2_2.index t (1 : Fin 4) = 0
    ∧ win2_2.index t (2 : Fin 4) = 0 ∧ win2_2.index t (3 : Fin 4) = 0 :=
  (by decide +kernel : ∀ t : Fin grid2.N, _)

theorem idx_facts3 : ∀ t : Fin cfg2.N, win2_3.index t (0 : Fin 3) = t.val ∧ win2_3.index t (1 : Fin 3) = 0
    ∧ win2_3.index t (2 : Fin 3) = 0 :=
  (by decide +kernel : ∀ t : Fin grid2.N, _)

/-- Image `t`'s block of window 0 is image `t` of the launch array. -/
theorem block0 (c : Dev nD) (t : Fin cfg2.N) (b : Fin 8) (hb : b.val = t.val) (ch : Fin 80) (r : Fin 40) (q : Fin 40) :
    (iblk2 (V2 m ρ) c 0 t : S1x80x40x40.Idx → EReal) (ix4 0 ch r q)
      = (m ((c : Thread nD τ).loc main_arg6) : S8x80x40x40.Idx → EReal) (ix4 b ch r q) := by
  obtain ⟨e0, e1, e2, e3⟩ := idx_facts0 t
  unfold iblk2
  rw [View.read_apply]
  show V2 m ρ c main_arg6 _ = _
  rw [in2 m ρ c main_arg6 (by decide) (by decide)]
  refine congrArg _ (funext fun a => Fin.ext ?_)
  match a with
  | ⟨0, _⟩ => show win2_0.index t (0 : Fin 4) * 1 + 1 * 0 = b.val; omega
  | ⟨1, _⟩ => show win2_0.index t (1 : Fin 4) * 80 + 1 * ch.val = ch.val; omega
  | ⟨2, _⟩ => show win2_0.index t (2 : Fin 4) * 40 + 1 * r.val = r.val; omega
  | ⟨3, _⟩ => show win2_0.index t (3 : Fin 4) * 40 + 1 * q.val = q.val; omega

/-- Image `t`'s block of window 1 is image `t` of the launch array. -/
theorem block1 (c : Dev nD) (t : Fin cfg2.N) (b : Fin 8) (hb : b.val = t.val) (ch : Fin 4) (r : Fin 40) (q : Fin 40) :
    (iblk2 (V2 m ρ) c 1 t : S1x4x40x40.Idx → EReal) (ix4 0 ch r q)
      = (m ((c : Thread nD τ).loc main_arg7) : S8x4x40x40.Idx → EReal) (ix4 b ch r q) := by
  obtain ⟨e0, e1, e2, e3⟩ := idx_facts1 t
  unfold iblk2
  rw [View.read_apply]
  show V2 m ρ c main_arg7 _ = _
  rw [in2 m ρ c main_arg7 (by decide) (by decide)]
  refine congrArg _ (funext fun a => Fin.ext ?_)
  match a with
  | ⟨0, _⟩ => show win2_1.index t (0 : Fin 4) * 1 + 1 * 0 = b.val; omega
  | ⟨1, _⟩ => show win2_1.index t (1 : Fin 4) * 4 + 1 * ch.val = ch.val; omega
  | ⟨2, _⟩ => show win2_1.index t (2 : Fin 4) * 40 + 1 * r.val = r.val; omega
  | ⟨3, _⟩ => show win2_1.index t (3 : Fin 4) * 40 + 1 * q.val = q.val; omega

/-- Image `t`'s block of window 2 is image `t` of the launch array. -/
theorem block2 (c : Dev nD) (t : Fin cfg2.N) (b : Fin 8) (hb : b.val = t.val) (ch : Fin 1) (r : Fin 40) (q : Fin 40) :
    (iblk2 (V2 m ρ) c 2 t : S1x1x40x40.Idx → EReal) (ix4 0 ch r q)
      = (m ((c : Thread nD τ).loc main_arg8) : S8x1x40x40.Idx → EReal) (ix4 b ch r q) := by
  obtain ⟨e0, e1, e2, e3⟩ := idx_facts2 t
  unfold iblk2
  rw [View.read_apply]
  show V2 m ρ c main_arg8 _ = _
  rw [in2 m ρ c main_arg8 (by decide) (by decide)]
  refine congrArg _ (funext fun a => Fin.ext ?_)
  match a with
  | ⟨0, _⟩ => show win2_2.index t (0 : Fin 4) * 1 + 1 * 0 = b.val; omega
  | ⟨1, _⟩ => show win2_2.index t (1 : Fin 4) * 1 + 1 * ch.val = ch.val; omega
  | ⟨2, _⟩ => show win2_2.index t (2 : Fin 4) * 40 + 1 * r.val = r.val; omega
  | ⟨3, _⟩ => show win2_2.index t (3 : Fin 4) * 40 + 1 * q.val = q.val; omega

/-- The level's function of the three launch arrays. -/
abbrev result (c : Dev nD) : S8x1600x87.Idx → EReal :=
  out (B := 8) (m ((c : Thread nD τ).loc main_arg6) : S8x80x40x40.Idx → EReal)
    (m ((c : Thread nD τ).loc main_arg7) : S8x4x40x40.Idx → EReal) (m ((c : Thread nD τ).loc main_arg8) : S8x1x40x40.Idx → EReal)

/-- What point `t` writes back is block `t` of `result`. -/
theorem flushed_eq (c : Dev nD) (t : Fin cfg2.N) :
    (dat2 (V2 m ρ) c).flushed 3 t = ((cfg2.win 3).blk t).view.read (Elt Ideal) (result m c) := by
  show (cfg2.win 3).cut (grid2.coords t) ((dat2 (V2 m ρ) c).after 3 t) = _
  rw [after2_3]
  unfold out2_3
  rw [View.canon_unit_zero hz3]
  simp only [View.ld_unit_zero (S := S1x80x40x40) hz4, View.ld_unit_zero (S := S1x4x40x40) hz4, View.ld_unit_zero (S := S1x1x40x40) hz4]
  rw [pay_eq]
  funext y
  obtain ⟨a, p, j, rfl⟩ : ∃ (a : Fin 1) (p : Fin 1600) (j : Fin 87), y = ix3 a p j := ⟨y 0, y 1, y 2, eq_ix3 y⟩
  have ha : a = 0 := Subsingleton.elim _ _
  subst ha
  have ht : t.val < 8 := by have h1 := t.isLt; have h2 : cfg2.N = 8 := N_2; omega
  obtain ⟨e0, e1, e2⟩ := idx_facts3 t
  have hemb : ((cfg2.win 3).blk t).view.emb (ix3 (0 : Fin 1) p j) = (ix3 (⟨t.val, ht⟩ : Fin 8) p j : S8x1600x87.Idx) := by
    funext a; apply Fin.ext
    match a with
    | ⟨0, _⟩ => show win2_3.index t (0 : Fin 3) * 1 + 1 * 0 = t.val; omega
    | ⟨1, _⟩ => show win2_3.index t (1 : Fin 3) * 1600 + 1 * p.val = p.val; omega
    | ⟨2, _⟩ => show win2_3.index t (2 : Fin 3) * 87 + 1 * j.val = j.val; omega
  show out (B := 1) _ _ _ (ix3 0 p j) = result m c (((cfg2.win 3).blk t).view.emb (ix3 (0 : Fin 1) p j))
  rw [hemb]
  show entry (B := 1) _ _ _ 0 p j = entry (B := 8) _ _ _ ⟨t.val, ht⟩ p j
  exact entry_member _ _ _ _ _ _ 0 ⟨t.val, ht⟩ (fun ch r q => block0 m ρ c t ⟨t.val, ht⟩ rfl ch r q)
    (fun ch r q => block1 m ρ c t ⟨t.val, ht⟩ rfl ch r q) (fun ch r q => block2 m ρ c t ⟨t.val, ht⟩ rfl ch r q) p j

/-- An index of the result array whose image is `t` lies in point `t`'s block. -/
theorem mem_blk (t : Fin cfg2.N) (i : S8x1600x87.Idx) (h0 : (i 0).val = t.val) : i ∈ ((cfg2.win 3).blk t).view.set := by
  obtain ⟨e0, e1, e2⟩ := idx_facts3 t
  have hi1 : (i 1).val < 1600 := (i 1).isLt
  have hi2 : (i 2).val < 87 := (i 2).isLt
  show i ∈ ((View.whole main_v2).slice (win2_3.rect t)).set
  rw [View.set_slice_whole, Rect.mem_set_unit]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 1600 ≤ (i 1).val ∧ (i 1).val < win2_3.index t (1 : Fin 3) * 1600 + 1600; omega
  | ⟨2, _⟩ => show win2_3.index t (2 : Fin 3) * 87 ≤ (i 2).val ∧ (i 2).val < win2_3.index t (2 : Fin 3) * 87 + 87; omega

/-- The result array after the run. -/
theorem final (c : Dev nD) : (dat2 (V2 m ρ) c).arrAt 3 cfg2.N = result m c :=
  (dat2 (V2 m ρ) c).arrAt_eq_of_cover 3 (result m c) (fun t _ => flushed_eq m ρ c t) fun i =>
    have hi0 : ((i : S8x1600x87.Idx) 0).val < 8 := ((i : S8x1600x87.Idx) 0).isLt
    have hN : cfg2.N = 8 := N_2
    ⟨⟨((i : S8x1600x87.Idx) 0).val, by omega⟩, flush2_3 _, mem_blk _ i rfl⟩

/-- Level 2's result buffer at the end of the whole program. -/
theorem result_eq (c : Dev nD) : W5 m ρ c (Proc.devRef .tc main_v2) = result m c :=
  (res2 m ρ c).trans (final m ρ c)

end Cert.KernelIdeal.Level2

end
-- ==== Proof.Level2Ref.lean ====
/-
  Level 2 of the reference, entry by entry: the host program's composed term for its result is the level's function
  (`Cert.Level2.out`) of the three argument arrays, read as stacks of eight images.
-/
import proofs.«149197_j15719580303963_2_alg».proof.Proof.Gen.ReferenceIdeal.Run
import proofs.«149197_j15719580303963_2_alg».proof.Proof.LibMaskCentre
import proofs.«149197_j15719580303963_2_alg».proof.Proof.Level2Spec
import Idealize.ShloMosaic.Lib.Pipeline.Value
import Idealize.ShloMosaic.Lib.ValueIdx
import Idealize.ShloMosaic.PureOps.Ideal.Laws

set_option maxRecDepth 16384

noncomputable section

namespace Cert.ReferenceIdeal.Level2

open Cert.ReferenceIdeal Cert.ReferenceIdeal.Value Idealize.ShloMosaic Idealize.ShloMosaic.TcCoe Idealize.ShloMosaic.StableHlo
open Idealize.ShloMosaic.ValueIdx Cert.Level2
open Cert.ReferenceIdeal.Facts₀ Cert.ReferenceIdeal.Facts

section Layout
variable {α : Type}

/-- A stack [8, 80, 40, 40] (image, channel, row, column) re-laid as [8, 1600, 80] (image, location, channel). -/
theorem relaid80 (x : S8x80x40x40.Idx → α) (h2 : S8x80x40x40.Transposes [0, 2, 3, 1] S8x40x40x80)
    (h3 : S8x40x40x80.ShapeCasts S8x1600x80) (b : Fin 8) (p : Fin 1600) (ch : Fin 80) :
    shapeCast S8x1600x80 (transpose S8x40x40x80 [0, 2, 3, 1] x h2) h3 (ix3 b p ch) = x (ix4 b ch (rowOf p) (colOf p)) := by
  have hp := p.isLt
  rw [shapeCast_apply _ h3 (ix3 b p ch) (ix4 b (rowOf p) (colOf p) ch) (by
        rw [Shape.rowMajor_val_four, Shape.rowMajor_val_three]
        show ((b.val * 40 + p.val / 40) * 40 + p.val % 40) * 80 + ch.val = (b.val * 1600 + p.val) * 80 + ch.val
        omega),
      transpose_apply _ _ h2 _ (ix4 b ch (rowOf p) (colOf p)) (by
        intro a; match a with | ⟨0, _⟩ => rfl | ⟨1, _⟩ => rfl | ⟨2, _⟩ => rfl | ⟨3, _⟩ => rfl)]

/-- A stack [8, 4, 40, 40] (image, channel, row, column) re-laid as [8, 1600, 4] (image, location, channel). -/
theorem relaid4 (x : S8x4x40x40.Idx → α) (h2 : S8x4x40x40.Transposes [0, 2, 3, 1] S8x40x40x4)
    (h3 : S8x40x40x4.ShapeCasts S8x1600x4) (b : Fin 8) (p : Fin 1600) (ch : Fin 4) :
    shapeCast S8x1600x4 (transpose S8x40x40x4 [0, 2, 3, 1] x h2) h3 (ix3 b p ch) = x (ix4 b ch (rowOf p) (colOf p)) := by
  have hp := p.isLt
  rw [shapeCast_apply _ h3 (ix3 b p ch) (ix4 b (rowOf p) (colOf p) ch) (by
        rw [Shape.rowMajor_val_four, Shape.rowMajor_val_three]
        show ((b.val * 40 + p.val / 40) * 40 + p.val % 40) * 4 + ch.val = (b.val * 1600 + p.val) * 4 + ch.val
        omega),
      transpose_apply _ _ h2 _ (ix4 b ch (rowOf p) (colOf p)) (by
        intro a; match a with | ⟨0, _⟩ => rfl | ⟨1, _⟩ => rfl | ⟨2, _⟩ => rfl | ⟨3, _⟩ => rfl)]

/-- A stack [8, 1, 40, 40] (image, channel, row, column) re-laid as [8, 1600, 1] (image, location, channel). -/
theorem relaid1 (x : S8x1x40x40.Idx → α) (h2 : S8x1x40x40.Transposes [0, 2, 3, 1] S8x40x40x1)
    (h3 : S8x40x40x1.ShapeCasts S8x1600x1) (b : Fin 8) (p : Fin 1600) (ch : Fin 1) :
    shapeCast S8x1600x1 (transpose S8x40x40x1 [0, 2, 3, 1] x h2) h3 (ix3 b p ch) = x (ix4 b ch (rowOf p) (colOf p)) := by
  have hp := p.isLt
  rw [shapeCast_apply _ h3 (ix3 b p ch) (ix4 b (rowOf p) (colOf p) ch) (by
        rw [Shape.rowMajor_val_four, Shape.rowMajor_val_three]
        show ((b.val * 40 + p.val / 40) * 40 + p.val % 40) * 1 + ch.val = (b.val * 1600 + p.val) * 1 + ch.val
        omega),
      transpose_apply _ _ h2 _ (ix4 b ch (rowOf p) (colOf p)) (by
        intro a; match a with | ⟨0, _⟩ => rfl | ⟨1, _⟩ => rfl | ⟨2, _⟩ => rfl | ⟨3, _⟩ => rfl)]

end Layout

/-- An unsigned integer-to-float conversion of a vector, read at an index. -/
theorem uitofp_at {s : Shape} {w : Nat} (x : IVec s w) (i : s.Idx) :
    (uitofp .f32 x : FVec Ideal s .f32) i = FloatOps.uitofp (F := Ideal) .f32 (x i) := rfl

variable (V0 : Valuation τ sig (Elt Ideal))

/-- The scores of a location, channel by channel. -/
theorem scores_apply (b : Fin 8) (p : Fin 1600) (ch : Fin 80) :
    (res_main_v75 V0 : S8x1600x80.Idx → EReal) (ix3 b p ch)
      = (V0 (Proc.devRef .tc main_arg6) : S8x80x40x40.Idx → EReal) (ix4 b ch (rowOf p) (colOf p)) := by
  unfold res_main_v75
  exact relaid80 _ _ _ b p ch

/-- The host's maximum over a location's 80 scores is the greatest class score. -/
theorem top_apply (b : Fin 8) (p : Fin 1600) :
    Host.reduce FloatOps.maximumf (res_main_v75 V0) (constant S_ .f32 0xFF800000#32) reducesTo_S8x1600x80_S8x1600_d2 h_S_ (ix2 b p)
      = top (B := 8) (V0 (Proc.devRef .tc main_arg6) : S8x80x40x40.Idx → EReal) b p := by
  have hR : S8x1600x80.Reduces [2] S8x1600 := by decide
  rw [Host.reduce_eq_fold_single FloatOps.maximumf _ _ reducesTo_S8x1600x80_S8x1600_d2 hR h_S_ (ix2 b p)]
  unfold top
  refine Finset.fold_congr (fun ch _ => ?_)
  show (res_main_v75 V0 : S8x1600x80.Idx → EReal) (hR.lift (ix2 b p) ch) = _
  have e : hR.lift (ix2 b p) ch = ix3 b p ch := funext fun a => Fin.ext (by match a with | ⟨0, _⟩ => rfl | ⟨1, _⟩ => rfl | ⟨2, _⟩ => rfl)
  rw [e]
  exact scores_apply V0 b p ch

/-- The mask of a location. -/
theorem mask_apply (b : Fin 8) (p : Fin 1600) (q : Fin 1) :
    (res_main_v84 V0 : S8x1600x1.Idx → EReal) (ix3 b p q) = keep (B := 8) (V0 (Proc.devRef .tc main_arg6) : S8x80x40x40.Idx → EReal) b p := by
  unfold res_main_v84
  rw [uitofp_at, broadcastInDim_apply ![0, 1] bcast_S8x1600_S8x1600x1_0_1 _ (ix3 b p q) (ix2 b p) (by
      intro a; match a with | ⟨0, _⟩ => rfl | ⟨1, _⟩ => rfl),
    cmpf_apply,
    broadcastInDim_apply ![] bcast_S_S8x1600 _ (ix2 b p) ix0 (fun a => a.elim0)]
  refine (congrArg (fun v : EReal => ((((Ideal.cmp .ogt v (Ideal.ofBits .f32 0x3F000000#32)).toNat : ℕ) : ℝ) : EReal)) (top_apply V0 b p)).trans ?_
  rfl

/-- The mask column broadcast along the channels reads the location's mask. -/
theorem maskRow (C : Nat) (hb : S8x1600x1.BroadcastsInDim (⟨3, ![8, 1600, C]⟩ : Shape) ![0, 1, 2]) (b : Fin 8) (p : Fin 1600) (ch : Fin C) :
    broadcastInDim (⟨3, ![8, 1600, C]⟩ : Shape) ![0, 1, 2] hb (res_main_v84 V0 : S8x1600x1.Idx → EReal) (ix3 b p ch)
      = keep (B := 8) (V0 (Proc.devRef .tc main_arg6) : S8x80x40x40.Idx → EReal) b p := by
  rw [broadcastInDim_apply ![0, 1, 2] hb _ (ix3 b p ch) (ix3 b p 0) (by
      intro a; match a with | ⟨0, _⟩ => rfl | ⟨1, _⟩ => rfl | ⟨2, _⟩ => rfl)]
  exact mask_apply V0 b p 0

/-- The integer pixel centres, stacked on the last axis, flattened and converted: the centre of a location. -/
theorem centre_apply (X Y : IVec S40x40 32)
    (hX : ∀ (r q : Fin 40), X (ix2 r q) = BitVec.ofNat 32 q.val * BitVec.ofNat 32 32 + BitVec.ofNat 32 16)
    (hY : ∀ (r q : Fin 40), Y (ix2 r q) = BitVec.ofNat 32 r.val * BitVec.ofNat 32 32 + BitVec.ofNat 32 16)
    (b : Fin 8) (p : Fin 1600) (j : Fin 2) :
    broadcastInDim S8x1600x2 ![1, 2] bcast_S1600x2_S8x1600x2_1_2 (sitofp (F := Ideal) .f32 (shapeCast S1600x2 (concatenate S40x40x2 2
        [⟨S40x40x1, broadcastInDim S40x40x1 ![0, 1] bcast_S40x40_S40x40x1_0_1 X⟩, ⟨S40x40x1, broadcastInDim S40x40x1 ![0, 1] bcast_S40x40_S40x40x1_0_1 Y⟩]
        concatenates_S40x40x1_S40x40x1_S40x40x2_d2) shapeCasts_S40x40x2_S1600x2)) (ix3 b p j) = centre p j := by
  have hp := p.isLt
  have hj := j.isLt
  have hr := (rowOf p).isLt
  have hc := (colOf p).isLt
  rw [broadcastInDim_apply ![1, 2] bcast_S1600x2_S8x1600x2_1_2 _ (ix3 b p j) (ix2 p j) (by
      intro a; match a with | ⟨0, _⟩ => rfl | ⟨1, _⟩ => rfl),
    sitofp_apply,
    shapeCast_apply _ shapeCasts_S40x40x2_S1600x2 (ix2 p j) (ix3 (rowOf p) (colOf p) j) (by
      rw [Shape.rowMajor_val_three, Shape.rowMajor_val_two]
      show ((p.val / 40) * 40 + p.val % 40) * 2 + j.val = p.val * 2 + j.val
      omega)]
  unfold centre
  rcases Nat.lt_or_ge j.val 1 with hj0 | hj1
  · rw [concatenate_pair_apply_left (t := S40x40x2) (s₁ := S40x40x1) (s₂ := S40x40x1) (2 : Fin 3) _ _ concatenates_S40x40x1_S40x40x1_S40x40x2_d2
        (ix3 (rowOf p) (colOf p) j) rfl (ix3 (rowOf p) (colOf p) (0 : Fin 1)) (fun a => by
          match a with
          | ⟨0, _⟩ => rfl
          | ⟨1, _⟩ => rfl
          | ⟨2, _⟩ => show 0 = j.val; omega),
      broadcastInDim_apply ![0, 1] bcast_S40x40_S40x40x1_0_1 _ _ (ix2 (rowOf p) (colOf p)) (by
        intro a; match a with | ⟨0, _⟩ => rfl | ⟨1, _⟩ => rfl),
      hX]
    show ((((BitVec.ofNat 32 (colOf p).val * BitVec.ofNat 32 32 + BitVec.ofNat 32 16).toInt : ℤ) : ℝ) : EReal) = _
    rw [Cert.Lib.toInt_affine _ _ _ (by omega), if_pos (by omega)]
    push_cast
    rfl
  · rw [concatenate_pair_apply_right (t := S40x40x2) (s₁ := S40x40x1) (s₂ := S40x40x1) (2 : Fin 3) _ _ concatenates_S40x40x1_S40x40x1_S40x40x2_d2
        (ix3 (rowOf p) (colOf p) j) rfl rfl (ix3 (rowOf p) (colOf p) (0 : Fin 1)) (fun a ha => by
          match a with
          | ⟨0, _⟩ => rfl
          | ⟨1, _⟩ => rfl
          | ⟨2, _⟩ => exact absurd rfl ha) (by show 0 + 1 = j.val; omega),
      broadcastInDim_apply ![0, 1] bcast_S40x40_S40x40x1_0_1 _ _ (ix2 (rowOf p) (colOf p)) (by
        intro a; match a with | ⟨0, _⟩ => rfl | ⟨1, _⟩ => rfl),
      hY]
    show ((((BitVec.ofNat 32 (rowOf p).val * BitVec.ofNat 32 32 + BitVec.ofNat 32 16).toInt : ℤ) : ℝ) : EReal) = _
    rw [Cert.Lib.toInt_affine _ _ _ (by omega), if_neg (by omega)]
    push_cast
    rfl

/-- The reference's result for level 2 is the level's function of the three argument arrays. -/
theorem result_eq :
    val4 V0 (Proc.devRef .tc main_v110)
      = out (B := 8) (V0 (Proc.devRef .tc main_arg6) : S8x80x40x40.Idx → EReal)
          (V0 (Proc.devRef .tc main_arg7) : S8x4x40x40.Idx → EReal) (V0 (Proc.devRef .tc main_arg8) : S8x1x40x40.Idx → EReal) := by
  rw [val4_main_v110]
  funext i
  obtain ⟨b, p, j, rfl⟩ : ∃ (b : Fin 8) (p : Fin 1600) (j : Fin 87), i = ix3 b p j := ⟨i 0, i 1, i 2, eq_ix3 i⟩
  have hj := j.isLt
  rw [out_apply]
  by_cases h : j.val < 2
  · rw [entry_centre _ _ _ _ _ _ h,
      concatenate_apply_piece (2 : Fin 3) _ _ (ix3 b p j) 0 (by show (0 : ℕ) < 4; omega) S8x1600x2 _ rfl rfl 0 rfl (ix3 b p ⟨j.val, h⟩)
        (fun a ha => by match a with
          | ⟨0, _⟩ => rfl
          | ⟨1, _⟩ => rfl
          | ⟨2, _⟩ => exact absurd rfl ha) (by show 0 + j.val = j.val; omega),
      mulf_apply]
    refine congrArg₂ (fun u v : EReal => u * v) ?_ (maskRow V0 2 _ b p ⟨j.val, h⟩)
    exact centre_apply _ _ (fun r q => rfl) (fun r q => rfl) b p ⟨j.val, h⟩
  · by_cases h2 : j.val < 82
    · rw [entry_cls _ _ _ _ _ _ h h2,
        concatenate_apply_piece (2 : Fin 3) _ _ (ix3 b p j) 1 (by show (1 : ℕ) < 4; omega) S8x1600x80 _ rfl rfl 2 rfl (ix3 b p ⟨j.val - 2, by omega⟩)
          (fun a ha => by match a with
            | ⟨0, _⟩ => rfl
            | ⟨1, _⟩ => rfl
            | ⟨2, _⟩ => exact absurd rfl ha) (by show 2 + (j.val - 2) = j.val; omega),
        mulf_apply]
      exact congrArg₂ (fun u v : EReal => u * v) (scores_apply V0 b p ⟨j.val - 2, by omega⟩) (maskRow V0 80 _ b p ⟨j.val - 2, by omega⟩)
    · by_cases h3 : j.val < 86
      · rw [entry_bbox _ _ _ _ _ _ h h2 h3,
          concatenate_apply_piece (2 : Fin 3) _ _ (ix3 b p j) 2 (by show (2 : ℕ) < 4; omega) S8x1600x4 _ rfl rfl 82 rfl (ix3 b p ⟨j.val - 82, by omega⟩)
            (fun a ha => by match a with
              | ⟨0, _⟩ => rfl
              | ⟨1, _⟩ => rfl
              | ⟨2, _⟩ => exact absurd rfl ha) (by show 82 + (j.val - 82) = j.val; omega),
          mulf_apply]
        exact congrArg₂ (fun u v : EReal => u * v) (relaid4 _ _ _ b p ⟨j.val - 82, by omega⟩) (maskRow V0 4 _ b p ⟨j.val - 82, by omega⟩)
      · rw [entry_ctr _ _ _ _ _ _ h h2 h3,
          concatenate_apply_piece (2 : Fin 3) _ _ (ix3 b p j) 3 (by show (3 : ℕ) < 4; omega) S8x1600x1 _ rfl rfl 86 rfl (ix3 b p ⟨0, by decide⟩)
            (fun a ha => by match a with
              | ⟨0, _⟩ => rfl
              | ⟨1, _⟩ => rfl
              | ⟨2, _⟩ => exact absurd rfl ha) (by show 86 + 0 = j.val; omega),
          mulf_apply]
        exact congrArg₂ (fun u v : EReal => u * v) (relaid1 _ _ _ b p ⟨0, by decide⟩) (mask_apply V0 b p ⟨0, by decide⟩)

end Cert.ReferenceIdeal.Level2

end
-- ==== Proof.Level3Spec.lean ====
/-
  One pyramid level of the filter, as a function of its three arrays: class scores [B, 80, 20, 20], box offsets
  [B, 4, 20, 20] and centre-ness [B, 1, 20, 20] (image, channel, row, column).

  The result is [B, 400, 87]: for image `b` and location `p` = row · 20 + column, the 87 entries are the pixel centre
  (x = column · 64 + 32, y = row · 64 + 32), the 80 class scores, the 4 box offsets and the centre-ness at that
  location, every one multiplied by the location's mask: 1 when the greatest of its 80 class scores (from −∞)
  exceeds one half, 0 otherwise.  Stated for any number `B` of images, so that one image's block and the whole
  stack of eight are the same function.
-/
import Idealize.ShloMosaic.PureOps.Ideal
import Idealize.ShloMosaic.Lib.ValueIdx

noncomputable section

namespace Cert.Level3

open Idealize.ShloMosaic Idealize.ShloMosaic.ValueIdx

/-- The row of a flattened location. -/
def rowOf (p : Fin 400) : Fin 20 := ⟨p.val / 20, by have := p.isLt; omega⟩
/-- The column of a flattened location. -/
def colOf (p : Fin 400) : Fin 20 := ⟨p.val % 20, Nat.mod_lt _ (by decide)⟩

variable {B : Nat}

/-- The greatest class score at a location, starting from −∞. -/
def top (cls : (⟨4, ![B, 80, 20, 20]⟩ : Shape).Idx → EReal) (b : Fin B) (p : Fin 400) : EReal :=
  (Finset.univ : Finset (Fin 80)).fold max (Ideal.ofBits .f32 0xFF800000#32) fun ch => cls (ix4 b ch (rowOf p) (colOf p))

/-- The mask of a location: 1 when its greatest class score exceeds one half, else 0. -/
def keep (cls : (⟨4, ![B, 80, 20, 20]⟩ : Shape).Idx → EReal) (b : Fin B) (p : Fin 400) : EReal :=
  ((((Ideal.cmp .ogt (top cls b p) (Ideal.ofBits .f32 0x3F000000#32)).toNat : ℕ) : ℝ) : EReal)

/-- The pixel centre of a location: x (entry 0) from the column, y (entry 1) from the row. -/
def centre (p : Fin 400) (j : Fin 2) : EReal :=
  if j.val = 0 then ((((colOf p).val * 64 + 32 : ℕ) : ℝ) : EReal) else ((((rowOf p).val * 64 + 32 : ℕ) : ℝ) : EReal)

/-- One entry of the level's result: image `a`, location `p`, entry `j` of the 87. -/
def entry (cls : (⟨4, ![B, 80, 20, 20]⟩ : Shape).Idx → EReal) (bbox : (⟨4, ![B, 4, 20, 20]⟩ : Shape).Idx → EReal)
    (ctr : (⟨4, ![B, 1, 20, 20]⟩ : Shape).Idx → EReal) (a : Fin B) (p : Fin 400) (j : Fin 87) : EReal :=
  (if h : j.val < 2 then centre p ⟨j.val, h⟩
   else if h2 : j.val < 82 then cls (ix4 a ⟨j.val - 2, by omega⟩ (rowOf p) (colOf p))
   else if h3 : j.val < 86 then bbox (ix4 a ⟨j.val - 82, by omega⟩ (rowOf p) (colOf p))
   else ctr (ix4 a ⟨0, by decide⟩ (rowOf p) (colOf p))) * keep cls a p

/-- The level's result. -/
def out (cls : (⟨4, ![B, 80, 20, 20]⟩ : Shape).Idx → EReal) (bbox : (⟨4, ![B, 4, 20, 20]⟩ : Shape).Idx → EReal)
    (ctr : (⟨4, ![B, 1, 20, 20]⟩ : Shape).Idx → EReal) : (⟨3, ![B, 400, 87]⟩ : Shape).Idx → EReal := fun i =>
  entry cls bbox ctr (i 0) (i 1) (i 2)

section Read
variable (cls : (⟨4, ![B, 80, 20, 20]⟩ : Shape).Idx → EReal) (bbox : (⟨4, ![B, 4, 20, 20]⟩ : Shape).Idx → EReal)
  (ctr : (⟨4, ![B, 1, 20, 20]⟩ : Shape).Idx → EReal) (a : Fin B) (p : Fin 400) (j : Fin 87)

theorem out_apply : out cls bbox ctr (ix3 a p j) = entry cls bbox ctr a p j := rfl

/-- Entries 0 and 1: the centre, masked. -/
theorem entry_centre (h : j.val < 2) : entry cls bbox ctr a p j = centre p ⟨j.val, h⟩ * keep cls a p := by
  unfold entry; rw [dif_pos h]

/-- Entries 2 … 81: the class scores, masked. -/
theorem entry_cls (h : ¬ j.val < 2) (h2 : j.val < 82) :
    entry cls bbox ctr a p j = cls (ix4 a ⟨j.val - 2, by omega⟩ (rowOf p) (colOf p)) * keep cls a p := by
  unfold entry; rw [dif_neg h, dif_pos h2]

/-- Entries 82 … 85: the box offsets, masked. -/
theorem entry_bbox (h : ¬ j.val < 2) (h2 : ¬ j.val < 82) (h3 : j.val < 86) :
    entry cls bbox ctr a p j = bbox (ix4 a ⟨j.val - 82, by omega⟩ (rowOf p) (colOf p)) * keep cls a p := by
  unfold entry; rw [dif_neg h, dif_neg h2, dif_pos h3]

/-- Entry 86: the centre-ness, masked. -/
theorem entry_ctr (h : ¬ j.val < 2) (h2 : ¬ j.val < 82) (h3 : ¬ j.val < 86) :
    entry cls bbox ctr a p j = ctr (ix4 a ⟨0, by decide⟩ (rowOf p) (colOf p)) * keep cls a p := by
  unfold entry; rw [dif_neg h, dif_neg h2, dif_neg h3]

end Read

/-- An image's entries depend only on that image's slices of the three arrays: two stacks whose images `a` and `b`
    agree have the same entries there. -/
theorem entry_member {B' : Nat} (cls : (⟨4, ![B, 80, 20, 20]⟩ : Shape).Idx → EReal) (bbox : (⟨4, ![B, 4, 20, 20]⟩ : Shape).Idx → EReal)
    (ctr : (⟨4, ![B, 1, 20, 20]⟩ : Shape).Idx → EReal) (cls' : (⟨4, ![B', 80, 20, 20]⟩ : Shape).Idx → EReal)
    (bbox' : (⟨4, ![B', 4, 20, 20]⟩ : Shape).Idx → EReal) (ctr' : (⟨4, ![B', 1, 20, 20]⟩ : Shape).Idx → EReal) (a : Fin B) (b : Fin B')
    (h0 : ∀ ch r c, cls (ix4 a ch r c) = cls' (ix4 b ch r c)) (h1 : ∀ ch r c, bbox (ix4 a ch r c) = bbox' (ix4 b ch r c))
    (h2 : ∀ ch r c, ctr (ix4 a ch r c) = ctr' (ix4 b ch r c)) (p : Fin 400) (j : Fin 87) :
    entry cls bbox ctr a p j = entry cls' bbox' ctr' b p j := by
  have hk : keep cls a p = keep cls' b p := by
    unfold keep top
    simp only [h0]
  unfold entry
  rw [hk]
  simp only [h0, h1, h2]

end Cert.Level3

end
-- ==== Proof.Level3KernelPay.lean ====
import proofs.«149197_j15719580303963_2_alg».proof.Proof.Gen.KernelIdeal.Skeleton
import proofs.«149197_j15719580303963_2_alg».proof.Proof.LibMaskCentre
import proofs.«149197_j15719580303963_2_alg».proof.Proof.Level3Spec
import Idealize.ShloMosaic.Lib.Pipeline.Value
import Idealize.ShloMosaic.Lib.ValueIdx
import Idealize.ShloMosaic.PureOps.Ideal.Laws

set_option maxRecDepth 16384

noncomputable section

namespace Cert.KernelIdeal.Level3

open Cert.KernelIdeal Cert.KernelIdeal.Gen Idealize.ShloMosaic Idealize.ShloMosaic.ValueIdx Cert.Level3

/-!
  What one grid point of level 3's kernel stores, entry by entry: the body's payload on the blocks of one image is
  the level's function (`Cert.Level3.out`) of those blocks, read as stacks of one image.
-/

section Layout
variable {α : Type}

/-- A [1, 80, 20, 20] block (channel, row, column) re-laid as [400, 80] (location, channel): entry (p, ch) is the block's
    entry at channel `ch`, row `p / 20`, column `p % 20`. -/
theorem relaid80 (x : S1x80x20x20.Idx → α) (h1 : S1x80x20x20.ShapeCasts S80x20x20)
    (h2 : S80x20x20.Transposes [1, 2, 0] S20x20x80) (h3 : S20x20x80.ShapeCasts S400x80) (p : Fin 400) (ch : Fin 80) :
    shapeCast S400x80 (transpose S20x20x80 [1, 2, 0] (shapeCast S80x20x20 x h1) h2) h3 (ix2 p ch)
      = x (ix4 0 ch (rowOf p) (colOf p)) := by
  have hp := p.isLt
  rw [shapeCast_apply _ h3 (ix2 p ch) (ix3 (rowOf p) (colOf p) ch) (by
        rw [Shape.rowMajor_val_three, Shape.rowMajor_val_two]
        show ((p.val / 20) * 20 + p.val % 20) * 80 + ch.val = p.val * 80 + ch.val
        omega),
      transpose_apply _ _ h2 _ (ix3 ch (rowOf p) (colOf p)) (by
        intro b; match b with | ⟨0, _⟩ => rfl | ⟨1, _⟩ => rfl | ⟨2, _⟩ => rfl),
      shapeCast_apply _ h1 _ (ix4 0 ch (rowOf p) (colOf p)) (by
        rw [Shape.rowMajor_val_four, Shape.rowMajor_val_three]
        show ((0 * 80 + ch.val) * 20 + p.val / 20) * 20 + p.val % 20 = (ch.val * 20 + p.val / 20) * 20 + p.val % 20
        omega)]

/-- A [1, 4, 20, 20] block (channel, row, column) re-laid as [400, 4] (location, channel): entry (p, ch) is the block's
    entry at channel `ch`, row `p / 20`, column `p % 20`. -/
theorem relaid4 (x : S1x4x20x20.Idx → α) (h1 : S1x4x20x20.ShapeCasts S4x20x20)
    (h2 : S4x20x20.Transposes [1, 2, 0] S20x20x4) (h3 : S20x20x4.ShapeCasts S400x4) (p : Fin 400) (ch : Fin 4) :
    shapeCast S400x4 (transpose S20x20x4 [1, 2, 0] (shapeCast S4x20x20 x h1) h2) h3 (ix2 p ch)
      = x (ix4 0 ch (rowOf p) (colOf p)) := by
  have hp := p.isLt
  rw [shapeCast_apply _ h3 (ix2 p ch) (ix3 (rowOf p) (colOf p) ch) (by
        rw [Shape.rowMajor_val_three, Shape.rowMajor_val_two]
        show ((p.val / 20) * 20 + p.val % 20) * 4 + ch.val = p.val * 4 + ch.val
        omega),
      transpose_apply _ _ h2 _ (ix3 ch (rowOf p) (colOf p)) (by
        intro b; match b with | ⟨0, _⟩ => rfl | ⟨1, _⟩ => rfl | ⟨2, _⟩ => rfl),
      shapeCast_apply _ h1 _ (ix4 0 ch (rowOf p) (colOf p)) (by
        rw [Shape.rowMajor_val_four, Shape.rowMajor_val_three]
        show ((0 * 4 + ch.val) * 20 + p.val / 20) * 20 + p.val % 20 = (ch.val * 20 + p.val / 20) * 20 + p.val % 20
        omega)]

/-- A [1, 1, 20, 20] block (channel, row, column) re-laid as [400, 1] (location, channel): entry (p, ch) is the block's
    entry at channel `ch`, row `p / 20`, column `p % 20`. -/
theorem relaid1 (x : S1x1x20x20.Idx → α) (h1 : S1x1x20x20.ShapeCasts S1x20x20)
    (h2 : S1x20x20.Transposes [1, 2, 0] S20x20x1) (h3 : S20x20x1.ShapeCasts S400x1) (p : Fin 400) (ch : Fin 1) :
    shapeCast S400x1 (transpose S20x20x1 [1, 2, 0] (shapeCast S1x20x20 x h1) h2) h3 (ix2 p ch)
      = x (ix4 0 ch (rowOf p) (colOf p)) := by
  have hp := p.isLt
  rw [shapeCast_apply _ h3 (ix2 p ch) (ix3 (rowOf p) (colOf p) ch) (by
        rw [Shape.rowMajor_val_three, Shape.rowMajor_val_two]
        show ((p.val / 20) * 20 + p.val % 20) * 1 + ch.val = p.val * 1 + ch.val
        omega),
      transpose_apply _ _ h2 _ (ix3 ch (rowOf p) (colOf p)) (by
        intro b; match b with | ⟨0, _⟩ => rfl | ⟨1, _⟩ => rfl | ⟨2, _⟩ => rfl),
      shapeCast_apply _ h1 _ (ix4 0 ch (rowOf p) (colOf p)) (by
        rw [Shape.rowMajor_val_four, Shape.rowMajor_val_three]
        show ((0 * 1 + ch.val) * 20 + p.val / 20) * 20 + p.val % 20 = (ch.val * 20 + p.val / 20) * 20 + p.val % 20
        omega)]

/-- The two coordinate planes stacked [2, 20, 20] and re-laid as [400, 2]. -/
theorem relaidPair (x : S2x20x20.Idx → α) (h2 : S2x20x20.Transposes [1, 2, 0] S20x20x2) (h3 : S20x20x2.ShapeCasts S400x2)
    (p : Fin 400) (j : Fin 2) :
    shapeCast S400x2 (transpose S20x20x2 [1, 2, 0] x h2) h3 (ix2 p j) = x (ix3 j (rowOf p) (colOf p)) := by
  have hp := p.isLt
  rw [shapeCast_apply _ h3 (ix2 p j) (ix3 (rowOf p) (colOf p) j) (by
        rw [Shape.rowMajor_val_three, Shape.rowMajor_val_two]
        show ((p.val / 20) * 20 + p.val % 20) * 2 + j.val = p.val * 2 + j.val
        omega),
      transpose_apply _ _ h2 _ (ix3 j (rowOf p) (colOf p)) (by
        intro b; match b with | ⟨0, _⟩ => rfl | ⟨1, _⟩ => rfl | ⟨2, _⟩ => rfl)]

end Layout

variable (x0 : Vec Ideal S1x80x20x20 .f32) (x1 : Vec Ideal S1x4x20x20 .f32) (x2 : Vec Ideal S1x1x20x20 .f32)

/-- The scores of a location, channel by channel. -/
theorem pay2_apply (p : Fin 400) (ch : Fin 80) : k3_pay2 (F := Ideal) x0 (ix2 p ch) = x0 (ix4 0 ch (rowOf p) (colOf p)) := by
  unfold k3_pay2; exact relaid80 x0 _ _ _ p ch

/-- The centre-ness of a location. -/
theorem pay3_apply (p : Fin 400) (q : Fin 1) : k3_pay3 (F := Ideal) x2 (ix2 p q) = x2 (ix4 0 q (rowOf p) (colOf p)) := by
  unfold k3_pay3; exact relaid1 x2 _ _ _ p q

/-- The lane maximum over a location's 80 scores is the greatest class score. -/
theorem top_apply (h : S400x80.Reduces [1] S400) (hφ : FKind.Formats .f32) (hacc : (0xFF800000#32 : BitVec 32) = FKind.maximumf.neutral .f32 hφ)
    (p : Fin 400) :
    multiReduction .maximumf [1] S400 (k3_pay2 (F := Ideal) x0) 0xFF800000#32 h hφ hacc (ix1 p) = top (B := 1) x0 0 p := by
  rw [Ideal.multiReduction_maximumf_single]
  unfold top
  refine Finset.fold_congr (fun ch _ => ?_)
  show k3_pay2 x0 (h.lift (ix1 p) ch) = _
  have e : h.lift (ix1 p) ch = ix2 p ch := funext fun a => Fin.ext (by match a with | ⟨0, _⟩ => rfl | ⟨1, _⟩ => rfl)
  rw [e]
  exact pay2_apply x0 p ch

/-- The mask of a location. -/
theorem pay4_apply (p : Fin 400) (q : Fin 1) : k3_pay4 (F := Ideal) x0 (ix2 p q) = keep (B := 1) x0 0 p := by
  unfold k3_pay4
  try dsimp only
  rw [sitofp_apply, extui_apply, cmpf_apply, broadcast_apply,
    shapeCast_apply _ shapeCasts_S400_S400x1 (ix2 p q) (ix1 p) (by
      rw [Shape.rowMajor_val_one, Shape.rowMajor_val_two]
      show p.val = p.val * 1 + q.val
      have := q.isLt; omega)]
  have ht := top_apply x0 reduces_S400x80_S400 (.inl rfl) rfl p
  refine (congrArg (fun v : EReal => (((BitVec.setWidth 32 (Ideal.cmp .ogt v (Ideal.ofBits .f32 0x3F000000#32))).toInt : ℝ) : EReal)) ht).trans ?_
  unfold keep
  exact congrArg (fun r : ℝ => (r : EReal)) (Cert.Lib.toInt_setWidth_bit _)

/-- A mask column broadcast along the channels reads the location's mask. -/
theorem maskRow (C : Nat) (hb : S400x1.Broadcasts (⟨2, ![400, C]⟩ : Shape)) (p : Fin 400) (ch : Fin C) :
    broadcastTo (⟨2, ![400, C]⟩ : Shape) (k3_pay4 (F := Ideal) x0) hb (ix2 p ch) = keep (B := 1) x0 0 p := by
  rw [broadcastTo_apply _ hb (ix2 p ch) (ix2 p 0) (by
      intro a; match a with
      | ⟨0, _⟩ => rfl
      | ⟨1, _⟩ => rfl)]
  exact pay4_apply x0 p 0

/-- The class scores of a location, masked. -/
theorem pay6_apply (p : Fin 400) (ch : Fin 80) :
    k3_pay6 (F := Ideal) x0 (ix2 p ch) = x0 (ix4 0 ch (rowOf p) (colOf p)) * keep (B := 1) x0 0 p := by
  unfold k3_pay6
  try dsimp only
  rw [mulf_apply, pay2_apply]
  exact congrArg _ (maskRow x0 80 _ p ch)

/-- The box offsets of a location, masked. -/
theorem pay7_apply (p : Fin 400) (q : Fin 4) :
    k3_pay7 (F := Ideal) x0 x1 (ix2 p q) = x1 (ix4 0 q (rowOf p) (colOf p)) * keep (B := 1) x0 0 p := by
  unfold k3_pay7
  try dsimp only
  rw [mulf_apply, relaid4 x1 _ _ _ p q]
  exact congrArg _ (maskRow x0 4 _ p q)

/-- The pixel centre of a location, masked. -/
theorem pay5_apply (p : Fin 400) (j : Fin 2) :
    k3_pay5 (F := Ideal) x0 (ix2 p j) = centre p j * keep (B := 1) x0 0 p := by
  unfold k3_pay5
  try dsimp only
  rw [mulf_apply, relaidPair _ _ _ p j]
  refine congr (congrArg _ ?_) (maskRow x0 2 _ p j)
  have hr := (rowOf p).isLt
  have hc := (colOf p).isLt
  unfold centre
  have hj := j.isLt
  rcases Nat.lt_or_ge j.val 1 with hj0 | hj1
  · rw [concatenate_pair_apply_left (t := S2x20x20) (s₁ := S1x20x20) (s₂ := S1x20x20) (0 : Fin 3) _ _ concatenates_S1x20x20_S1x20x20_S2x20x20_d0 (ix3 j (rowOf p) (colOf p)) rfl
        (ix3 (0 : Fin 1) (rowOf p) (colOf p)) (fun b => by
          match b with
          | ⟨0, _⟩ => show 0 = j.val; omega
          | ⟨1, _⟩ => rfl
          | ⟨2, _⟩ => rfl),
      shapeCast_apply _ shapeCasts_S20x20_S1x20x20 _ (ix2 (rowOf p) (colOf p)) (by
        rw [Shape.rowMajor_val_two, Shape.rowMajor_val_three]
        show (rowOf p).val * 20 + (colOf p).val = (0 * 20 + (rowOf p).val) * 20 + (colOf p).val
        omega),
      addf_apply, mulf_apply, broadcast_apply, broadcast_apply, sitofp_apply, iota_single_apply]
    show (((BitVec.ofNat 32 (colOf p).val).toInt : ℝ) : EReal) * Ideal.ofBits .f32 0x42800000#32 + Ideal.ofBits .f32 0x42000000#32 = _
    rw [Cert.Lib.ofBits_64, Cert.Lib.ofBits_32, Cert.Lib.toInt_ofNat_small _ (by omega), if_pos (by omega), ← EReal.coe_mul, ← EReal.coe_add]
    push_cast
    rfl
  · rw [concatenate_pair_apply_right (t := S2x20x20) (s₁ := S1x20x20) (s₂ := S1x20x20) (0 : Fin 3) _ _ concatenates_S1x20x20_S1x20x20_S2x20x20_d0 (ix3 j (rowOf p) (colOf p)) rfl rfl
        (ix3 (0 : Fin 1) (rowOf p) (colOf p))
        (fun b hb => by
          match b with
          | ⟨0, _⟩ => exact absurd rfl hb
          | ⟨1, _⟩ => rfl
          | ⟨2, _⟩ => rfl) (by show 0 + 1 = j.val; omega),
      shapeCast_apply _ shapeCasts_S20x20_S1x20x20 _ (ix2 (rowOf p) (colOf p)) (by
        rw [Shape.rowMajor_val_two, Shape.rowMajor_val_three]
        show (rowOf p).val * 20 + (colOf p).val = (0 * 20 + (rowOf p).val) * 20 + (colOf p).val
        omega),
      addf_apply, mulf_apply, broadcast_apply, broadcast_apply, sitofp_apply, iota_single_apply]
    show (((BitVec.ofNat 32 (rowOf p).val).toInt : ℝ) : EReal) * Ideal.ofBits .f32 0x42800000#32 + Ideal.ofBits .f32 0x42000000#32 = _
    rw [Cert.Lib.ofBits_64, Cert.Lib.ofBits_32, Cert.Lib.toInt_ofNat_small _ (by omega), if_neg (by omega), ← EReal.coe_mul, ← EReal.coe_add]
    push_cast
    rfl

/-- The whole payload of a grid point is the level's function of the point's three blocks. -/
theorem pay_eq :
    k3_pay1 (F := Ideal) (k3_pay3 x2) (k3_pay4 x0) (k3_pay5 x0) (k3_pay6 x0) (k3_pay7 x0 x1) = out (B := 1) x0 x1 x2 := by
  funext i
  obtain ⟨a, p, j, rfl⟩ : ∃ (a : Fin 1) (p : Fin 400) (j : Fin 87), i = ix3 a p j := ⟨i 0, i 1, i 2, eq_ix3 i⟩
  have ha : a = 0 := Subsingleton.elim _ _
  subst ha
  have hj := j.isLt
  unfold k3_pay1
  try dsimp only
  rw [shapeCast_apply _ shapeCasts_S400x87_S1x400x87 _ (ix2 p j) (by
      rw [Shape.rowMajor_val_two, Shape.rowMajor_val_three]
      show p.val * 87 + j.val = (0 * 400 + p.val) * 87 + j.val
      omega)]
  by_cases h : j.val < 2
  · rw [out_apply, entry_centre _ _ _ _ _ _ h,
      concatenate_apply_piece (1 : Fin 2) _ _ (ix2 p j) 0 (by show (0 : ℕ) < 4; omega) S400x2 _ rfl rfl 0 rfl (ix2 p ⟨j.val, h⟩)
        (fun b hb => by match b with
          | ⟨0, _⟩ => rfl
          | ⟨1, _⟩ => exact absurd rfl hb) (by show 0 + j.val = j.val; omega)]
    exact pay5_apply x0 p ⟨j.val, h⟩
  · by_cases h2 : j.val < 82
    · rw [out_apply, entry_cls _ _ _ _ _ _ h h2,
        concatenate_apply_piece (1 : Fin 2) _ _ (ix2 p j) 1 (by show (1 : ℕ) < 4; omega) S400x80 _ rfl rfl 2 rfl (ix2 p ⟨j.val - 2, by omega⟩)
          (fun b hb => by match b with
            | ⟨0, _⟩ => rfl
            | ⟨1, _⟩ => exact absurd rfl hb) (by show 2 + (j.val - 2) = j.val; omega)]
      exact pay6_apply x0 p ⟨j.val - 2, by omega⟩
    · by_cases h3 : j.val < 86
      · rw [out_apply, entry_bbox _ _ _ _ _ _ h h2 h3,
          concatenate_apply_piece (1 : Fin 2) _ _ (ix2 p j) 2 (by show (2 : ℕ) < 4; omega) S400x4 _ rfl rfl 82 rfl (ix2 p ⟨j.val - 82, by omega⟩)
            (fun b hb => by match b with
              | ⟨0, _⟩ => rfl
              | ⟨1, _⟩ => exact absurd rfl hb) (by show 82 + (j.val - 82) = j.val; omega)]
        exact pay7_apply x0 x1 p ⟨j.val - 82, by omega⟩
      · rw [out_apply, entry_ctr _ _ _ _ _ _ h h2 h3,
          concatenate_apply_piece (1 : Fin 2) _ _ (ix2 p j) 3 (by show (3 : ℕ) < 4; omega) S400x1 _ rfl rfl 86 rfl (ix2 p ⟨0, by decide⟩)
            (fun b hb => by match b with
              | ⟨0, _⟩ => rfl
              | ⟨1, _⟩ => exact absurd rfl hb) (by show 86 + 0 = j.val; omega),
          mulf_apply, pay3_apply, pay4_apply]

end Cert.KernelIdeal.Level3

end
-- ==== Proof.Level3KernelArr.lean ====
/-
  Level 3's result array after the kernel's run.

  The grid has one point per image; point `t` reads image `t`'s blocks of the three argument arrays (each window's
  block index is (t, 0, 0, 0)) and writes block (t, 0, 0) of the result.  What it writes is the level's function of
  its blocks, which is image `t` of the level's function of the whole arrays; the eight blocks fill the result
  array, so the array ends as the level's function of the three launch arrays.
-/
import proofs.«149197_j15719580303963_2_alg».proof.Proof.KernelRun
import proofs.«149197_j15719580303963_2_alg».proof.Proof.Level3KernelPay

set_option maxRecDepth 16384

noncomputable section

namespace Cert.KernelIdeal.Level3

open Cert.KernelIdeal Cert.KernelIdeal.Gen Cert.KernelIdeal.Levels Idealize.ShloMosaic Idealize.ShloMosaic.TcCoe Idealize.SL.Sem
open Idealize.ShloMosaic.ValueIdx Cert.Level3
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem idx_facts0 : ∀ t : Fin cfg3.N, win3_0.index t (0 : Fin 4) = t.val ∧ win3_0.index t (1 : Fin 4) = 0
    ∧ win3_0.index t (2 : Fin 4) = 0 ∧ win3_0.index t (3 : Fin 4) = 0 :=
  (by decide +kernel : ∀ t : Fin grid3.N, _)

theorem idx_facts1 : ∀ t : Fin cfg3.N, win3_1.index t (0 : Fin 4) = t.val ∧ win3_1.index t (1 : Fin 4) = 0
    ∧ win3_1.index t (2 : Fin 4) = 0 ∧ win3_1.index t (3 : Fin 4) = 0 :=
  (by decide +kernel : ∀ t : Fin grid3.N, _)

theorem idx_facts2 : ∀ t : Fin cfg3.N, win3_2.index t (0 : Fin 4) = t.val ∧ win3_2.index t (1 : Fin 4) = 0
    ∧ win3_2.index t (2 : Fin 4) = 0 ∧ win3_2.index t (3 : Fin 4) = 0 :=
  (by decide +kernel : ∀ t : Fin grid3.N, _)

theorem idx_facts3 : ∀ t : Fin cfg3.N, win3_3.index t (0 : Fin 3) = t.val ∧ win3_3.index t (1 : Fin 3) = 0
    ∧ win3_3.index t (2 : Fin 3) = 0 :=
  (by decide +kernel : ∀ t : Fin grid3.N, _)

/-- Image `t`'s block of window 0 is image `t` of the launch array. -/
theorem block0 (c : Dev nD) (t : Fin cfg3.N) (b : Fin 8) (hb : b.val = t.val) (ch : Fin 80) (r : Fin 20) (q : Fin 20) :
    (iblk3 (V3 m ρ) c 0 t : S1x80x20x20.Idx → EReal) (ix4 0 ch r q)
      = (m ((c : Thread nD τ).loc main_arg9) : S8x80x20x20.Idx → EReal) (ix4 b ch r q) := by
  obtain ⟨e0, e1, e2, e3⟩ := idx_facts0 t
  unfold iblk3
  rw [View.read_apply]
  show V3 m ρ c main_arg9 _ = _
  rw [in3 m ρ c main_arg9 (by decide) (by decide) (by decide)]
  refine congrArg _ (funext fun a => Fin.ext ?_)
  match a with
  | ⟨0, _⟩ => show win3_0.index t (0 : Fin 4) * 1 + 1 * 0 = b.val; omega
  | ⟨1, _⟩ => show win3_0.index t (1 : Fin 4) * 80 + 1 * ch.val = ch.val; omega
  | ⟨2, _⟩ => show win3_0.index t (2 : Fin 4) * 20 + 1 * r.val = r.val; omega
  | ⟨3, _⟩ => show win3_0.index t (3 : Fin 4) * 20 + 1 * q.val = q.val; omega

/-- Image `t`'s block of window 1 is image `t` of the launch array. -/
theorem block1 (c : Dev nD) (t : Fin cfg3.N) (b : Fin 8) (hb : b.val = t.val) (ch : Fin 4) (r : Fin 20) (q : Fin 20) :
    (iblk3 (V3 m ρ) c 1 t : S1x4x20x20.Idx → EReal) (ix4 0 ch r q)
      = (m ((c : Thread nD τ).loc main_arg10) : S8x4x20x20.Idx → EReal) (ix4 b ch r q) := by
  obtain ⟨e0, e1, e2, e3⟩ := idx_facts1 t
  unfold iblk3
  rw [View.read_apply]
  show V3 m ρ c main_arg10 _ = _
  rw [in3 m ρ c main_arg10 (by decide) (by decide) (by decide)]
  refine congrArg _ (funext fun a => Fin.ext ?_)
  match a with
  | ⟨0, _⟩ => show win3_1.index t (0 : Fin 4) * 1 + 1 * 0 = b.val; omega
  | ⟨1, _⟩ => show win3_1.index t (1 : Fin 4) * 4 + 1 * ch.val = ch.val; omega
  | ⟨2, _⟩ => show win3_1.index t (2 : Fin 4) * 20 + 1 * r.val = r.val; omega
  | ⟨3, _⟩ => show win3_1.index t (3 : Fin 4) * 20 + 1 * q.val = q.val; omega

/-- Image `t`'s block of window 2 is image `t` of the launch array. -/
theorem block2 (c : Dev nD) (t : Fin cfg3.N) (b : Fin 8) (hb : b.val = t.val) (ch : Fin 1) (r : Fin 20) (q : Fin 20) :
    (iblk3 (V3 m ρ) c 2 t : S1x1x20x20.Idx → EReal) (ix4 0 ch r q)
      = (m ((c : Thread nD τ).loc main_arg11) : S8x1x20x20.Idx → EReal) (ix4 b ch r q) := by
  obtain ⟨e0, e1, e2, e3⟩ := idx_facts2 t
  unfold iblk3
  rw [View.read_apply]
  show V3 m ρ c main_arg11 _ = _
  rw [in3 m ρ c main_arg11 (by decide) (by decide) (by decide)]
  refine congrArg _ (funext fun a => Fin.ext ?_)
  match a with
  | ⟨0, _⟩ => show win3_2.index t (0 : Fin 4) * 1 + 1 * 0 = b.val; omega
  | ⟨1, _⟩ => show win3_2.index t (1 : Fin 4) * 1 + 1 * ch.val = ch.val; omega
  | ⟨2, _⟩ => show win3_2.index t (2 : Fin 4) * 20 + 1 * r.val = r.val; omega
  | ⟨3, _⟩ => show win3_2.index t (3 : Fin 4) * 20 + 1 * q.val = q.val; omega

/-- The level's function of the three launch arrays. -/
abbrev result (c : Dev nD) : S8x400x87.Idx → EReal :=
  out (B := 8) (m ((c : Thread nD τ).loc main_arg9) : S8x80x20x20.Idx → EReal)
    (m ((c : Thread nD τ).loc main_arg10) : S8x4x20x20.Idx → EReal) (m ((c : Thread nD τ).loc main_arg11) : S8x1x20x20.Idx → EReal)

/-- What point `t` writes back is block `t` of `result`. -/
theorem flushed_eq (c : Dev nD) (t : Fin cfg3.N) :
    (dat3 (V3 m ρ) c).flushed 3 t = ((cfg3.win 3).blk t).view.read (Elt Ideal) (result m c) := by
  show (cfg3.win 3).cut (grid3.coords t) ((dat3 (V3 m ρ) c).after 3 t) = _
  rw [after3_3]
  unfold out3_3
  rw [View.canon_unit_zero hz3]
  simp only [View.ld_unit_zero (S := S1x80x20x20) hz4, View.ld_unit_zero (S := S1x4x20x20) hz4, View.ld_unit_zero (S := S1x1x20x20) hz4]
  rw [pay_eq]
  funext y
  obtain ⟨a, p, j, rfl⟩ : ∃ (a : Fin 1) (p : Fin 400) (j : Fin 87), y = ix3 a p j := ⟨y 0, y 1, y 2, eq_ix3 y⟩
  have ha : a = 0 := Subsingleton.elim _ _
  subst ha
  have ht : t.val < 8 := by have h1 := t.isLt; have h2 : cfg3.N = 8 := N_3; omega
  obtain ⟨e0, e1, e2⟩ := idx_facts3 t
  have hemb : ((cfg3.win 3).blk t).view.emb (ix3 (0 : Fin 1) p j) = (ix3 (⟨t.val, ht⟩ : Fin 8) p j : S8x400x87.Idx) := by
    funext a; apply Fin.ext
    match a with
    | ⟨0, _⟩ => show win3_3.index t (0 : Fin 3) * 1 + 1 * 0 = t.val; omega
    | ⟨1, _⟩ => show win3_3.index t (1 : Fin 3) * 400 + 1 * p.val = p.val; omega
    | ⟨2, _⟩ => show win3_3.index t (2 : Fin 3) * 87 + 1 * j.val = j.val; omega
  show out (B := 1) _ _ _ (ix3 0 p j) = result m c (((cfg3.win 3).blk t).view.emb (ix3 (0 : Fin 1) p j))
  rw [hemb]
  show entry (B := 1) _ _ _ 0 p j = entry (B := 8) _ _ _ ⟨t.val, ht⟩ p j
  exact entry_member _ _ _ _ _ _ 0 ⟨t.val, ht⟩ (fun ch r q => block0 m ρ c t ⟨t.val, ht⟩ rfl ch r q)
    (fun ch r q => block1 m ρ c t ⟨t.val, ht⟩ rfl ch r q) (fun ch r q => block2 m ρ c t ⟨t.val, ht⟩ rfl ch r q) p j

/-- An index of the result array whose image is `t` lies in point `t`'s block. -/
theorem mem_blk (t : Fin cfg3.N) (i : S8x400x87.Idx) (h0 : (i 0).val = t.val) : i ∈ ((cfg3.win 3).blk t).view.set := by
  obtain ⟨e0, e1, e2⟩ := idx_facts3 t
  have hi1 : (i 1).val < 400 := (i 1).isLt
  have hi2 : (i 2).val < 87 := (i 2).isLt
  show i ∈ ((View.whole main_v3).slice (win3_3.rect t)).set
  rw [View.set_slice_whole, Rect.mem_set_unit]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 400 ≤ (i 1).val ∧ (i 1).val < win3_3.index t (1 : Fin 3) * 400 + 400; omega
  | ⟨2, _⟩ => show win3_3.index t (2 : Fin 3) * 87 ≤ (i 2).val ∧ (i 2).val < win3_3.index t (2 : Fin 3) * 87 + 87; omega

/-- The result array after the run. -/
theorem final (c : Dev nD) : (dat3 (V3 m ρ) c).arrAt 3 cfg3.N = result m c :=
  (dat3 (V3 m ρ) c).arrAt_eq_of_cover 3 (result m c) (fun t _ => flushed_eq m ρ c t) fun i =>
    have hi0 : ((i : S8x400x87.Idx) 0).val < 8 := ((i : S8x400x87.Idx) 0).isLt
    have hN : cfg3.N = 8 := N_3
    ⟨⟨((i : S8x400x87.Idx) 0).val, by omega⟩, flush3_3 _, mem_blk _ i rfl⟩

/-- Level 3's result buffer at the end of the whole program. -/
theorem result_eq (c : Dev nD) : W5 m ρ c (Proc.devRef .tc main_v3) = result m c :=
  (res3 m ρ c).trans (final m ρ c)

end Cert.KernelIdeal.Level3

end
-- ==== Proof.Level3Ref.lean ====
/-
  Level 3 of the reference, entry by entry: the host program's composed term for its result is the level's function
  (`Cert.Level3.out`) of the three argument arrays, read as stacks of eight images.
-/
import proofs.«149197_j15719580303963_2_alg».proof.Proof.Gen.ReferenceIdeal.Run
import proofs.«149197_j15719580303963_2_alg».proof.Proof.LibMaskCentre
import proofs.«149197_j15719580303963_2_alg».proof.Proof.Level3Spec
import Idealize.ShloMosaic.Lib.Pipeline.Value
import Idealize.ShloMosaic.Lib.ValueIdx
import Idealize.ShloMosaic.PureOps.Ideal.Laws

set_option maxRecDepth 16384

noncomputable section

namespace Cert.ReferenceIdeal.Level3

open Cert.ReferenceIdeal Cert.ReferenceIdeal.Value Idealize.ShloMosaic Idealize.ShloMosaic.TcCoe Idealize.ShloMosaic.StableHlo
open Idealize.ShloMosaic.ValueIdx Cert.Level3
open Cert.ReferenceIdeal.Facts₀ Cert.ReferenceIdeal.Facts

section Layout
variable {α : Type}

/-- A stack [8, 80, 20, 20] (image, channel, row, column) re-laid as [8, 400, 80] (image, location, channel). -/
theorem relaid80 (x : S8x80x20x20.Idx → α) (h2 : S8x80x20x20.Transposes [0, 2, 3, 1] S8x20x20x80)
    (h3 : S8x20x20x80.ShapeCasts S8x400x80) (b : Fin 8) (p : Fin 400) (ch : Fin 80) :
    shapeCast S8x400x80 (transpose S8x20x20x80 [0, 2, 3, 1] x h2) h3 (ix3 b p ch) = x (ix4 b ch (rowOf p) (colOf p)) := by
  have hp := p.isLt
  rw [shapeCast_apply _ h3 (ix3 b p ch) (ix4 b (rowOf p) (colOf p) ch) (by
        rw [Shape.rowMajor_val_four, Shape.rowMajor_val_three]
        show ((b.val * 20 + p.val / 20) * 20 + p.val % 20) * 80 + ch.val = (b.val * 400 + p.val) * 80 + ch.val
        omega),
      transpose_apply _ _ h2 _ (ix4 b ch (rowOf p) (colOf p)) (by
        intro a; match a with | ⟨0, _⟩ => rfl | ⟨1, _⟩ => rfl | ⟨2, _⟩ => rfl | ⟨3, _⟩ => rfl)]

/-- A stack [8, 4, 20, 20] (image, channel, row, column) re-laid as [8, 400, 4] (image, location, channel). -/
theorem relaid4 (x : S8x4x20x20.Idx → α) (h2 : S8x4x20x20.Transposes [0, 2, 3, 1] S8x20x20x4)
    (h3 : S8x20x20x4.ShapeCasts S8x400x4) (b : Fin 8) (p : Fin 400) (ch : Fin 4) :
    shapeCast S8x400x4 (transpose S8x20x20x4 [0, 2, 3, 1] x h2) h3 (ix3 b p ch) = x (ix4 b ch (rowOf p) (colOf p)) := by
  have hp := p.isLt
  rw [shapeCast_apply _ h3 (ix3 b p ch) (ix4 b (rowOf p) (colOf p) ch) (by
        rw [Shape.rowMajor_val_four, Shape.rowMajor_val_three]
        show ((b.val * 20 + p.val / 20) * 20 + p.val % 20) * 4 + ch.val = (b.val * 400 + p.val) * 4 + ch.val
        omega),
      transpose_apply _ _ h2 _ (ix4 b ch (rowOf p) (colOf p)) (by
        intro a; match a with | ⟨0, _⟩ => rfl | ⟨1, _⟩ => rfl | ⟨2, _⟩ => rfl | ⟨3, _⟩ => rfl)]

/-- A stack [8, 1, 20, 20] (image, channel, row, column) re-laid as [8, 400, 1] (image, location, channel). -/
theorem relaid1 (x : S8x1x20x20.Idx → α) (h2 : S8x1x20x20.Transposes [0, 2, 3, 1] S8x20x20x1)
    (h3 : S8x20x20x1.ShapeCasts S8x400x1) (b : Fin 8) (p : Fin 400) (ch : Fin 1) :
    shapeCast S8x400x1 (transpose S8x20x20x1 [0, 2, 3, 1] x h2) h3 (ix3 b p ch) = x (ix4 b ch (rowOf p) (colOf p)) := by
  have hp := p.isLt
  rw [shapeCast_apply _ h3 (ix3 b p ch) (ix4 b (rowOf p) (colOf p) ch) (by
        rw [Shape.rowMajor_val_four, Shape.rowMajor_val_three]
        show ((b.val * 20 + p.val / 20) * 20 + p.val % 20) * 1 + ch.val = (b.val * 400 + p.val) * 1 + ch.val
        omega),
      transpose_apply _ _ h2 _ (ix4 b ch (rowOf p) (colOf p)) (by
        intro a; match a with | ⟨0, _⟩ => rfl | ⟨1, _⟩ => rfl | ⟨2, _⟩ => rfl | ⟨3, _⟩ => rfl)]

end Layout

/-- An unsigned integer-to-float conversion of a vector, read at an index. -/
theorem uitofp_at {s : Shape} {w : Nat} (x : IVec s w) (i : s.Idx) :
    (uitofp .f32 x : FVec Ideal s .f32) i = FloatOps.uitofp (F := Ideal) .f32 (x i) := rfl

variable (V0 : Valuation τ sig (Elt Ideal))

/-- The scores of a location, channel by channel. -/
theorem scores_apply (b : Fin 8) (p : Fin 400) (ch : Fin 80) :
    (res_main_v112 V0 : S8x400x80.Idx → EReal) (ix3 b p ch)
      = (V0 (Proc.devRef .tc main_arg9) : S8x80x20x20.Idx → EReal) (ix4 b ch (rowOf p) (colOf p)) := by
  unfold res_main_v112
  exact relaid80 _ _ _ b p ch

/-- The host's maximum over a location's 80 scores is the greatest class score. -/
theorem top_apply (b : Fin 8) (p : Fin 400) :
    Host.reduce FloatOps.maximumf (res_main_v112 V0) (constant S_ .f32 0xFF800000#32) reducesTo_S8x400x80_S8x400_d2 h_S_ (ix2 b p)
      = top (B := 8) (V0 (Proc.devRef .tc main_arg9) : S8x80x20x20.Idx → EReal) b p := by
  have hR : S8x400x80.Reduces [2] S8x400 := by decide
  rw [Host.reduce_eq_fold_single FloatOps.maximumf _ _ reducesTo_S8x400x80_S8x400_d2 hR h_S_ (ix2 b p)]
  unfold top
  refine Finset.fold_congr (fun ch _ => ?_)
  show (res_main_v112 V0 : S8x400x80.Idx → EReal) (hR.lift (ix2 b p) ch) = _
  have e : hR.lift (ix2 b p) ch = ix3 b p ch := funext fun a => Fin.ext (by match a with | ⟨0, _⟩ => rfl | ⟨1, _⟩ => rfl | ⟨2, _⟩ => rfl)
  rw [e]
  exact scores_apply V0 b p ch

/-- The mask of a location. -/
theorem mask_apply (b : Fin 8) (p : Fin 400) (q : Fin 1) :
    (res_main_v121 V0 : S8x400x1.Idx → EReal) (ix3 b p q) = keep (B := 8) (V0 (Proc.devRef .tc main_arg9) : S8x80x20x20.Idx → EReal) b p := by
  unfold res_main_v121
  rw [uitofp_at, broadcastInDim_apply ![0, 1] bcast_S8x400_S8x400x1_0_1 _ (ix3 b p q) (ix2 b p) (by
      intro a; match a with | ⟨0, _⟩ => rfl | ⟨1, _⟩ => rfl),
    cmpf_apply,
    broadcastInDim_apply ![] bcast_S_S8x400 _ (ix2 b p) ix0 (fun a => a.elim0)]
  refine (congrArg (fun v : EReal => ((((Ideal.cmp .ogt v (Ideal.ofBits .f32 0x3F000000#32)).toNat : ℕ) : ℝ) : EReal)) (top_apply V0 b p)).trans ?_
  rfl

/-- The mask column broadcast along the channels reads the location's mask. -/
theorem maskRow (C : Nat) (hb : S8x400x1.BroadcastsInDim (⟨3, ![8, 400, C]⟩ : Shape) ![0, 1, 2]) (b : Fin 8) (p : Fin 400) (ch : Fin C) :
    broadcastInDim (⟨3, ![8, 400, C]⟩ : Shape) ![0, 1, 2] hb (res_main_v121 V0 : S8x400x1.Idx → EReal) (ix3 b p ch)
      = keep (B := 8) (V0 (Proc.devRef .tc main_arg9) : S8x80x20x20.Idx → EReal) b p := by
  rw [broadcastInDim_apply ![0, 1, 2] hb _ (ix3 b p ch) (ix3 b p 0) (by
      intro a; match a with | ⟨0, _⟩ => rfl | ⟨1, _⟩ => rfl | ⟨2, _⟩ => rfl)]
  exact mask_apply V0 b p 0

/-- The integer pixel centres, stacked on the last axis, flattened and converted: the centre of a location. -/
theorem centre_apply (X Y : IVec S20x20 32)
    (hX : ∀ (r q : Fin 20), X (ix2 r q) = BitVec.ofNat 32 q.val * BitVec.ofNat 32 64 + BitVec.ofNat 32 32)
    (hY : ∀ (r q : Fin 20), Y (ix2 r q) = BitVec.ofNat 32 r.val * BitVec.ofNat 32 64 + BitVec.ofNat 32 32)
    (b : Fin 8) (p : Fin 400) (j : Fin 2) :
    broadcastInDim S8x400x2 ![1, 2] bcast_S400x2_S8x400x2_1_2 (sitofp (F := Ideal) .f32 (shapeCast S400x2 (concatenate S20x20x2 2
        [⟨S20x20x1, broadcastInDim S20x20x1 ![0, 1] bcast_S20x20_S20x20x1_0_1 X⟩, ⟨S20x20x1, broadcastInDim S20x20x1 ![0, 1] bcast_S20x20_S20x20x1_0_1 Y⟩]
        concatenates_S20x20x1_S20x20x1_S20x20x2_d2) shapeCasts_S20x20x2_S400x2)) (ix3 b p j) = centre p j := by
  have hp := p.isLt
  have hj := j.isLt
  have hr := (rowOf p).isLt
  have hc := (colOf p).isLt
  rw [broadcastInDim_apply ![1, 2] bcast_S400x2_S8x400x2_1_2 _ (ix3 b p j) (ix2 p j) (by
      intro a; match a with | ⟨0, _⟩ => rfl | ⟨1, _⟩ => rfl),
    sitofp_apply,
    shapeCast_apply _ shapeCasts_S20x20x2_S400x2 (ix2 p j) (ix3 (rowOf p) (colOf p) j) (by
      rw [Shape.rowMajor_val_three, Shape.rowMajor_val_two]
      show ((p.val / 20) * 20 + p.val % 20) * 2 + j.val = p.val * 2 + j.val
      omega)]
  unfold centre
  rcases Nat.lt_or_ge j.val 1 with hj0 | hj1
  · rw [concatenate_pair_apply_left (t := S20x20x2) (s₁ := S20x20x1) (s₂ := S20x20x1) (2 : Fin 3) _ _ concatenates_S20x20x1_S20x20x1_S20x20x2_d2
        (ix3 (rowOf p) (colOf p) j) rfl (ix3 (rowOf p) (colOf p) (0 : Fin 1)) (fun a => by
          match a with
          | ⟨0, _⟩ => rfl
          | ⟨1, _⟩ => rfl
          | ⟨2, _⟩ => show 0 = j.val; omega),
      broadcastInDim_apply ![0, 1] bcast_S20x20_S20x20x1_0_1 _ _ (ix2 (rowOf p) (colOf p)) (by
        intro a; match a with | ⟨0, _⟩ => rfl | ⟨1, _⟩ => rfl),
      hX]
    show ((((BitVec.ofNat 32 (colOf p).val * BitVec.ofNat 32 64 + BitVec.ofNat 32 32).toInt : ℤ) : ℝ) : EReal) = _
    rw [Cert.Lib.toInt_affine _ _ _ (by omega), if_pos (by omega)]
    push_cast
    rfl
  · rw [concatenate_pair_apply_right (t := S20x20x2) (s₁ := S20x20x1) (s₂ := S20x20x1) (2 : Fin 3) _ _ concatenates_S20x20x1_S20x20x1_S20x20x2_d2
        (ix3 (rowOf p) (colOf p) j) rfl rfl (ix3 (rowOf p) (colOf p) (0 : Fin 1)) (fun a ha => by
          match a with
          | ⟨0, _⟩ => rfl
          | ⟨1, _⟩ => rfl
          | ⟨2, _⟩ => exact absurd rfl ha) (by show 0 + 1 = j.val; omega),
      broadcastInDim_apply ![0, 1] bcast_S20x20_S20x20x1_0_1 _ _ (ix2 (rowOf p) (colOf p)) (by
        intro a; match a with | ⟨0, _⟩ => rfl | ⟨1, _⟩ => rfl),
      hY]
    show ((((BitVec.ofNat 32 (rowOf p).val * BitVec.ofNat 32 64 + BitVec.ofNat 32 32).toInt : ℤ) : ℝ) : EReal) = _
    rw [Cert.Lib.toInt_affine _ _ _ (by omega), if_neg (by omega)]
    push_cast
    rfl

/-- The reference's result for level 3 is the level's function of the three argument arrays. -/
theorem result_eq :
    val4 V0 (Proc.devRef .tc main_v147)
      = out (B := 8) (V0 (Proc.devRef .tc main_arg9) : S8x80x20x20.Idx → EReal)
          (V0 (Proc.devRef .tc main_arg10) : S8x4x20x20.Idx → EReal) (V0 (Proc.devRef .tc main_arg11) : S8x1x20x20.Idx → EReal) := by
  rw [val4_main_v147]
  funext i
  obtain ⟨b, p, j, rfl⟩ : ∃ (b : Fin 8) (p : Fin 400) (j : Fin 87), i = ix3 b p j := ⟨i 0, i 1, i 2, eq_ix3 i⟩
  have hj := j.isLt
  rw [out_apply]
  by_cases h : j.val < 2
  · rw [entry_centre _ _ _ _ _ _ h,
      concatenate_apply_piece (2 : Fin 3) _ _ (ix3 b p j) 0 (by show (0 : ℕ) < 4; omega) S8x400x2 _ rfl rfl 0 rfl (ix3 b p ⟨j.val, h⟩)
        (fun a ha => by match a with
          | ⟨0, _⟩ => rfl
          | ⟨1, _⟩ => rfl
          | ⟨2, _⟩ => exact absurd rfl ha) (by show 0 + j.val = j.val; omega),
      mulf_apply]
    refine congrArg₂ (fun u v : EReal => u * v) ?_ (maskRow V0 2 _ b p ⟨j.val, h⟩)
    exact centre_apply _ _ (fun r q => rfl) (fun r q => rfl) b p ⟨j.val, h⟩
  · by_cases h2 : j.val < 82
    · rw [entry_cls _ _ _ _ _ _ h h2,
        concatenate_apply_piece (2 : Fin 3) _ _ (ix3 b p j) 1 (by show (1 : ℕ) < 4; omega) S8x400x80 _ rfl rfl 2 rfl (ix3 b p ⟨j.val - 2, by omega⟩)
          (fun a ha => by match a with
            | ⟨0, _⟩ => rfl
            | ⟨1, _⟩ => rfl
            | ⟨2, _⟩ => exact absurd rfl ha) (by show 2 + (j.val - 2) = j.val; omega),
        mulf_apply]
      exact congrArg₂ (fun u v : EReal => u * v) (scores_apply V0 b p ⟨j.val - 2, by omega⟩) (maskRow V0 80 _ b p ⟨j.val - 2, by omega⟩)
    · by_cases h3 : j.val < 86
      · rw [entry_bbox _ _ _ _ _ _ h h2 h3,
          concatenate_apply_piece (2 : Fin 3) _ _ (ix3 b p j) 2 (by show (2 : ℕ) < 4; omega) S8x400x4 _ rfl rfl 82 rfl (ix3 b p ⟨j.val - 82, by omega⟩)
            (fun a ha => by match a with
              | ⟨0, _⟩ => rfl
              | ⟨1, _⟩ => rfl
              | ⟨2, _⟩ => exact absurd rfl ha) (by show 82 + (j.val - 82) = j.val; omega),
          mulf_apply]
        exact congrArg₂ (fun u v : EReal => u * v) (relaid4 _ _ _ b p ⟨j.val - 82, by omega⟩) (maskRow V0 4 _ b p ⟨j.val - 82, by omega⟩)
      · rw [entry_ctr _ _ _ _ _ _ h h2 h3,
          concatenate_apply_piece (2 : Fin 3) _ _ (ix3 b p j) 3 (by show (3 : ℕ) < 4; omega) S8x400x1 _ rfl rfl 86 rfl (ix3 b p ⟨0, by decide⟩)
            (fun a ha => by match a with
              | ⟨0, _⟩ => rfl
              | ⟨1, _⟩ => rfl
              | ⟨2, _⟩ => exact absurd rfl ha) (by show 86 + 0 = j.val; omega),
          mulf_apply]
        exact congrArg₂ (fun u v : EReal => u * v) (relaid1 _ _ _ b p ⟨0, by decide⟩) (mask_apply V0 b p ⟨0, by decide⟩)

end Cert.ReferenceIdeal.Level3

end
-- ==== Proof.Level4Spec.lean ====
/-
  One pyramid level of the filter, as a function of its three arrays: class scores [B, 80, 10, 10], box offsets
  [B, 4, 10, 10] and centre-ness [B, 1, 10, 10] (image, channel, row, column).

  The result is [B, 100, 87]: for image `b` and location `p` = row · 10 + column, the 87 entries are the pixel centre
  (x = column · 128 + 64, y = row · 128 + 64), the 80 class scores, the 4 box offsets and the centre-ness at that
  location, every one multiplied by the location's mask: 1 when the greatest of its 80 class scores (from −∞)
  exceeds one half, 0 otherwise.  Stated for any number `B` of images, so that one image's block and the whole
  stack of eight are the same function.
-/
import Idealize.ShloMosaic.PureOps.Ideal
import Idealize.ShloMosaic.Lib.ValueIdx

noncomputable section

namespace Cert.Level4

open Idealize.ShloMosaic Idealize.ShloMosaic.ValueIdx

/-- The row of a flattened location. -/
def rowOf (p : Fin 100) : Fin 10 := ⟨p.val / 10, by have := p.isLt; omega⟩
/-- The column of a flattened location. -/
def colOf (p : Fin 100) : Fin 10 := ⟨p.val % 10, Nat.mod_lt _ (by decide)⟩

variable {B : Nat}

/-- The greatest class score at a location, starting from −∞. -/
def top (cls : (⟨4, ![B, 80, 10, 10]⟩ : Shape).Idx → EReal) (b : Fin B) (p : Fin 100) : EReal :=
  (Finset.univ : Finset (Fin 80)).fold max (Ideal.ofBits .f32 0xFF800000#32) fun ch => cls (ix4 b ch (rowOf p) (colOf p))

/-- The mask of a location: 1 when its greatest class score exceeds one half, else 0. -/
def keep (cls : (⟨4, ![B, 80, 10, 10]⟩ : Shape).Idx → EReal) (b : Fin B) (p : Fin 100) : EReal :=
  ((((Ideal.cmp .ogt (top cls b p) (Ideal.ofBits .f32 0x3F000000#32)).toNat : ℕ) : ℝ) : EReal)

/-- The pixel centre of a location: x (entry 0) from the column, y (entry 1) from the row. -/
def centre (p : Fin 100) (j : Fin 2) : EReal :=
  if j.val = 0 then ((((colOf p).val * 128 + 64 : ℕ) : ℝ) : EReal) else ((((rowOf p).val * 128 + 64 : ℕ) : ℝ) : EReal)

/-- One entry of the level's result: image `a`, location `p`, entry `j` of the 87. -/
def entry (cls : (⟨4, ![B, 80, 10, 10]⟩ : Shape).Idx → EReal) (bbox : (⟨4, ![B, 4, 10, 10]⟩ : Shape).Idx → EReal)
    (ctr : (⟨4, ![B, 1, 10, 10]⟩ : Shape).Idx → EReal) (a : Fin B) (p : Fin 100) (j : Fin 87) : EReal :=
  (if h : j.val < 2 then centre p ⟨j.val, h⟩
   else if h2 : j.val < 82 then cls (ix4 a ⟨j.val - 2, by omega⟩ (rowOf p) (colOf p))
   else if h3 : j.val < 86 then bbox (ix4 a ⟨j.val - 82, by omega⟩ (rowOf p) (colOf p))
   else ctr (ix4 a ⟨0, by decide⟩ (rowOf p) (colOf p))) * keep cls a p

/-- The level's result. -/
def out (cls : (⟨4, ![B, 80, 10, 10]⟩ : Shape).Idx → EReal) (bbox : (⟨4, ![B, 4, 10, 10]⟩ : Shape).Idx → EReal)
    (ctr : (⟨4, ![B, 1, 10, 10]⟩ : Shape).Idx → EReal) : (⟨3, ![B, 100, 87]⟩ : Shape).Idx → EReal := fun i =>
  entry cls bbox ctr (i 0) (i 1) (i 2)

section Read
variable (cls : (⟨4, ![B, 80, 10, 10]⟩ : Shape).Idx → EReal) (bbox : (⟨4, ![B, 4, 10, 10]⟩ : Shape).Idx → EReal)
  (ctr : (⟨4, ![B, 1, 10, 10]⟩ : Shape).Idx → EReal) (a : Fin B) (p : Fin 100) (j : Fin 87)

theorem out_apply : out cls bbox ctr (ix3 a p j) = entry cls bbox ctr a p j := rfl

/-- Entries 0 and 1: the centre, masked. -/
theorem entry_centre (h : j.val < 2) : entry cls bbox ctr a p j = centre p ⟨j.val, h⟩ * keep cls a p := by
  unfold entry; rw [dif_pos h]

/-- Entries 2 … 81: the class scores, masked. -/
theorem entry_cls (h : ¬ j.val < 2) (h2 : j.val < 82) :
    entry cls bbox ctr a p j = cls (ix4 a ⟨j.val - 2, by omega⟩ (rowOf p) (colOf p)) * keep cls a p := by
  unfold entry; rw [dif_neg h, dif_pos h2]

/-- Entries 82 … 85: the box offsets, masked. -/
theorem entry_bbox (h : ¬ j.val < 2) (h2 : ¬ j.val < 82) (h3 : j.val < 86) :
    entry cls bbox ctr a p j = bbox (ix4 a ⟨j.val - 82, by omega⟩ (rowOf p) (colOf p)) * keep cls a p := by
  unfold entry; rw [dif_neg h, dif_neg h2, dif_pos h3]

/-- Entry 86: the centre-ness, masked. -/
theorem entry_ctr (h : ¬ j.val < 2) (h2 : ¬ j.val < 82) (h3 : ¬ j.val < 86) :
    entry cls bbox ctr a p j = ctr (ix4 a ⟨0, by decide⟩ (rowOf p) (colOf p)) * keep cls a p := by
  unfold entry; rw [dif_neg h, dif_neg h2, dif_neg h3]

end Read

/-- An image's entries depend only on that image's slices of the three arrays: two stacks whose images `a` and `b`
    agree have the same entries there. -/
theorem entry_member {B' : Nat} (cls : (⟨4, ![B, 80, 10, 10]⟩ : Shape).Idx → EReal) (bbox : (⟨4, ![B, 4, 10, 10]⟩ : Shape).Idx → EReal)
    (ctr : (⟨4, ![B, 1, 10, 10]⟩ : Shape).Idx → EReal) (cls' : (⟨4, ![B', 80, 10, 10]⟩ : Shape).Idx → EReal)
    (bbox' : (⟨4, ![B', 4, 10, 10]⟩ : Shape).Idx → EReal) (ctr' : (⟨4, ![B', 1, 10, 10]⟩ : Shape).Idx → EReal) (a : Fin B) (b : Fin B')
    (h0 : ∀ ch r c, cls (ix4 a ch r c) = cls' (ix4 b ch r c)) (h1 : ∀ ch r c, bbox (ix4 a ch r c) = bbox' (ix4 b ch r c))
    (h2 : ∀ ch r c, ctr (ix4 a ch r c) = ctr' (ix4 b ch r c)) (p : Fin 100) (j : Fin 87) :
    entry cls bbox ctr a p j = entry cls' bbox' ctr' b p j := by
  have hk : keep cls a p = keep cls' b p := by
    unfold keep top
    simp only [h0]
  unfold entry
  rw [hk]
  simp only [h0, h1, h2]

end Cert.Level4

end
-- ==== Proof.Level4KernelPay.lean ====
import proofs.«149197_j15719580303963_2_alg».proof.Proof.Gen.KernelIdeal.Skeleton
import proofs.«149197_j15719580303963_2_alg».proof.Proof.LibMaskCentre
import proofs.«149197_j15719580303963_2_alg».proof.Proof.Level4Spec
import Idealize.ShloMosaic.Lib.Pipeline.Value
import Idealize.ShloMosaic.Lib.ValueIdx
import Idealize.ShloMosaic.PureOps.Ideal.Laws

set_option maxRecDepth 16384

noncomputable section

namespace Cert.KernelIdeal.Level4

open Cert.KernelIdeal Cert.KernelIdeal.Gen Idealize.ShloMosaic Idealize.ShloMosaic.ValueIdx Cert.Level4

/-!
  What one grid point of level 4's kernel stores, entry by entry: the body's payload on the blocks of one image is
  the level's function (`Cert.Level4.out`) of those blocks, read as stacks of one image.
-/

section Layout
variable {α : Type}

/-- A [1, 80, 10, 10] block (channel, row, column) re-laid as [100, 80] (location, channel): entry (p, ch) is the block's
    entry at channel `ch`, row `p / 10`, column `p % 10`. -/
theorem relaid80 (x : S1x80x10x10.Idx → α) (h1 : S1x80x10x10.ShapeCasts S80x10x10)
    (h2 : S80x10x10.Transposes [1, 2, 0] S10x10x80) (h3 : S10x10x80.ShapeCasts S100x80) (p : Fin 100) (ch : Fin 80) :
    shapeCast S100x80 (transpose S10x10x80 [1, 2, 0] (shapeCast S80x10x10 x h1) h2) h3 (ix2 p ch)
      = x (ix4 0 ch (rowOf p) (colOf p)) := by
  have hp := p.isLt
  rw [shapeCast_apply _ h3 (ix2 p ch) (ix3 (rowOf p) (colOf p) ch) (by
        rw [Shape.rowMajor_val_three, Shape.rowMajor_val_two]
        show ((p.val / 10) * 10 + p.val % 10) * 80 + ch.val = p.val * 80 + ch.val
        omega),
      transpose_apply _ _ h2 _ (ix3 ch (rowOf p) (colOf p)) (by
        intro b; match b with | ⟨0, _⟩ => rfl | ⟨1, _⟩ => rfl | ⟨2, _⟩ => rfl),
      shapeCast_apply _ h1 _ (ix4 0 ch (rowOf p) (colOf p)) (by
        rw [Shape.rowMajor_val_four, Shape.rowMajor_val_three]
        show ((0 * 80 + ch.val) * 10 + p.val / 10) * 10 + p.val % 10 = (ch.val * 10 + p.val / 10) * 10 + p.val % 10
        omega)]

/-- A [1, 4, 10, 10] block (channel, row, column) re-laid as [100, 4] (location, channel): entry (p, ch) is the block's
    entry at channel `ch`, row `p / 10`, column `p % 10`. -/
theorem relaid4 (x : S1x4x10x10.Idx → α) (h1 : S1x4x10x10.ShapeCasts S4x10x10)
    (h2 : S4x10x10.Transposes [1, 2, 0] S10x10x4) (h3 : S10x10x4.ShapeCasts S100x4) (p : Fin 100) (ch : Fin 4) :
    shapeCast S100x4 (transpose S10x10x4 [1, 2, 0] (shapeCast S4x10x10 x h1) h2) h3 (ix2 p ch)
      = x (ix4 0 ch (rowOf p) (colOf p)) := by
  have hp := p.isLt
  rw [shapeCast_apply _ h3 (ix2 p ch) (ix3 (rowOf p) (colOf p) ch) (by
        rw [Shape.rowMajor_val_three, Shape.rowMajor_val_two]
        show ((p.val / 10) * 10 + p.val % 10) * 4 + ch.val = p.val * 4 + ch.val
        omega),
      transpose_apply _ _ h2 _ (ix3 ch (rowOf p) (colOf p)) (by
        intro b; match b with | ⟨0, _⟩ => rfl | ⟨1, _⟩ => rfl | ⟨2, _⟩ => rfl),
      shapeCast_apply _ h1 _ (ix4 0 ch (rowOf p) (colOf p)) (by
        rw [Shape.rowMajor_val_four, Shape.rowMajor_val_three]
        show ((0 * 4 + ch.val) * 10 + p.val / 10) * 10 + p.val % 10 = (ch.val * 10 + p.val / 10) * 10 + p.val % 10
        omega)]

/-- A [1, 1, 10, 10] block (channel, row, column) re-laid as [100, 1] (location, channel): entry (p, ch) is the block's
    entry at channel `ch`, row `p / 10`, column `p % 10`. -/
theorem relaid1 (x : S1x1x10x10.Idx → α) (h1 : S1x1x10x10.ShapeCasts S1x10x10)
    (h2 : S1x10x10.Transposes [1, 2, 0] S10x10x1) (h3 : S10x10x1.ShapeCasts S100x1) (p : Fin 100) (ch : Fin 1) :
    shapeCast S100x1 (transpose S10x10x1 [1, 2, 0] (shapeCast S1x10x10 x h1) h2) h3 (ix2 p ch)
      = x (ix4 0 ch (rowOf p) (colOf p)) := by
  have hp := p.isLt
  rw [shapeCast_apply _ h3 (ix2 p ch) (ix3 (rowOf p) (colOf p) ch) (by
        rw [Shape.rowMajor_val_three, Shape.rowMajor_val_two]
        show ((p.val / 10) * 10 + p.val % 10) * 1 + ch.val = p.val * 1 + ch.val
        omega),
      transpose_apply _ _ h2 _ (ix3 ch (rowOf p) (colOf p)) (by
        intro b; match b with | ⟨0, _⟩ => rfl | ⟨1, _⟩ => rfl | ⟨2, _⟩ => rfl),
      shapeCast_apply _ h1 _ (ix4 0 ch (rowOf p) (colOf p)) (by
        rw [Shape.rowMajor_val_four, Shape.rowMajor_val_three]
        show ((0 * 1 + ch.val) * 10 + p.val / 10) * 10 + p.val % 10 = (ch.val * 10 + p.val / 10) * 10 + p.val % 10
        omega)]

/-- The two coordinate planes stacked [2, 10, 10] and re-laid as [100, 2]. -/
theorem relaidPair (x : S2x10x10.Idx → α) (h2 : S2x10x10.Transposes [1, 2, 0] S10x10x2) (h3 : S10x10x2.ShapeCasts S100x2)
    (p : Fin 100) (j : Fin 2) :
    shapeCast S100x2 (transpose S10x10x2 [1, 2, 0] x h2) h3 (ix2 p j) = x (ix3 j (rowOf p) (colOf p)) := by
  have hp := p.isLt
  rw [shapeCast_apply _ h3 (ix2 p j) (ix3 (rowOf p) (colOf p) j) (by
        rw [Shape.rowMajor_val_three, Shape.rowMajor_val_two]
        show ((p.val / 10) * 10 + p.val % 10) * 2 + j.val = p.val * 2 + j.val
        omega),
      transpose_apply _ _ h2 _ (ix3 j (rowOf p) (colOf p)) (by
        intro b; match b with | ⟨0, _⟩ => rfl | ⟨1, _⟩ => rfl | ⟨2, _⟩ => rfl)]

end Layout

variable (x0 : Vec Ideal S1x80x10x10 .f32) (x1 : Vec Ideal S1x4x10x10 .f32) (x2 : Vec Ideal S1x1x10x10 .f32)

/-- The scores of a location, channel by channel. -/
theorem pay2_apply (p : Fin 100) (ch : Fin 80) : k4_pay2 (F := Ideal) x0 (ix2 p ch) = x0 (ix4 0 ch (rowOf p) (colOf p)) := by
  unfold k4_pay2; exact relaid80 x0 _ _ _ p ch

/-- The centre-ness of a location. -/
theorem pay3_apply (p : Fin 100) (q : Fin 1) : k4_pay3 (F := Ideal) x2 (ix2 p q) = x2 (ix4 0 q (rowOf p) (colOf p)) := by
  unfold k4_pay3; exact relaid1 x2 _ _ _ p q

/-- The lane maximum over a location's 80 scores is the greatest class score. -/
theorem top_apply (h : S100x80.Reduces [1] S100) (hφ : FKind.Formats .f32) (hacc : (0xFF800000#32 : BitVec 32) = FKind.maximumf.neutral .f32 hφ)
    (p : Fin 100) :
    multiReduction .maximumf [1] S100 (k4_pay2 (F := Ideal) x0) 0xFF800000#32 h hφ hacc (ix1 p) = top (B := 1) x0 0 p := by
  rw [Ideal.multiReduction_maximumf_single]
  unfold top
  refine Finset.fold_congr (fun ch _ => ?_)
  show k4_pay2 x0 (h.lift (ix1 p) ch) = _
  have e : h.lift (ix1 p) ch = ix2 p ch := funext fun a => Fin.ext (by match a with | ⟨0, _⟩ => rfl | ⟨1, _⟩ => rfl)
  rw [e]
  exact pay2_apply x0 p ch

/-- The mask of a location. -/
theorem pay4_apply (p : Fin 100) (q : Fin 1) : k4_pay4 (F := Ideal) x0 (ix2 p q) = keep (B := 1) x0 0 p := by
  unfold k4_pay4
  try dsimp only
  rw [sitofp_apply, extui_apply, cmpf_apply, broadcast_apply,
    shapeCast_apply _ shapeCasts_S100_S100x1 (ix2 p q) (ix1 p) (by
      rw [Shape.rowMajor_val_one, Shape.rowMajor_val_two]
      show p.val = p.val * 1 + q.val
      have := q.isLt; omega)]
  have ht := top_apply x0 reduces_S100x80_S100 (.inl rfl) rfl p
  refine (congrArg (fun v : EReal => (((BitVec.setWidth 32 (Ideal.cmp .ogt v (Ideal.ofBits .f32 0x3F000000#32))).toInt : ℝ) : EReal)) ht).trans ?_
  unfold keep
  exact congrArg (fun r : ℝ => (r : EReal)) (Cert.Lib.toInt_setWidth_bit _)

/-- A mask column broadcast along the channels reads the location's mask. -/
theorem maskRow (C : Nat) (hb : S100x1.Broadcasts (⟨2, ![100, C]⟩ : Shape)) (p : Fin 100) (ch : Fin C) :
    broadcastTo (⟨2, ![100, C]⟩ : Shape) (k4_pay4 (F := Ideal) x0) hb (ix2 p ch) = keep (B := 1) x0 0 p := by
  rw [broadcastTo_apply _ hb (ix2 p ch) (ix2 p 0) (by
      intro a; match a with
      | ⟨0, _⟩ => rfl
      | ⟨1, _⟩ => rfl)]
  exact pay4_apply x0 p 0

/-- The class scores of a location, masked. -/
theorem pay6_apply (p : Fin 100) (ch : Fin 80) :
    k4_pay6 (F := Ideal) x0 (ix2 p ch) = x0 (ix4 0 ch (rowOf p) (colOf p)) * keep (B := 1) x0 0 p := by
  unfold k4_pay6
  try dsimp only
  rw [mulf_apply, pay2_apply]
  exact congrArg _ (maskRow x0 80 _ p ch)

/-- The box offsets of a location, masked. -/
theorem pay7_apply (p : Fin 100) (q : Fin 4) :
    k4_pay7 (F := Ideal) x0 x1 (ix2 p q) = x1 (ix4 0 q (rowOf p) (colOf p)) * keep (B := 1) x0 0 p := by
  unfold k4_pay7
  try dsimp only
  rw [mulf_apply, relaid4 x1 _ _ _ p q]
  exact congrArg _ (maskRow x0 4 _ p q)

/-- The pixel centre of a location, masked. -/
theorem pay5_apply (p : Fin 100) (j : Fin 2) :
    k4_pay5 (F := Ideal) x0 (ix2 p j) = centre p j * keep (B := 1) x0 0 p := by
  unfold k4_pay5
  try dsimp only
  rw [mulf_apply, relaidPair _ _ _ p j]
  refine congr (congrArg _ ?_) (maskRow x0 2 _ p j)
  have hr := (rowOf p).isLt
  have hc := (colOf p).isLt
  unfold centre
  have hj := j.isLt
  rcases Nat.lt_or_ge j.val 1 with hj0 | hj1
  · rw [concatenate_pair_apply_left (t := S2x10x10) (s₁ := S1x10x10) (s₂ := S1x10x10) (0 : Fin 3) _ _ concatenates_S1x10x10_S1x10x10_S2x10x10_d0 (ix3 j (rowOf p) (colOf p)) rfl
        (ix3 (0 : Fin 1) (rowOf p) (colOf p)) (fun b => by
          match b with
          | ⟨0, _⟩ => show 0 = j.val; omega
          | ⟨1, _⟩ => rfl
          | ⟨2, _⟩ => rfl),
      shapeCast_apply _ shapeCasts_S10x10_S1x10x10 _ (ix2 (rowOf p) (colOf p)) (by
        rw [Shape.rowMajor_val_two, Shape.rowMajor_val_three]
        show (rowOf p).val * 10 + (colOf p).val = (0 * 10 + (rowOf p).val) * 10 + (colOf p).val
        omega),
      addf_apply, mulf_apply, broadcast_apply, broadcast_apply, sitofp_apply, iota_single_apply]
    show (((BitVec.ofNat 32 (colOf p).val).toInt : ℝ) : EReal) * Ideal.ofBits .f32 0x43000000#32 + Ideal.ofBits .f32 0x42800000#32 = _
    rw [Cert.Lib.ofBits_128, Cert.Lib.ofBits_64, Cert.Lib.toInt_ofNat_small _ (by omega), if_pos (by omega), ← EReal.coe_mul, ← EReal.coe_add]
    push_cast
    rfl
  · rw [concatenate_pair_apply_right (t := S2x10x10) (s₁ := S1x10x10) (s₂ := S1x10x10) (0 : Fin 3) _ _ concatenates_S1x10x10_S1x10x10_S2x10x10_d0 (ix3 j (rowOf p) (colOf p)) rfl rfl
        (ix3 (0 : Fin 1) (rowOf p) (colOf p))
        (fun b hb => by
          match b with
          | ⟨0, _⟩ => exact absurd rfl hb
          | ⟨1, _⟩ => rfl
          | ⟨2, _⟩ => rfl) (by show 0 + 1 = j.val; omega),
      shapeCast_apply _ shapeCasts_S10x10_S1x10x10 _ (ix2 (rowOf p) (colOf p)) (by
        rw [Shape.rowMajor_val_two, Shape.rowMajor_val_three]
        show (rowOf p).val * 10 + (colOf p).val = (0 * 10 + (rowOf p).val) * 10 + (colOf p).val
        omega),
      addf_apply, mulf_apply, broadcast_apply, broadcast_apply, sitofp_apply, iota_single_apply]
    show (((BitVec.ofNat 32 (rowOf p).val).toInt : ℝ) : EReal) * Ideal.ofBits .f32 0x43000000#32 + Ideal.ofBits .f32 0x42800000#32 = _
    rw [Cert.Lib.ofBits_128, Cert.Lib.ofBits_64, Cert.Lib.toInt_ofNat_small _ (by omega), if_neg (by omega), ← EReal.coe_mul, ← EReal.coe_add]
    push_cast
    rfl

/-- The whole payload of a grid point is the level's function of the point's three blocks. -/
theorem pay_eq :
    k4_pay1 (F := Ideal) (k4_pay3 x2) (k4_pay4 x0) (k4_pay5 x0) (k4_pay6 x0) (k4_pay7 x0 x1) = out (B := 1) x0 x1 x2 := by
  funext i
  obtain ⟨a, p, j, rfl⟩ : ∃ (a : Fin 1) (p : Fin 100) (j : Fin 87), i = ix3 a p j := ⟨i 0, i 1, i 2, eq_ix3 i⟩
  have ha : a = 0 := Subsingleton.elim _ _
  subst ha
  have hj := j.isLt
  unfold k4_pay1
  try dsimp only
  rw [shapeCast_apply _ shapeCasts_S100x87_S1x100x87 _ (ix2 p j) (by
      rw [Shape.rowMajor_val_two, Shape.rowMajor_val_three]
      show p.val * 87 + j.val = (0 * 100 + p.val) * 87 + j.val
      omega)]
  by_cases h : j.val < 2
  · rw [out_apply, entry_centre _ _ _ _ _ _ h,
      concatenate_apply_piece (1 : Fin 2) _ _ (ix2 p j) 0 (by show (0 : ℕ) < 4; omega) S100x2 _ rfl rfl 0 rfl (ix2 p ⟨j.val, h⟩)
        (fun b hb => by match b with
          | ⟨0, _⟩ => rfl
          | ⟨1, _⟩ => exact absurd rfl hb) (by show 0 + j.val = j.val; omega)]
    exact pay5_apply x0 p ⟨j.val, h⟩
  · by_cases h2 : j.val < 82
    · rw [out_apply, entry_cls _ _ _ _ _ _ h h2,
        concatenate_apply_piece (1 : Fin 2) _ _ (ix2 p j) 1 (by show (1 : ℕ) < 4; omega) S100x80 _ rfl rfl 2 rfl (ix2 p ⟨j.val - 2, by omega⟩)
          (fun b hb => by match b with
            | ⟨0, _⟩ => rfl
            | ⟨1, _⟩ => exact absurd rfl hb) (by show 2 + (j.val - 2) = j.val; omega)]
      exact pay6_apply x0 p ⟨j.val - 2, by omega⟩
    · by_cases h3 : j.val < 86
      · rw [out_apply, entry_bbox _ _ _ _ _ _ h h2 h3,
          concatenate_apply_piece (1 : Fin 2) _ _ (ix2 p j) 2 (by show (2 : ℕ) < 4; omega) S100x4 _ rfl rfl 82 rfl (ix2 p ⟨j.val - 82, by omega⟩)
            (fun b hb => by match b with
              | ⟨0, _⟩ => rfl
              | ⟨1, _⟩ => exact absurd rfl hb) (by show 82 + (j.val - 82) = j.val; omega)]
        exact pay7_apply x0 x1 p ⟨j.val - 82, by omega⟩
      · rw [out_apply, entry_ctr _ _ _ _ _ _ h h2 h3,
          concatenate_apply_piece (1 : Fin 2) _ _ (ix2 p j) 3 (by show (3 : ℕ) < 4; omega) S100x1 _ rfl rfl 86 rfl (ix2 p ⟨0, by decide⟩)
            (fun b hb => by match b with
              | ⟨0, _⟩ => rfl
              | ⟨1, _⟩ => exact absurd rfl hb) (by show 86 + 0 = j.val; omega),
          mulf_apply, pay3_apply, pay4_apply]

end Cert.KernelIdeal.Level4

end
-- ==== Proof.Level4KernelArr.lean ====
/-
  Level 4's result array after the kernel's run.

  The grid has one point per image; point `t` reads image `t`'s blocks of the three argument arrays (each window's
  block index is (t, 0, 0, 0)) and writes block (t, 0, 0) of the result.  What it writes is the level's function of
  its blocks, which is image `t` of the level's function of the whole arrays; the eight blocks fill the result
  array, so the array ends as the level's function of the three launch arrays.
-/
import proofs.«149197_j15719580303963_2_alg».proof.Proof.KernelRun
import proofs.«149197_j15719580303963_2_alg».proof.Proof.Level4KernelPay

set_option maxRecDepth 16384

noncomputable section

namespace Cert.KernelIdeal.Level4

open Cert.KernelIdeal Cert.KernelIdeal.Gen Cert.KernelIdeal.Levels Idealize.ShloMosaic Idealize.ShloMosaic.TcCoe Idealize.SL.Sem
open Idealize.ShloMosaic.ValueIdx Cert.Level4
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem idx_facts0 : ∀ t : Fin cfg4.N, win4_0.index t (0 : Fin 4) = t.val ∧ win4_0.index t (1 : Fin 4) = 0
    ∧ win4_0.index t (2 : Fin 4) = 0 ∧ win4_0.index t (3 : Fin 4) = 0 :=
  (by decide +kernel : ∀ t : Fin grid4.N, _)

theorem idx_facts1 : ∀ t : Fin cfg4.N, win4_1.index t (0 : Fin 4) = t.val ∧ win4_1.index t (1 : Fin 4) = 0
    ∧ win4_1.index t (2 : Fin 4) = 0 ∧ win4_1.index t (3 : Fin 4) = 0 :=
  (by decide +kernel : ∀ t : Fin grid4.N, _)

theorem idx_facts2 : ∀ t : Fin cfg4.N, win4_2.index t (0 : Fin 4) = t.val ∧ win4_2.index t (1 : Fin 4) = 0
    ∧ win4_2.index t (2 : Fin 4) = 0 ∧ win4_2.index t (3 : Fin 4) = 0 :=
  (by decide +kernel : ∀ t : Fin grid4.N, _)

theorem idx_facts3 : ∀ t : Fin cfg4.N, win4_3.index t (0 : Fin 3) = t.val ∧ win4_3.index t (1 : Fin 3) = 0
    ∧ win4_3.index t (2 : Fin 3) = 0 :=
  (by decide +kernel : ∀ t : Fin grid4.N, _)

/-- Image `t`'s block of window 0 is image `t` of the launch array. -/
theorem block0 (c : Dev nD) (t : Fin cfg4.N) (b : Fin 8) (hb : b.val = t.val) (ch : Fin 80) (r : Fin 10) (q : Fin 10) :
    (iblk4 (V4 m ρ) c 0 t : S1x80x10x10.Idx → EReal) (ix4 0 ch r q)
      = (m ((c : Thread nD τ).loc main_arg12) : S8x80x10x10.Idx → EReal) (ix4 b ch r q) := by
  obtain ⟨e0, e1, e2, e3⟩ := idx_facts0 t
  unfold iblk4
  rw [View.read_apply]
  show V4 m ρ c main_arg12 _ = _
  rw [in4 m ρ c main_arg12 (by decide) (by decide) (by decide) (by decide)]
  refine congrArg _ (funext fun a => Fin.ext ?_)
  match a with
  | ⟨0, _⟩ => show win4_0.index t (0 : Fin 4) * 1 + 1 * 0 = b.val; omega
  | ⟨1, _⟩ => show win4_0.index t (1 : Fin 4) * 80 + 1 * ch.val = ch.val; omega
  | ⟨2, _⟩ => show win4_0.index t (2 : Fin 4) * 10 + 1 * r.val = r.val; omega
  | ⟨3, _⟩ => show win4_0.index t (3 : Fin 4) * 10 + 1 * q.val = q.val; omega

/-- Image `t`'s block of window 1 is image `t` of the launch array. -/
theorem block1 (c : Dev nD) (t : Fin cfg4.N) (b : Fin 8) (hb : b.val = t.val) (ch : Fin 4) (r : Fin 10) (q : Fin 10) :
    (iblk4 (V4 m ρ) c 1 t : S1x4x10x10.Idx → EReal) (ix4 0 ch r q)
      = (m ((c : Thread nD τ).loc main_arg13) : S8x4x10x10.Idx → EReal) (ix4 b ch r q) := by
  obtain ⟨e0, e1, e2, e3⟩ := idx_facts1 t
  unfold iblk4
  rw [View.read_apply]
  show V4 m ρ c main_arg13 _ = _
  rw [in4 m ρ c main_arg13 (by decide) (by decide) (by decide) (by decide)]
  refine congrArg _ (funext fun a => Fin.ext ?_)
  match a with
  | ⟨0, _⟩ => show win4_1.index t (0 : Fin 4) * 1 + 1 * 0 = b.val; omega
  | ⟨1, _⟩ => show win4_1.index t (1 : Fin 4) * 4 + 1 * ch.val = ch.val; omega
  | ⟨2, _⟩ => show win4_1.index t (2 : Fin 4) * 10 + 1 * r.val = r.val; omega
  | ⟨3, _⟩ => show win4_1.index t (3 : Fin 4) * 10 + 1 * q.val = q.val; omega

/-- Image `t`'s block of window 2 is image `t` of the launch array. -/
theorem block2 (c : Dev nD) (t : Fin cfg4.N) (b : Fin 8) (hb : b.val = t.val) (ch : Fin 1) (r : Fin 10) (q : Fin 10) :
    (iblk4 (V4 m ρ) c 2 t : S1x1x10x10.Idx → EReal) (ix4 0 ch r q)
      = (m ((c : Thread nD τ).loc main_arg14) : S8x1x10x10.Idx → EReal) (ix4 b ch r q) := by
  obtain ⟨e0, e1, e2, e3⟩ := idx_facts2 t
  unfold iblk4
  rw [View.read_apply]
  show V4 m ρ c main_arg14 _ = _
  rw [in4 m ρ c main_arg14 (by decide) (by decide) (by decide) (by decide)]
  refine congrArg _ (funext fun a => Fin.ext ?_)
  match a with
  | ⟨0, _⟩ => show win4_2.index t (0 : Fin 4) * 1 + 1 * 0 = b.val; omega
  | ⟨1, _⟩ => show win4_2.index t (1 : Fin 4) * 1 + 1 * ch.val = ch.val; omega
  | ⟨2, _⟩ => show win4_2.index t (2 : Fin 4) * 10 + 1 * r.val = r.val; omega
  | ⟨3, _⟩ => show win4_2.index t (3 : Fin 4) * 10 + 1 * q.val = q.val; omega

/-- The level's function of the three launch arrays. -/
abbrev result (c : Dev nD) : S8x100x87.Idx → EReal :=
  out (B := 8) (m ((c : Thread nD τ).loc main_arg12) : S8x80x10x10.Idx → EReal)
    (m ((c : Thread nD τ).loc main_arg13) : S8x4x10x10.Idx → EReal) (m ((c : Thread nD τ).loc main_arg14) : S8x1x10x10.Idx → EReal)

/-- What point `t` writes back is block `t` of `result`. -/
theorem flushed_eq (c : Dev nD) (t : Fin cfg4.N) :
    (dat4 (V4 m ρ) c).flushed 3 t = ((cfg4.win 3).blk t).view.read (Elt Ideal) (result m c) := by
  show (cfg4.win 3).cut (grid4.coords t) ((dat4 (V4 m ρ) c).after 3 t) = _
  rw [after4_3]
  unfold out4_3
  rw [View.canon_unit_zero hz3]
  simp only [View.ld_unit_zero (S := S1x80x10x10) hz4, View.ld_unit_zero (S := S1x4x10x10) hz4, View.ld_unit_zero (S := S1x1x10x10) hz4]
  rw [pay_eq]
  funext y
  obtain ⟨a, p, j, rfl⟩ : ∃ (a : Fin 1) (p : Fin 100) (j : Fin 87), y = ix3 a p j := ⟨y 0, y 1, y 2, eq_ix3 y⟩
  have ha : a = 0 := Subsingleton.elim _ _
  subst ha
  have ht : t.val < 8 := by have h1 := t.isLt; have h2 : cfg4.N = 8 := N_4; omega
  obtain ⟨e0, e1, e2⟩ := idx_facts3 t
  have hemb : ((cfg4.win 3).blk t).view.emb (ix3 (0 : Fin 1) p j) = (ix3 (⟨t.val, ht⟩ : Fin 8) p j : S8x100x87.Idx) := by
    funext a; apply Fin.ext
    match a with
    | ⟨0, _⟩ => show win4_3.index t (0 : Fin 3) * 1 + 1 * 0 = t.val; omega
    | ⟨1, _⟩ => show win4_3.index t (1 : Fin 3) * 100 + 1 * p.val = p.val; omega
    | ⟨2, _⟩ => show win4_3.index t (2 : Fin 3) * 87 + 1 * j.val = j.val; omega
  show out (B := 1) _ _ _ (ix3 0 p j) = result m c (((cfg4.win 3).blk t).view.emb (ix3 (0 : Fin 1) p j))
  rw [hemb]
  show entry (B := 1) _ _ _ 0 p j = entry (B := 8) _ _ _ ⟨t.val, ht⟩ p j
  exact entry_member _ _ _ _ _ _ 0 ⟨t.val, ht⟩ (fun ch r q => block0 m ρ c t ⟨t.val, ht⟩ rfl ch r q)
    (fun ch r q => block1 m ρ c t ⟨t.val, ht⟩ rfl ch r q) (fun ch r q => block2 m ρ c t ⟨t.val, ht⟩ rfl ch r q) p j

/-- An index of the result array whose image is `t` lies in point `t`'s block. -/
theorem mem_blk (t : Fin cfg4.N) (i : S8x100x87.Idx) (h0 : (i 0).val = t.val) : i ∈ ((cfg4.win 3).blk t).view.set := by
  obtain ⟨e0, e1, e2⟩ := idx_facts3 t
  have hi1 : (i 1).val < 100 := (i 1).isLt
  have hi2 : (i 2).val < 87 := (i 2).isLt
  show i ∈ ((View.whole main_v4).slice (win4_3.rect t)).set
  rw [View.set_slice_whole, Rect.mem_set_unit]
  intro a
  match a with
  | ⟨0, _⟩ => show win4_3.index t (0 : Fin 3) * 1 ≤ (i 0).val ∧ (i 0).val < win4_3.index t (0 : Fin 3) * 1 + 1; omega
  | ⟨1, _⟩ => show win4_3.index t (1 : Fin 3) * 100 ≤ (i 1).val ∧ (i 1).val < win4_3.index t (1 : Fin 3) * 100 + 100; omega
  | ⟨2, _⟩ => show win4_3.index t (2 : Fin 3) * 87 ≤ (i 2).val ∧ (i 2).val < win4_3.index t (2 : Fin 3) * 87 + 87; omega

/-- The result array after the run. -/
theorem final (c : Dev nD) : (dat4 (V4 m ρ) c).arrAt 3 cfg4.N = result m c :=
  (dat4 (V4 m ρ) c).arrAt_eq_of_cover 3 (result m c) (fun t _ => flushed_eq m ρ c t) fun i =>
    have hi0 : ((i : S8x100x87.Idx) 0).val < 8 := ((i : S8x100x87.Idx) 0).isLt
    have hN : cfg4.N = 8 := N_4
    ⟨⟨((i : S8x100x87.Idx) 0).val, by omega⟩, flush4_3 _, mem_blk _ i rfl⟩

/-- Level 4's result buffer at the end of the whole program. -/
theorem result_eq (c : Dev nD) : W5 m ρ c (Proc.devRef .tc main_v4) = result m c :=
  (res4 m ρ c).trans (final m ρ c)

end Cert.KernelIdeal.Level4

end
-- ==== Proof.Level4Ref.lean ====
/-
  Level 4 of the reference, entry by entry: the host program's composed term for its result is the level's function
  (`Cert.Level4.out`) of the three argument arrays, read as stacks of eight images.
-/
import proofs.«149197_j15719580303963_2_alg».proof.Proof.Gen.ReferenceIdeal.Run
import proofs.«149197_j15719580303963_2_alg».proof.Proof.LibMaskCentre
import proofs.«149197_j15719580303963_2_alg».proof.Proof.Level4Spec
import Idealize.ShloMosaic.Lib.Pipeline.Value
import Idealize.ShloMosaic.Lib.ValueIdx
import Idealize.ShloMosaic.PureOps.Ideal.Laws

set_option maxRecDepth 16384

noncomputable section

namespace Cert.ReferenceIdeal.Level4

open Cert.ReferenceIdeal Cert.ReferenceIdeal.Value Idealize.ShloMosaic Idealize.ShloMosaic.TcCoe Idealize.ShloMosaic.StableHlo
open Idealize.ShloMosaic.ValueIdx Cert.Level4
open Cert.ReferenceIdeal.Facts₀ Cert.ReferenceIdeal.Facts

section Layout
variable {α : Type}

/-- A stack [8, 80, 10, 10] (image, channel, row, column) re-laid as [8, 100, 80] (image, location, channel). -/
theorem relaid80 (x : S8x80x10x10.Idx → α) (h2 : S8x80x10x10.Transposes [0, 2, 3, 1] S8x10x10x80)
    (h3 : S8x10x10x80.ShapeCasts S8x100x80) (b : Fin 8) (p : Fin 100) (ch : Fin 80) :
    shapeCast S8x100x80 (transpose S8x10x10x80 [0, 2, 3, 1] x h2) h3 (ix3 b p ch) = x (ix4 b ch (rowOf p) (colOf p)) := by
  have hp := p.isLt
  rw [shapeCast_apply _ h3 (ix3 b p ch) (ix4 b (rowOf p) (colOf p) ch) (by
        rw [Shape.rowMajor_val_four, Shape.rowMajor_val_three]
        show ((b.val * 10 + p.val / 10) * 10 + p.val % 10) * 80 + ch.val = (b.val * 100 + p.val) * 80 + ch.val
        omega),
      transpose_apply _ _ h2 _ (ix4 b ch (rowOf p) (colOf p)) (by
        intro a; match a with | ⟨0, _⟩ => rfl | ⟨1, _⟩ => rfl | ⟨2, _⟩ => rfl | ⟨3, _⟩ => rfl)]

/-- A stack [8, 4, 10, 10] (image, channel, row, column) re-laid as [8, 100, 4] (image, location, channel). -/
theorem relaid4 (x : S8x4x10x10.Idx → α) (h2 : S8x4x10x10.Transposes [0, 2, 3, 1] S8x10x10x4)
    (h3 : S8x10x10x4.ShapeCasts S8x100x4) (b : Fin 8) (p : Fin 100) (ch : Fin 4) :
    shapeCast S8x100x4 (transpose S8x10x10x4 [0, 2, 3, 1] x h2) h3 (ix3 b p ch) = x (ix4 b ch (rowOf p) (colOf p)) := by
  have hp := p.isLt
  rw [shapeCast_apply _ h3 (ix3 b p ch) (ix4 b (rowOf p) (colOf p) ch) (by
        rw [Shape.rowMajor_val_four, Shape.rowMajor_val_three]
        show ((b.val * 10 + p.val / 10) * 10 + p.val % 10) * 4 + ch.val = (b.val * 100 + p.val) * 4 + ch.val
        omega),
      transpose_apply _ _ h2 _ (ix4 b ch (rowOf p) (colOf p)) (by
        intro a; match a with | ⟨0, _⟩ => rfl | ⟨1, _⟩ => rfl | ⟨2, _⟩ => rfl | ⟨3, _⟩ => rfl)]

/-- A stack [8, 1, 10, 10] (image, channel, row, column) re-laid as [8, 100, 1] (image, location, channel). -/
theorem relaid1 (x : S8x1x10x10.Idx → α) (h2 : S8x1x10x10.Transposes [0, 2, 3, 1] S8x10x10x1)
    (h3 : S8x10x10x1.ShapeCasts S8x100x1) (b : Fin 8) (p : Fin 100) (ch : Fin 1) :
    shapeCast S8x100x1 (transpose S8x10x10x1 [0, 2, 3, 1] x h2) h3 (ix3 b p ch) = x (ix4 b ch (rowOf p) (colOf p)) := by
  have hp := p.isLt
  rw [shapeCast_apply _ h3 (ix3 b p ch) (ix4 b (rowOf p) (colOf p) ch) (by
        rw [Shape.rowMajor_val_four, Shape.rowMajor_val_three]
        show ((b.val * 10 + p.val / 10) * 10 + p.val % 10) * 1 + ch.val = (b.val * 100 + p.val) * 1 + ch.val
        omega),
      transpose_apply _ _ h2 _ (ix4 b ch (rowOf p) (colOf p)) (by
        intro a; match a with | ⟨0, _⟩ => rfl | ⟨1, _⟩ => rfl | ⟨2, _⟩ => rfl | ⟨3, _⟩ => rfl)]

end Layout

/-- An unsigned integer-to-float conversion of a vector, read at an index. -/
theorem uitofp_at {s : Shape} {w : Nat} (x : IVec s w) (i : s.Idx) :
    (uitofp .f32 x : FVec Ideal s .f32) i = FloatOps.uitofp (F := Ideal) .f32 (x i) := rfl

variable (V0 : Valuation τ sig (Elt Ideal))

/-- The scores of a location, channel by channel. -/
theorem scores_apply (b : Fin 8) (p : Fin 100) (ch : Fin 80) :
    (res_main_v149 V0 : S8x100x80.Idx → EReal) (ix3 b p ch)
      = (V0 (Proc.devRef .tc main_arg12) : S8x80x10x10.Idx → EReal) (ix4 b ch (rowOf p) (colOf p)) := by
  unfold res_main_v149
  exact relaid80 _ _ _ b p ch

/-- The host's maximum over a location's 80 scores is the greatest class score. -/
theorem top_apply (b : Fin 8) (p : Fin 100) :
    Host.reduce FloatOps.maximumf (res_main_v149 V0) (constant S_ .f32 0xFF800000#32) reducesTo_S8x100x80_S8x100_d2 h_S_ (ix2 b p)
      = top (B := 8) (V0 (Proc.devRef .tc main_arg12) : S8x80x10x10.Idx → EReal) b p := by
  have hR : S8x100x80.Reduces [2] S8x100 := by decide
  rw [Host.reduce_eq_fold_single FloatOps.maximumf _ _ reducesTo_S8x100x80_S8x100_d2 hR h_S_ (ix2 b p)]
  unfold top
  refine Finset.fold_congr (fun ch _ => ?_)
  show (res_main_v149 V0 : S8x100x80.Idx → EReal) (hR.lift (ix2 b p) ch) = _
  have e : hR.lift (ix2 b p) ch = ix3 b p ch := funext fun a => Fin.ext (by match a with | ⟨0, _⟩ => rfl | ⟨1, _⟩ => rfl | ⟨2, _⟩ => rfl)
  rw [e]
  exact scores_apply V0 b p ch

/-- The mask of a location. -/
theorem mask_apply (b : Fin 8) (p : Fin 100) (q : Fin 1) :
    (res_main_v158 V0 : S8x100x1.Idx → EReal) (ix3 b p q) = keep (B := 8) (V0 (Proc.devRef .tc main_arg12) : S8x80x10x10.Idx → EReal) b p := by
  unfold res_main_v158
  rw [uitofp_at, broadcastInDim_apply ![0, 1] bcast_S8x100_S8x100x1_0_1 _ (ix3 b p q) (ix2 b p) (by
      intro a; match a with | ⟨0, _⟩ => rfl | ⟨1, _⟩ => rfl),
    cmpf_apply,
    broadcastInDim_apply ![] bcast_S_S8x100 _ (ix2 b p) ix0 (fun a => a.elim0)]
  refine (congrArg (fun v : EReal => ((((Ideal.cmp .ogt v (Ideal.ofBits .f32 0x3F000000#32)).toNat : ℕ) : ℝ) : EReal)) (top_apply V0 b p)).trans ?_
  rfl

/-- The mask column broadcast along the channels reads the location's mask. -/
theorem maskRow (C : Nat) (hb : S8x100x1.BroadcastsInDim (⟨3, ![8, 100, C]⟩ : Shape) ![0, 1, 2]) (b : Fin 8) (p : Fin 100) (ch : Fin C) :
    broadcastInDim (⟨3, ![8, 100, C]⟩ : Shape) ![0, 1, 2] hb (res_main_v158 V0 : S8x100x1.Idx → EReal) (ix3 b p ch)
      = keep (B := 8) (V0 (Proc.devRef .tc main_arg12) : S8x80x10x10.Idx → EReal) b p := by
  rw [broadcastInDim_apply ![0, 1, 2] hb _ (ix3 b p ch) (ix3 b p 0) (by
      intro a; match a with | ⟨0, _⟩ => rfl | ⟨1, _⟩ => rfl | ⟨2, _⟩ => rfl)]
  exact mask_apply V0 b p 0

/-- The integer pixel centres, stacked on the last axis, flattened and converted: the centre of a location. -/
theorem centre_apply (X Y : IVec S10x10 32)
    (hX : ∀ (r q : Fin 10), X (ix2 r q) = BitVec.ofNat 32 q.val * BitVec.ofNat 32 128 + BitVec.ofNat 32 64)
    (hY : ∀ (r q : Fin 10), Y (ix2 r q) = BitVec.ofNat 32 r.val * BitVec.ofNat 32 128 + BitVec.ofNat 32 64)
    (b : Fin 8) (p : Fin 100) (j : Fin 2) :
    broadcastInDim S8x100x2 ![1, 2] bcast_S100x2_S8x100x2_1_2 (sitofp (F := Ideal) .f32 (shapeCast S100x2 (concatenate S10x10x2 2
        [⟨S10x10x1, broadcastInDim S10x10x1 ![0, 1] bcast_S10x10_S10x10x1_0_1 X⟩, ⟨S10x10x1, broadcastInDim S10x10x1 ![0, 1] bcast_S10x10_S10x10x1_0_1 Y⟩]
        concatenates_S10x10x1_S10x10x1_S10x10x2_d2) shapeCasts_S10x10x2_S100x2)) (ix3 b p j) = centre p j := by
  have hp := p.isLt
  have hj := j.isLt
  have hr := (rowOf p).isLt
  have hc := (colOf p).isLt
  rw [broadcastInDim_apply ![1, 2] bcast_S100x2_S8x100x2_1_2 _ (ix3 b p j) (ix2 p j) (by
      intro a; match a with | ⟨0, _⟩ => rfl | ⟨1, _⟩ => rfl),
    sitofp_apply,
    shapeCast_apply _ shapeCasts_S10x10x2_S100x2 (ix2 p j) (ix3 (rowOf p) (colOf p) j) (by
      rw [Shape.rowMajor_val_three, Shape.rowMajor_val_two]
      show ((p.val / 10) * 10 + p.val % 10) * 2 + j.val = p.val * 2 + j.val
      omega)]
  unfold centre
  rcases Nat.lt_or_ge j.val 1 with hj0 | hj1
  · rw [concatenate_pair_apply_left (t := S10x10x2) (s₁ := S10x10x1) (s₂ := S10x10x1) (2 : Fin 3) _ _ concatenates_S10x10x1_S10x10x1_S10x10x2_d2
        (ix3 (rowOf p) (colOf p) j) rfl (ix3 (rowOf p) (colOf p) (0 : Fin 1)) (fun a => by
          match a with
          | ⟨0, _⟩ => rfl
          | ⟨1, _⟩ => rfl
          | ⟨2, _⟩ => show 0 = j.val; omega),
      broadcastInDim_apply ![0, 1] bcast_S10x10_S10x10x1_0_1 _ _ (ix2 (rowOf p) (colOf p)) (by
        intro a; match a with | ⟨0, _⟩ => rfl | ⟨1, _⟩ => rfl),
      hX]
    show ((((BitVec.ofNat 32 (colOf p).val * BitVec.ofNat 32 128 + BitVec.ofNat 32 64).toInt : ℤ) : ℝ) : EReal) = _
    rw [Cert.Lib.toInt_affine _ _ _ (by omega), if_pos (by omega)]
    push_cast
    rfl
  · rw [concatenate_pair_apply_right (t := S10x10x2) (s₁ := S10x10x1) (s₂ := S10x10x1) (2 : Fin 3) _ _ concatenates_S10x10x1_S10x10x1_S10x10x2_d2
        (ix3 (rowOf p) (colOf p) j) rfl rfl (ix3 (rowOf p) (colOf p) (0 : Fin 1)) (fun a ha => by
          match a with
          | ⟨0, _⟩ => rfl
          | ⟨1, _⟩ => rfl
          | ⟨2, _⟩ => exact absurd rfl ha) (by show 0 + 1 = j.val; omega),
      broadcastInDim_apply ![0, 1] bcast_S10x10_S10x10x1_0_1 _ _ (ix2 (rowOf p) (colOf p)) (by
        intro a; match a with | ⟨0, _⟩ => rfl | ⟨1, _⟩ => rfl),
      hY]
    show ((((BitVec.ofNat 32 (rowOf p).val * BitVec.ofNat 32 128 + BitVec.ofNat 32 64).toInt : ℤ) : ℝ) : EReal) = _
    rw [Cert.Lib.toInt_affine _ _ _ (by omega), if_neg (by omega)]
    push_cast
    rfl

/-- The reference's result for level 4 is the level's function of the three argument arrays. -/
theorem result_eq :
    val4 V0 (Proc.devRef .tc main_v184)
      = out (B := 8) (V0 (Proc.devRef .tc main_arg12) : S8x80x10x10.Idx → EReal)
          (V0 (Proc.devRef .tc main_arg13) : S8x4x10x10.Idx → EReal) (V0 (Proc.devRef .tc main_arg14) : S8x1x10x10.Idx → EReal) := by
  rw [val4_main_v184]
  funext i
  obtain ⟨b, p, j, rfl⟩ : ∃ (b : Fin 8) (p : Fin 100) (j : Fin 87), i = ix3 b p j := ⟨i 0, i 1, i 2, eq_ix3 i⟩
  have hj := j.isLt
  rw [out_apply]
  by_cases h : j.val < 2
  · rw [entry_centre _ _ _ _ _ _ h,
      concatenate_apply_piece (2 : Fin 3) _ _ (ix3 b p j) 0 (by show (0 : ℕ) < 4; omega) S8x100x2 _ rfl rfl 0 rfl (ix3 b p ⟨j.val, h⟩)
        (fun a ha => by match a with
          | ⟨0, _⟩ => rfl
          | ⟨1, _⟩ => rfl
          | ⟨2, _⟩ => exact absurd rfl ha) (by show 0 + j.val = j.val; omega),
      mulf_apply]
    refine congrArg₂ (fun u v : EReal => u * v) ?_ (maskRow V0 2 _ b p ⟨j.val, h⟩)
    exact centre_apply _ _ (fun r q => rfl) (fun r q => rfl) b p ⟨j.val, h⟩
  · by_cases h2 : j.val < 82
    · rw [entry_cls _ _ _ _ _ _ h h2,
        concatenate_apply_piece (2 : Fin 3) _ _ (ix3 b p j) 1 (by show (1 : ℕ) < 4; omega) S8x100x80 _ rfl rfl 2 rfl (ix3 b p ⟨j.val - 2, by omega⟩)
          (fun a ha => by match a with
            | ⟨0, _⟩ => rfl
            | ⟨1, _⟩ => rfl
            | ⟨2, _⟩ => exact absurd rfl ha) (by show 2 + (j.val - 2) = j.val; omega),
        mulf_apply]
      exact congrArg₂ (fun u v : EReal => u * v) (scores_apply V0 b p ⟨j.val - 2, by omega⟩) (maskRow V0 80 _ b p ⟨j.val - 2, by omega⟩)
    · by_cases h3 : j.val < 86
      · rw [entry_bbox _ _ _ _ _ _ h h2 h3,
          concatenate_apply_piece (2 : Fin 3) _ _ (ix3 b p j) 2 (by show (2 : ℕ) < 4; omega) S8x100x4 _ rfl rfl 82 rfl (ix3 b p ⟨j.val - 82, by omega⟩)
            (fun a ha => by match a with
              | ⟨0, _⟩ => rfl
              | ⟨1, _⟩ => rfl
              | ⟨2, _⟩ => exact absurd rfl ha) (by show 82 + (j.val - 82) = j.val; omega),
          mulf_apply]
        exact congrArg₂ (fun u v : EReal => u * v) (relaid4 _ _ _ b p ⟨j.val - 82, by omega⟩) (maskRow V0 4 _ b p ⟨j.val - 82, by omega⟩)
      · rw [entry_ctr _ _ _ _ _ _ h h2 h3,
          concatenate_apply_piece (2 : Fin 3) _ _ (ix3 b p j) 3 (by show (3 : ℕ) < 4; omega) S8x100x1 _ rfl rfl 86 rfl (ix3 b p ⟨0, by decide⟩)
            (fun a ha => by match a with
              | ⟨0, _⟩ => rfl
              | ⟨1, _⟩ => rfl
              | ⟨2, _⟩ => exact absurd rfl ha) (by show 86 + 0 = j.val; omega),
          mulf_apply]
        exact congrArg₂ (fun u v : EReal => u * v) (relaid1 _ _ _ b p ⟨0, by decide⟩) (mask_apply V0 b p ⟨0, by decide⟩)

end Cert.ReferenceIdeal.Level4

end
-- ==== Proof.lean ====
/-
  The multi-stride detection filter: five pyramid levels (strides 8, 16, 32, 64, 128; maps 160², 80², 40², 20², 10²),
  eight images.  For every image and every location of a level the result row of 87 numbers is the pixel centre
  (x, y), the 80 class scores, the 4 box offsets and the centre-ness at that location, each multiplied by the
  location's mask — 1 when the greatest of its 80 class scores exceeds one half, else 0.

  The kernel computes a level with one grid point per image: it re-lays the image's channel-major blocks
  location-major, takes the lane maximum, builds the mask as the comparison bit zero-extended and converted,
  builds the centres in floats from the row and column numbers, and stores the four masked pieces side by side.
  The reference does the same on the whole stack of images with host operations, building the centres in integers
  and converting once.  Over the extended reals both are the same function of the three argument arrays
  (`Cert.LevelK.out`): the two layout changes read the same array entry, the two maxima are the same fold over
  the 80 channels from −∞, the bit read signed after zero-extension or unsigned is 0 or 1 either way, and
  column · stride + half is the same real computed in floats or in 32-bit integers (no wrap at these sizes).
  No law of the extended reals beyond these readings is used, so the inputs' finiteness is never opened.

  The three frames are the generated ones (the reference's is its generated run with the results dropped); the
  ideal pass rewrote nothing, so `preserves` is `True`.
-/
import proofs.«149197_j15719580303963_2_alg».proof.Defs
import proofs.«149197_j15719580303963_2_alg».proof.Proof.Gen.Kernel
import proofs.«149197_j15719580303963_2_alg».proof.Proof.Gen.Kernel.Skeleton
import proofs.«149197_j15719580303963_2_alg».proof.Proof.Gen.Kernel.Launch
import proofs.«149197_j15719580303963_2_alg».proof.Proof.Gen.Kernel.Points
import proofs.«149197_j15719580303963_2_alg».proof.Proof.Gen.Kernel.Frame
import proofs.«149197_j15719580303963_2_alg».proof.Proof.Gen.KernelIdeal
import proofs.«149197_j15719580303963_2_alg».proof.Proof.Gen.KernelIdeal.Skeleton
import proofs.«149197_j15719580303963_2_alg».proof.Proof.Gen.KernelIdeal.Launch
import proofs.«149197_j15719580303963_2_alg».proof.Proof.Gen.KernelIdeal.Points
import proofs.«149197_j15719580303963_2_alg».proof.Proof.Gen.KernelIdeal.Frame
import proofs.«149197_j15719580303963_2_alg».proof.Proof.Gen.ReferenceIdeal
import proofs.«149197_j15719580303963_2_alg».proof.Proof.Gen.ReferenceIdeal.Run
import proofs.«149197_j15719580303963_2_alg».proof.Proof.Gen.Pre_finite_inputs
import proofs.«149197_j15719580303963_2_alg».proof.Proof.KernelRun
import proofs.«149197_j15719580303963_2_alg».proof.Proof.Level0KernelArr
import proofs.«149197_j15719580303963_2_alg».proof.Proof.Level0Ref
import proofs.«149197_j15719580303963_2_alg».proof.Proof.Level1KernelArr
import proofs.«149197_j15719580303963_2_alg».proof.Proof.Level1Ref
import proofs.«149197_j15719580303963_2_alg».proof.Proof.Level2KernelArr
import proofs.«149197_j15719580303963_2_alg».proof.Proof.Level2Ref
import proofs.«149197_j15719580303963_2_alg».proof.Proof.Level3KernelArr
import proofs.«149197_j15719580303963_2_alg».proof.Proof.Level3Ref
import proofs.«149197_j15719580303963_2_alg».proof.Proof.Level4KernelArr
import proofs.«149197_j15719580303963_2_alg».proof.Proof.Level4Ref
import Idealize.ShloMosaic.Adequacy
import Idealize.ShloMosaic.Init

set_option maxRecDepth 16384

noncomputable section

open Idealize.ShloMosaic Idealize.ShloMosaic.TcCoe Idealize.SL.Sem

namespace Cert.KernelIdeal.Levels

open Cert.KernelIdeal Cert.KernelIdeal.Gen

/-- The idealized kernel's run: each level's result array ends as the level's function of its three launch arrays,
    and the fifteen argument arrays end unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = Cert.KernelIdeal.Level0.result m c
      ∧       r.2.mem ((c.tc : Thread nD τ).loc main_v1) = Cert.KernelIdeal.Level1.result m c
      ∧       r.2.mem ((c.tc : Thread nD τ).loc main_v2) = Cert.KernelIdeal.Level2.result m c
      ∧       r.2.mem ((c.tc : Thread nD τ).loc main_v3) = Cert.KernelIdeal.Level3.result m c
      ∧       r.2.mem ((c.tc : Thread nD τ).loc main_v4) = Cert.KernelIdeal.Level4.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v0 (by decide))).trans (Cert.KernelIdeal.Level0.result_eq m ρ c),
     (h c _ (mem_uc main_v1 (by decide))).trans (Cert.KernelIdeal.Level1.result_eq m ρ c),
     (h c _ (mem_uc main_v2 (by decide))).trans (Cert.KernelIdeal.Level2.result_eq m ρ c),
     (h c _ (mem_uc main_v3 (by decide))).trans (Cert.KernelIdeal.Level3.result_eq m ρ c),
     (h c _ (mem_uc main_v4 (by decide))).trans (Cert.KernelIdeal.Level4.result_eq m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c)⟩)
    (run_held (F := Ideal) m ρ)

end Cert.KernelIdeal.Levels

namespace Cert.Proof

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the five results dropped. -/
theorem frame_referenceIdeal : Cert.frame_ReferenceIdeal := fun m ρ _ =>
  (θ_run Cert.ReferenceIdeal.defs _ _).mono (fun _ h c => (h c).2.2.2.2.2) (Cert.ReferenceIdeal.Value.run (F := Ideal) m ρ)

theorem preserves : Cert.preserves_Kernel_KernelIdeal := trivial

/-- Both idealized programs end, from memories that agree on the arguments, with each level's result at the level's
    function of its three argument arrays. -/
theorem algebraic : Cert.algebraic_KernelIdeal_ReferenceIdeal := by
  intro m ρ m' ρ' _ hagree
  refine ⟨fun c => Cert.KernelIdeal.Level0.result m c, fun c => Cert.KernelIdeal.Level1.result m c, fun c => Cert.KernelIdeal.Level2.result m c, fun c => Cert.KernelIdeal.Level3.result m c, fun c => Cert.KernelIdeal.Level4.result m c,
    Cert.KernelIdeal.Levels.run m ρ, ?_⟩
  refine (θ_run Cert.ReferenceIdeal.defs _ _).mono (fun r h c => ?_) (Cert.ReferenceIdeal.Value.run (F := Ideal) m' ρ')
  obtain ⟨g0, g1, g2, g3, g4, g5, g6, g7, g8, g9, g10, g11, g12, g13, g14⟩ := hagree c
  obtain ⟨h0, h1, h2, h3, h4, hargs⟩ := h c
  refine ⟨h0.trans ?_, h1.trans ?_, h2.trans ?_, h3.trans ?_, h4.trans ?_, hargs⟩
  · refine (Cert.ReferenceIdeal.Value.val4_main_v36 (StableHlo.launchContents m' c)).symm.trans
      ((Cert.ReferenceIdeal.Level0.result_eq (StableHlo.launchContents m' c)).trans ?_)
    show _ = Cert.KernelIdeal.Level0.result m c
    unfold Cert.KernelIdeal.Level0.result
    rw [← g0, ← g1, ← g2]
  · refine (Cert.ReferenceIdeal.Value.val4_main_v73 (StableHlo.launchContents m' c)).symm.trans
      ((Cert.ReferenceIdeal.Level1.result_eq (StableHlo.launchContents m' c)).trans ?_)
    show _ = Cert.KernelIdeal.Level1.result m c
    unfold Cert.KernelIdeal.Level1.result
    rw [← g3, ← g4, ← g5]
  · refine (Cert.ReferenceIdeal.Value.val4_main_v110 (StableHlo.launchContents m' c)).symm.trans
      ((Cert.ReferenceIdeal.Level2.result_eq (StableHlo.launchContents m' c)).trans ?_)
    show _ = Cert.KernelIdeal.Level2.result m c
    unfold Cert.KernelIdeal.Level2.result
    rw [← g6, ← g7, ← g8]
  · refine (Cert.ReferenceIdeal.Value.val4_main_v147 (StableHlo.launchContents m' c)).symm.trans
      ((Cert.ReferenceIdeal.Level3.result_eq (StableHlo.launchContents m' c)).trans ?_)
    show _ = Cert.KernelIdeal.Level3.result m c
    unfold Cert.KernelIdeal.Level3.result
    rw [← g9, ← g10, ← g11]
  · refine (Cert.ReferenceIdeal.Value.val4_main_v184 (StableHlo.launchContents m' c)).symm.trans
      ((Cert.ReferenceIdeal.Level4.result_eq (StableHlo.launchContents m' c)).trans ?_)
    show _ = Cert.KernelIdeal.Level4.result m c
    unfold Cert.KernelIdeal.Level4.result
    rw [← g12, ← g13, ← g14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
